-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024x3072 : Shape := ⟨2, ![1024, 3072]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x3x16x64 : Shape := ⟨4, ![512, 3, 16, 64]⟩
abbrev S512x1x16x64 : Shape := ⟨4, ![512, 1, 16, 64]⟩
abbrev S512x16x64 : Shape := ⟨3, ![512, 16, 64]⟩
abbrev S16x512x64 : Shape := ⟨3, ![16, 512, 64]⟩
abbrev S32x2048x64 : Shape := ⟨3, ![32, 2048, 64]⟩
abbrev S1x1024x64 : Shape := ⟨3, ![1, 1024, 64]⟩
abbrev S1024x1 : Shape := ⟨2, ![1024, 1]⟩
abbrev S1024x64 : Shape := ⟨2, ![1024, 64]⟩
abbrev S64x1024 : Shape := ⟨2, ![64, 1024]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024x3072, .f32⟩
  | .hbm, ⟨4, _⟩ => ⟨S1024x3072, .bf16⟩
  | .hbm, ⟨5, _⟩ => ⟨S1024x1024, .f32⟩
  | .hbm, ⟨6, _⟩ => ⟨S1024x1024, .bf16⟩
  | .hbm, ⟨7, _⟩ => ⟨S2x16x2048x64, .bf16⟩
  | .hbm, ⟨8, _⟩ => ⟨S2x16x2048x64, .bf16⟩
  | .hbm, ⟨9, _⟩ => ⟨S2x16x2048x64, .bf16⟩
  | .hbm, ⟨10, _⟩ => ⟨S32x2048x64, .bf16⟩
  | .hbm, ⟨11, _⟩ => ⟨S32x2048x64, .bf16⟩
  | .hbm, ⟨12, _⟩ => ⟨S32x2048x64, .bf16⟩
  | .hbm, ⟨13, _⟩ => ⟨S32x2048x64, .bf16⟩
  | .hbm, ⟨14, _⟩ => ⟨S2x16x2048x64, .bf16⟩
  | .hbm, ⟨15, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x16x512x64, .bf16⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .vmem, ⟨20, _⟩ => ⟨S1x16x512x64, .bf16⟩
  | .local _ .vmem, ⟨21, _⟩ => ⟨S1x16x512x64, .bf16⟩
  | .local _ .vmem, ⟨22, _⟩ => ⟨S1024x1024, .bf16⟩
  | .local _ .vmem, ⟨23, _⟩ => ⟨S1x512x1024, .f32⟩
  | .local _ .vmem, ⟨24, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![32, 2, 2], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S512x3072_S512x3x16x64 : S512x3072.ShapeCasts S512x3x16x64
  slices_S512x3x16x64_o0_0_0_0_S512x1x16x64 : S512x3x16x64.Slices ![0, 0, 0, 0] S512x1x16x64
  shapeCasts_S512x1x16x64_S512x16x64 : S512x1x16x64.ShapeCasts S512x16x64
  transposes_S512x16x64_p1_0_2_S16x512x64 : S512x16x64.Transposes [1, 0, 2] S16x512x64
  slices_S512x3x16x64_o0_1_0_0_S512x1x16x64 : S512x3x16x64.Slices ![0, 1, 0, 0] S512x1x16x64
  slices_S512x3x16x64_o0_2_0_0_S512x1x16x64 : S512x3x16x64.Slices ![0, 2, 0, 0] S512x1x16x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  shapeCasts_S2x16x2048x64_S32x2048x64 : S2x16x2048x64.ShapeCasts S32x2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x64.size a ≤ S2x16x2048x64.size a
  hwx0_2 : ∀ i : grid0.Coords, EltTy.bits .bf16 = 32 ∨ (Rect.block (s := S2x16x2048x64) S1x16x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S32x2048x64.size a
  hwx1_1 : ∀ i : grid1.Coords, EltTy.bits .bf16 = 32 ∨ (Rect.block (s := S32x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S32x2048x64.size a
  hwx1_2 : ∀ i : grid1.Coords, EltTy.bits .bf16 = 32 ∨ (Rect.block (s := S32x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .bf16 = 32 ∨ (Rect.block (s := S2x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S2x2048x1024.size a
  hwx2_2 : ∀ i : grid2.Coords, EltTy.bits .f32 = 32 ∨ (Rect.block (s := S2x2048x1024) S1x512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x16x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x16x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v9) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x16x64, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v16 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KRegion0.lean ====
import proofs.«122748_j71631464563424_2_alg».proof.Proof.Gen.Kernel.Launch
import proofs.«122748_j71631464563424_2_alg».proof.Proof.Gen.Kernel.Skeleton
import proofs.«122748_j71631464563424_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The QKV projection region: one 512-row slab of one batch element per grid point

A point reads its 512 x 1024 slab of the activations and the whole 1024 x 3072 weight, and writes the slab's
queries, keys and values, each as 16 heads of 512 x 64. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_o : Rect S1x16x512x64 := Rect.unit (s := S1x16x512x64) ![0, 0, 0, 0] S1x16x512x64.size inb_S1x16x512x64_S1x16x512x64_0_0_0_0

/-- What the body leaves in the query, key and value buffers, from the two input blocks: one whole-buffer store each. -/
def out0_2 (x0 : Vec F S1x512x1024 .f32) (x1 : Vec F S1024x3072 .bf16) : Vec F S1x16x512x64 .bf16 :=
  View.canon [⟨r0_o, k0_pay2 (View.ld x0 r0_x) (View.ld x1 r0_w)⟩]
def out0_3 (x0 : Vec F S1x512x1024 .f32) (x1 : Vec F S1024x3072 .bf16) : Vec F S1x16x512x64 .bf16 :=
  View.canon [⟨r0_o, k0_pay3 (View.ld x0 r0_x) (View.ld x1 r0_w)⟩]
def out0_4 (x0 : Vec F S1x512x1024 .f32) (x1 : Vec F S1024x3072 .bf16) : Vec F S1x16x512x64 .bf16 :=
  View.canon [⟨r0_o, k0_pay4 (View.ld x0 r0_x) (View.ld x1 r0_w)⟩]

/-- A whole-buffer store covers the buffer. -/
theorem cover0_o (p0 : Vec F S1x16x512x64 .bf16) (y : S1x16x512x64.Idx) :
    ∃ pc ∈ ([⟨r0_o, p0⟩] : List (View.Piece (Elt F) S1x16x512x64 .bf16)), y ∈ pc.1.set :=
  View.cover_of_tiled [⟨r0_o, p0⟩] S1x16x512x64.size (by rfl) y

set_option maxHeartbeats 4000000 in
/-- The body on whole staging buffers: the inputs come back as they were, each output holds its payload. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x16x512x64 .bf16) (harg4 : arg4.IsWhole) (arg5 : Memref sig .tc .vmem S1x16x512x64 .bf16) (harg5 : arg5.IsWhole)
    (arg6 : Memref sig .tc .vmem S1x16x512x64 .bf16) (harg6 : arg6.IsWhole)
    (x0 : Vec F S1x512x1024 .f32) (x1 : Vec F S1024x3072 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-- The region's proof data on core `c`: the arrays as the region finds them; after the body each input's buffer at
    its block and each output's at its payload of the input blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KRegion1.lean ====
import proofs.«122748_j71631464563424_2_alg».proof.Proof.Gen.Kernel.Launch
import proofs.«122748_j71631464563424_2_alg».proof.Proof.Gen.Kernel.Skeleton
import proofs.«122748_j71631464563424_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: one (batch, head) pair, one 1024-row query tile and one 1024-column key tile per grid point

The grid is (32 batch-head pairs) x (2 query tiles) x (2 key tiles), the key tile innermost.  Three scratch buffers
carry the streaming state of the 1024 query rows of the current tile across the key tiles: the running maximum,
the running normaliser and the running weighted sum.  At key tile 0 they are reset; at a key tile not beyond the
query tile they are updated; at the diagonal tile the output block is written. -/

/-- The three branch conditions of the body, from the grid coordinates. -/
abbrev cond1_1 (i : grid1.Coords) : Prop := (Scalar.cmpi .ne (Scalar.extui (Scalar.cmpi .eq (BitVec.ofNat 32 (i 2).val) 0#32)) 0#32) = 1#1
abbrev cond1_2 (i : grid1.Coords) : Prop := (Scalar.cmpi .ne (Scalar.extui (Scalar.cmpi .sle (BitVec.ofNat 32 (i 2).val) (BitVec.ofNat 32 (i 1).val))) 0#32) = 1#1
abbrev cond1_3 (i : grid1.Coords) : Prop := k1_cond3 i = 1#1

/-- Key tile 0: the even points. -/
theorem hcond1_1 : ∀ t : Fin cfg1.N, cond1_1 (grid1.coords t) ↔ t.val % 2 = 0 :=
  (by decide +kernel : ∀ t : Fin grid1.N, cond1_1 (grid1.coords t) ↔ t.val % 2 = 0)
/-- Key tile not beyond the query tile: every point but (query tile 0, key tile 1). -/
theorem hcond1_2 : ∀ t : Fin cfg1.N, cond1_2 (grid1.coords t) ↔ t.val % 4 ≠ 1 :=
  (by decide +kernel : ∀ t : Fin grid1.N, cond1_2 (grid1.coords t) ↔ t.val % 4 ≠ 1)
/-- The diagonal tiles. -/
theorem hcond1_3 : ∀ t : Fin cfg1.N, cond1_3 (grid1.coords t) ↔ (t.val % 4 = 0 ∨ t.val % 4 = 3) :=
  (by decide +kernel : ∀ t : Fin grid1.N, cond1_3 (grid1.coords t) ↔ (t.val % 4 = 0 ∨ t.val % 4 = 3))

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle of what a store through it, LAST, left reads that store's payload,
    whatever the earlier stores were. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A store through the whole-shape rectangle covers the buffer, whatever the earlier stores were. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-- Read what the run left in a buffer it stored whole: the last store's payload, its loads opened. -/
macro "sl_whole_k" : tactic => `(tactic| (
  sl_unfold_words
  refine (View.read_writes_eq_canon _ _ _ (fun y => cover_cons_unit_zero (by first | exact hz2 | exact hz3) _ _ _ y)).trans ?_
  simp only [View.canon_cons_unit_zero (S := S1024x1) hz2, View.canon_cons_unit_zero (S := S1024x64) hz2, View.canon_cons_unit_zero (S := S1x1024x64) hz3,
      readCov_cons_unit_zero (S := S1024x1) _ hz2, readCov_cons_unit_zero (S := S1024x64) _ hz2, readCov_cons_unit_zero (S := S1x1024x64) _ hz3,
      View.readAt_eq_ld, View.ld_unit_zero (S := S1024x1) hz2, View.ld_unit_zero (S := S1024x64) hz2, View.ld_unit_zero (S := S1x1024x64) hz3]
  rfl))

/-! ## One update of the streaming state, and the final division, as functions of the blocks -/

/-- The running maximum after a key tile. -/
def updM (a1 a2 : BitVec 32) (q k : Vec F S1x1024x64 .bf16) (m : Vec F S1024x1 .f32) : Vec F S1024x1 .f32 :=
  k1_pay6 (k1_pay10 a1 a2 q k m)
/-- The running normaliser after a key tile. -/
def updL (a1 a2 : BitVec 32) (q k : Vec F S1x1024x64 .bf16) (m l : Vec F S1024x1 .f32) : Vec F S1024x1 .f32 :=
  k1_pay4 (k1_pay13 a1 a2 q k m m l)
/-- The running weighted sum after a key tile. -/
def updA (a1 a2 : BitVec 32) (q k v : Vec F S1x1024x64 .bf16) (m : Vec F S1024x1 .f32) (a : Vec F S1024x64 .f32) : Vec F S1024x64 .f32 :=
  k1_pay5 (k1_pay8 v) (k1_pay11 a1 a2 q k m m) (k1_pay12 a1 a2 q k m) a
/-- The output block: the weighted sum times the reciprocal of the normaliser. -/
def fin1 (a : Vec F S1024x64 .f32) (l : Vec F S1024x1 .f32) : Vec F S1x1024x64 .bf16 := k1_pay7 a l

set_option maxHeartbeats 4000000 in
/-- A diagonal tile that is not key tile 0: update from the carried state, then write the output block. -/
theorem sound_kernel1_C (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : ¬cond1_1 i) (hc2 : cond1_2 i) (hc3 : cond1_3 i)
    (xq xk xv : Vec F S1x1024x64 .bf16) (xm xl : Vec F S1024x1 .f32) (xa : Vec F S1024x64 .f32) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare xq ∗ owns (c : Thread nD τ) arg4 fullShare xk ∗ owns (c : Thread nD τ) arg5 fullShare xv
            ∗ owns (c : Thread nD τ) arg6 fullShare
                (fin1 (updA (BitVec.ofNat 32 (i 1).val) (BitVec.ofNat 32 (i 2).val) xq xk xv xm xa)
                  (updL (BitVec.ofNat 32 (i 1).val) (BitVec.ofNat 32 (i 2).val) xq xk xm xl))
            ∗ owns (c : Thread nD τ) arg7 fullShare (updM (BitVec.ofNat 32 (i 1).val) (BitVec.ofNat 32 (i 2).val) xq xk xm)
            ∗ owns (c : Thread nD τ) arg8 fullShare (updL (BitVec.ofNat 32 (i 1).val) (BitVec.ofNat 32 (i 2).val) xq xk xm xl)
            ∗ owns (c : Thread nD τ) arg9 fullShare (updA (BitVec.ofNat 32 (i 1).val) (BitVec.ofNat 32 (i 2).val) xq xk xv xm xa)) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_whole_k
  isplitl [H7]
  · iexists _; isplitr
    swap; · iexact H7
    ipureintro
    sl_whole_k
  isplitl [H8]
  · iexists _; isplitr
    swap; · iexact H8
    ipureintro
    sl_whole_k
  iexists _; isplitr
  swap; · iexact H9
  ipureintro
  sl_whole_k

set_option maxHeartbeats 4000000 in
/-- Key tile 0 on the diagonal (query tile 0): reset, update, write the output block. -/
theorem sound_kernel1_A0 (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : cond1_1 i) (hc2 : cond1_2 i) (hc3 : cond1_3 i)
    (xq xk xv : Vec F S1x1024x64 .bf16) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare xq ∗ owns (c : Thread nD τ) arg4 fullShare xk ∗ owns (c : Thread nD τ) arg5 fullShare xv
            ∗ owns (c : Thread nD τ) arg6 fullShare (fin1 (updA (BitVec.ofNat 32 (i 1).val) (BitVec.ofNat 32 (i 2).val) xq xk xv (k1_pay1 (F := F)) (k1_pay3 (F := F))) (updL (BitVec.ofNat 32 (i 1).val) (BitVec.ofNat 32 (i 2).val) xq xk (k1_pay1 (F := F)) (k1_pay2 (F := F))))
            ∗ owns (c : Thread nD τ) arg7 fullShare (updM (BitVec.ofNat 32 (i 1).val) (BitVec.ofNat 32 (i 2).val) xq xk (k1_pay1 (F := F))) ∗ owns (c : Thread nD τ) arg8 fullShare (updL (BitVec.ofNat 32 (i 1).val) (BitVec.ofNat 32 (i 2).val) xq xk (k1_pay1 (F := F)) (k1_pay2 (F := F))) ∗ owns (c : Thread nD τ) arg9 fullShare (updA (BitVec.ofNat 32 (i 1).val) (BitVec.ofNat 32 (i 2).val) xq xk xv (k1_pay1 (F := F)) (k1_pay3 (F := F)))) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf3; subst hf4; subst hf5
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_whole_k
  isplitl [H7]
  · iexists _; isplitr
    swap; · iexact H7
    ipureintro
    sl_whole_k
  isplitl [H8]
  · iexists _; isplitr
    swap; · iexact H8
    ipureintro
    sl_whole_k
  iexists _; isplitr
  swap; · iexact H9
  ipureintro
  sl_whole_k

set_option maxHeartbeats 4000000 in
/-- Key tile 0 below the diagonal (query tile 1): reset and update; the output buffer is left as found. -/
theorem sound_kernel1_A1 (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : cond1_1 i) (hc2 : cond1_2 i) (hc3 : ¬cond1_3 i)
    (xq xk xv xo : Vec F S1x1024x64 .bf16) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (updM (BitVec.ofNat 32 (i 1).val) (BitVec.ofNat 32 (i 2).val) xq xk (k1_pay1 (F := F))) ∗ owns (c : Thread nD τ) arg8 fullShare (updL (BitVec.ofNat 32 (i 1).val) (BitVec.ofNat 32 (i 2).val) xq xk (k1_pay1 (F := F)) (k1_pay2 (F := F))) ∗ owns (c : Thread nD τ) arg9 fullShare (updA (BitVec.ofNat 32 (i 1).val) (BitVec.ofNat 32 (i 2).val) xq xk xv (k1_pay1 (F := F)) (k1_pay3 (F := F)))) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_whole_k
  isplitl [H8]
  · iexists _; isplitr
    swap; · iexact H8
    ipureintro
    sl_whole_k
  iexists _; isplitr
  swap; · iexact H9
  ipureintro
  sl_whole_k

set_option maxHeartbeats 4000000 in
/-- A key tile beyond the query tile: nothing is read or written. -/
theorem sound_kernel1_B (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : ¬cond1_1 i) (hc2 : ¬cond1_2 i) (hc3 : ¬cond1_3 i)
    (K : PUnit → sProp 𝕄) :
    K ⟨⟩
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  iintro Hk
  sl_exec (disch := first | exact hc1 | exact hc2 | exact hc3)
  sl_step
  iexact Hk

/-! ## The scoped buffers that are no staging buffer of this region, with the three scratch buffers singled out -/

/-- The region's scoped rest with the three scratch buffers at `P0`, `P1`, `P2`, the others at anything. -/
def Rest1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))
/-- The other scoped buffers, at anything. -/
def Others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem Rest1_out (c : Dev nD) (P0 P1 P2 : sProp 𝕄) : Rest1 (F := F) c P0 P1 P2 ⊢ iprop(P0 ∗ P1 ∗ P2 ∗ Others1 (F := F) c) := by
  unfold Rest1 Others1
  iintro ⟨G0, G1, G2, G3, G4, G5, G6, G7, G8, G9, G10, G11, G12, G13, G14, G15, G16⟩
  isplitl [G9]; · iexact G9
  isplitl [G10]; · iexact G10
  isplitl [G11]; · iexact G11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G12]; · iexact G12
  isplitl [G13]; · iexact G13
  isplitl [G14]; · iexact G14
  isplitl [G15]; · iexact G15
  iexact G16

theorem Rest1_in (c : Dev nD) (P0 P1 P2 : sProp 𝕄) : iprop(P0 ∗ P1 ∗ P2 ∗ Others1 (F := F) c) ⊢ Rest1 (F := F) c P0 P1 P2 := by
  unfold Rest1 Others1
  iintro ⟨H0, H1, H2, G0, G1, G2, G3, G4, G5, G6, G7, G8, G12, G13, G14, G15, G16⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [H0]; · iexact H0
  isplitl [H1]; · iexact H1
  isplitl [H2]; · iexact H2
  isplitl [G12]; · iexact G12
  isplitl [G13]; · iexact G13
  isplitl [G14]; · iexact G14
  isplitl [G15]; · iexact G15
  iexact G16

/-- The scratch operands as the pipeline passes them. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The class invariant with the scratch buffers as memrefs owned at some contents. -/
theorem PhiA1_eq (c : Dev nD) :
    (Pipeline.ΦA spec1 c : sProp 𝕄)
      = iprop(Rest1 (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  unfold Pipeline.ΦA Rest1; rw [scopedRest1_eq]; simp only [scM1_0, scM1_1, scM1_2, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the points leave, by recursion on the point -/

/-- The grid coordinates the body computes with at point `t`: the query tile and the key tile. -/
abbrev qi1 (t : Fin cfg1.N) : BitVec 32 := BitVec.ofNat 32 ((grid1.coords t) 1).val
abbrev kv1 (t : Fin cfg1.N) : BitVec 32 := BitVec.ofNat 32 ((grid1.coords t) 2).val

/-- The streaming state after a reset and one update at point `t`. -/
def resetAt (c : Dev nD) (t : Fin cfg1.N) : Vec F S1024x1 .f32 × Vec F S1024x1 .f32 × Vec F S1024x64 .f32 :=
  (updM (qi1 t) (kv1 t) (iblk1 V c 0 t) (iblk1 V c 1 t) (k1_pay1 (F := F)),
   updL (qi1 t) (kv1 t) (iblk1 V c 0 t) (iblk1 V c 1 t) (k1_pay1 (F := F)) (k1_pay2 (F := F)),
   updA (qi1 t) (kv1 t) (iblk1 V c 0 t) (iblk1 V c 1 t) (iblk1 V c 2 t) (k1_pay1 (F := F)) (k1_pay3 (F := F)))
/-- The streaming state after one update at point `t` of the carried state `s`. -/
def stepAt (c : Dev nD) (t : Fin cfg1.N) (s : Vec F S1024x1 .f32 × Vec F S1024x1 .f32 × Vec F S1024x64 .f32) :
    Vec F S1024x1 .f32 × Vec F S1024x1 .f32 × Vec F S1024x64 .f32 :=
  (updM (qi1 t) (kv1 t) (iblk1 V c 0 t) (iblk1 V c 1 t) s.1,
   updL (qi1 t) (kv1 t) (iblk1 V c 0 t) (iblk1 V c 1 t) s.1 s.2.1,
   updA (qi1 t) (kv1 t) (iblk1 V c 0 t) (iblk1 V c 1 t) (iblk1 V c 2 t) s.1 s.2.2)

/-- What the output's staging buffer and the three scratch buffers hold after the body at position `n`:
    position 4b is (query tile 0, key tile 0) of pair b: reset, update, write; 4b+1 is (0, 1): nothing moves;
    4b+2 is (1, 0): reset and update, the output buffer untouched; 4b+3 is (1, 1): update, write. -/
def outsAt1 (c : Dev nD) : (n : ℕ) → n < cfg1.N →
    Vec F S1x1024x64 .bf16 × (Vec F S1024x1 .f32 × Vec F S1024x1 .f32 × Vec F S1024x64 .f32)
  | 0, hn => (fin1 (resetAt V c ⟨0, hn⟩).2.2 (resetAt V c ⟨0, hn⟩).2.1, resetAt V c ⟨0, hn⟩)
  | n + 1, hn =>
    if h0 : (n + 1) % 4 = 0 then (fin1 (resetAt V c ⟨n + 1, hn⟩).2.2 (resetAt V c ⟨n + 1, hn⟩).2.1, resetAt V c ⟨n + 1, hn⟩)
    else if h1 : (n + 1) % 4 = 1 then outsAt1 c n (Nat.lt_of_succ_lt hn)
    else if h2 : (n + 1) % 4 = 2 then ((outsAt1 c n (Nat.lt_of_succ_lt hn)).1, resetAt V c ⟨n + 1, hn⟩)
    else (fin1 (stepAt V c ⟨n + 1, hn⟩ (outsAt1 c n (Nat.lt_of_succ_lt hn)).2).2.2 (stepAt V c ⟨n + 1, hn⟩ (outsAt1 c n (Nat.lt_of_succ_lt hn)).2).2.1,
          stepAt V c ⟨n + 1, hn⟩ (outsAt1 c n (Nat.lt_of_succ_lt hn)).2)

theorem outsAt1_A0 (c : Dev nD) (t : Fin cfg1.N) (h : t.val % 4 = 0) :
    outsAt1 V c t.val t.isLt = (fin1 (resetAt V c t).2.2 (resetAt V c t).2.1, resetAt V c t) := by
  obtain ⟨n, hn⟩ := t
  cases n with
  | zero => rfl
  | succ n => exact (dif_pos h).trans rfl

theorem outsAt1_B (c : Dev nD) (t : Fin cfg1.N) (h : t.val % 4 = 1) :
    outsAt1 V c t.val t.isLt = outsAt1 V c (t.val - 1) (Nat.lt_of_le_of_lt (Nat.sub_le _ _) t.isLt) := by
  obtain ⟨n, hn⟩ := t
  cases n with
  | zero => simp at h
  | succ n => exact (dif_neg (by dsimp only at h; omega)).trans ((dif_pos h).trans rfl)

theorem outsAt1_A1 (c : Dev nD) (t : Fin cfg1.N) (h : t.val % 4 = 2) :
    outsAt1 V c t.val t.isLt = ((outsAt1 V c (t.val - 1) (Nat.lt_of_le_of_lt (Nat.sub_le _ _) t.isLt)).1, resetAt V c t) := by
  obtain ⟨n, hn⟩ := t
  cases n with
  | zero => simp at h
  | succ n => exact (dif_neg (by dsimp only at h; omega)).trans ((dif_neg (by dsimp only at h; omega)).trans ((dif_pos h).trans rfl))

theorem outsAt1_C (c : Dev nD) (t : Fin cfg1.N) (h : t.val % 4 = 3) :
    outsAt1 V c t.val t.isLt
      = (fin1 (stepAt V c t (outsAt1 V c (t.val - 1) (Nat.lt_of_le_of_lt (Nat.sub_le _ _) t.isLt)).2).2.2
              (stepAt V c t (outsAt1 V c (t.val - 1) (Nat.lt_of_le_of_lt (Nat.sub_le _ _) t.isLt)).2).2.1,
          stepAt V c t (outsAt1 V c (t.val - 1) (Nat.lt_of_le_of_lt (Nat.sub_le _ _) t.isLt)).2) := by
  obtain ⟨n, hn⟩ := t
  cases n with
  | zero => simp at h
  | succ n => exact (dif_neg (by dsimp only at h; omega)).trans ((dif_neg (by dsimp only at h; omega)).trans ((dif_neg (by dsimp only at h; omega)).trans rfl))

/-- The region invariant before position `n`: before the first point the class's; afterwards the scoped rest with the
    three scratch buffers at what the point before left, and the generator register at some state. -/
def PhiS1 (c : Dev nD) : (n : ℕ) → n ≤ cfg1.N → sProp 𝕄
  | 0, _ => Pipeline.ΦA spec1 c
  | n + 1, hn => iprop(Rest1 (F := F) c (owns (c : Thread nD τ) scM1_0 fullShare (outsAt1 V c n hn).2.1)
      (owns (c : Thread nD τ) scM1_1 fullShare (outsAt1 V c n hn).2.2.1)
      (owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c (owns (c : Thread nD τ) scM1_0 fullShare (outsAt1 V c n hn).2.1)
      (owns (c : Thread nD τ) scM1_1 fullShare (outsAt1 V c n hn).2.2.1)
      (owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(Rest1 (F := F) c (owns (c : Thread nD τ) scM1_0 fullShare (outsAt1 V c (n - 1) (by omega)).2.1)
      (owns (c : Thread nD τ) scM1_1 fullShare (outsAt1 V c (n - 1) (by omega)).2.2.1)
      (owns (c : Thread nD τ) scM1_2 fullShare (outsAt1 V c (n - 1) (by omega)).2.2.2) ∗ (∃ r, prngReg c r)) := by
  cases n with
  | zero => exact absurd rfl hz
  | succ n => rfl

/-- Whatever the position, the invariant gives the scratch buffers at SOME contents: enough for a point that resets them. -/
theorem PhiS1_any (c : Dev nD) (n : ℕ) (h : n ≤ cfg1.N) :
    PhiS1 V c n h ⊢ iprop(Rest1 (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  cases n with
  | zero => rw [PhiS1_zero V c 0 h rfl, PhiA1_eq]
  | succ n =>
    rw [PhiS1_succ]
    iintro ⟨HR, Hg⟩
    isplitl [HR]
    · ihave HR' := (Rest1_out c _ _ _) $$ HR
      icases HR' with ⟨H0, H1, H2, HO⟩
      iapply (Rest1_in c _ _ _)
      isplitl [H0]; · iexists _; iexact H0
      isplitl [H1]; · iexists _; iexact H1
      isplitl [H2]; · iexists _; iexact H2
      iexact HO
    iexact Hg

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle, and where it is written back -/

theorem liveAt1_3 (t : Fin cfg1.N) (h : cond1_3 (grid1.coords t)) : cfg1.idle 3 (grid1.coords t) = false := by
  show (!(k1_cond3 (grid1.coords t) == 1#1)) = false
  rw [h]; rfl
theorem idleAt1_3 (t : Fin cfg1.N) (h : ¬cond1_3 (grid1.coords t)) : cfg1.idle 3 (grid1.coords t) = true := by
  show (!(k1_cond3 (grid1.coords t) == 1#1)) = true
  rw [Bool.not_eq_true', beq_eq_false_iff_ne]; exact h
theorem noFlush1_3 (t : Fin cfg1.N) (h : t.val % 2 = 0) : (cfg1.win 3).flush t = false :=
  Bool.eq_false_iff.mpr fun hf => by have := (flush1_3 t).mp hf; omega
theorem flushAt1_3 (t : Fin cfg1.N) (h : t.val % 2 = 1) : (cfg1.win 3).flush t = true := (flush1_3 t).mpr h

/-- At (query tile 0, key tile 1) the output's staging buffer still holds what the diagonal point before it wrote:
    that point does not write the block back, and stores into the buffer. -/
theorem before1_3_B (c : Dev nD) (t : Fin cfg1.N) (h : t.val % 4 = 1) (d) :
    (dat1 V c).before 3 t d = (dat1 V c).after 3 ⟨t.val - 1, Nat.lt_of_le_of_lt (Nat.sub_le _ _) t.isLt⟩ := by
  have ht : t.val ≠ 0 := by omega
  rw [(dat1 V c).before_of_pos 3 t ht ((cfg1.win 3).fetch_out rfl t) d,
    noFlush1_3 ⟨t.val - 1, Nat.lt_of_le_of_lt (Nat.sub_le _ _) t.isLt⟩ (by show (t.val - 1) % 2 = 0; omega), if_neg Bool.false_ne_true]
  unfold Dat.left
  rw [show cfg1.idle 3 (cfg1.grid.coords ⟨t.val - 1, Nat.lt_of_le_of_lt (Nat.sub_le _ _) t.isLt⟩) = false from
    liveAt1_3 ⟨t.val - 1, Nat.lt_of_le_of_lt (Nat.sub_le _ _) t.isLt⟩ ((hcond1_3 _).mpr (Or.inl (by show (t.val - 1) % 4 = 0; omega)))]
  show (dat1 V c).kept 3 ⟨t.val - 1, Nat.lt_of_le_of_lt (Nat.sub_le _ _) t.isLt⟩ d = _
  unfold Dat.kept
  rw [Pipeline.fill_of_clip_none 3 _ (fun _ => rfl) d ((dat1 V c).after 3 _), Window.fill_cut]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3_live (c : Dev nD) (t : Fin cfg1.N) (h : cond1_3 (grid1.coords t)) :
    (dat1 V c).leavesExact 3 t = owns (c : Thread nD τ) (st1_3 t) fullShare ((outsAt1 V c t.val t.isLt).1) := by
  rw [← after1_3]; unfold Dat.leavesExact; rw [liveAt1_3 t h]
theorem leaves1_3_flush (c : Dev nD) (t : Fin cfg1.N) (h : ¬cond1_3 (grid1.coords t)) (hf : t.val % 2 = 1) :
    (dat1 V c).leavesExact 3 t = owns (c : Thread nD τ) (st1_3 t) fullShare ((outsAt1 V c t.val t.isLt).1) := by
  rw [← after1_3]; unfold Dat.leavesExact; rw [idleAt1_3 t h, flushAt1_3 t hf]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ,
    leaves1_0, leaves1_1, leaves1_2, PhiS1_castSucc]
  have h4 : t.val % 4 = 0 ∨ t.val % 4 = 1 ∨ t.val % 4 = 2 ∨ t.val % 4 = 3 := by omega
  rcases h4 with h | h | h | h
  · -- (query tile 0, key tile 0): reset, update, write
    have hc1 : cond1_1 (grid1.coords t) := (hcond1_1 t).mpr (by omega)
    have hc2 : cond1_2 (grid1.coords t) := (hcond1_2 t).mpr (by omega)
    have hc3 : cond1_3 (grid1.coords t) := (hcond1_3 t).mpr (Or.inl h)
    rw [leaves1_3_live V c t hc3, outsAt1_A0 V c t h]
    unfold resetAt; dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨HR, Hg⟩
    ihave HR' := (Rest1_out c _ _ _) $$ HR
    icases HR' with ⟨HS0, HS1, HS2, HO⟩
    iapply (sound_kernel1_A0 c Set.univ (grid1.coords t) _ _ _ _ _ _ _ _ _ _ _ _ _ _ hc1 hc2 hc3 (iblk1 V c 0 t) (iblk1 V c 1 t) (iblk1 V c 2 t) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexact H3
  · -- (query tile 0, key tile 1): nothing moves; the output block is written back after this point
    have hc1 : ¬cond1_1 (grid1.coords t) := fun hh => by have := (hcond1_1 t).mp hh; omega
    have hc2 : ¬cond1_2 (grid1.coords t) := fun hh => (hcond1_2 t).mp hh h
    have hc3 : ¬cond1_3 (grid1.coords t) := fun hh => by have := (hcond1_3 t).mp hh; omega
    have ht : t.val ≠ 0 := by omega
    rw [leaves1_3_flush V c t hc3 (by omega), outsAt1_B V c t h, PhiS1_pos V c _ _ ht]
    simp only [before1_3_B V c t h, after1_3]
    iintro ⟨HΦ, Ho, ⟨%d0, H0⟩, ⟨%d1, H1⟩, ⟨%d2, H2⟩, ⟨%d3, H3⟩⟩
    iapply (sound_kernel1_B c Set.univ (grid1.coords t) _ _ _ _ _ _ _ _ _ _ _ _ _ _ hc1 hc2 hc3 _)
    isplitl [HΦ]; · iexact HΦ
    isplitl [Ho]; · iexact Ho
    isplitl [H0]; · iexact H0
    isplitl [H1]; · iexact H1
    isplitl [H2]; · iexact H2
    iexact H3
  · -- (query tile 1, key tile 0): reset and update; the output buffer handed back as found
    have hc1 : cond1_1 (grid1.coords t) := (hcond1_1 t).mpr (by omega)
    have hc2 : cond1_2 (grid1.coords t) := (hcond1_2 t).mpr (by omega)
    have hc3 : ¬cond1_3 (grid1.coords t) := fun hh => by have := (hcond1_3 t).mp hh; omega
    rw [Dat.leavesExact_idle (dat1 V c) 3 t (idleAt1_3 t hc3) (noFlush1_3 t (by omega)), outsAt1_A1 V c t h]
    unfold resetAt; dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨HR, Hg⟩
    ihave HR' := (Rest1_out c _ _ _) $$ HR
    icases HR' with ⟨HS0, HS1, HS2, HO⟩
    iapply (sound_kernel1_A1 c Set.univ (grid1.coords t) _ _ _ _ _ _ _ _ _ _ _ _ _ _ hc1 hc2 hc3 (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexists _; iexact H3
  · -- (query tile 1, key tile 1): update from the carried state, write
    have hc1 : ¬cond1_1 (grid1.coords t) := fun hh => by have := (hcond1_1 t).mp hh; omega
    have hc2 : cond1_2 (grid1.coords t) := (hcond1_2 t).mpr (by omega)
    have hc3 : cond1_3 (grid1.coords t) := (hcond1_3 t).mpr (Or.inr h)
    have ht : t.val ≠ 0 := by omega
    rw [leaves1_3_live V c t hc3, outsAt1_C V c t h, PhiS1_pos V c _ _ ht]
    unfold stepAt; dsimp only
    iintro ⟨⟨HR, Hg⟩, Ho, ⟨%d0, H0⟩, ⟨%d1, H1⟩, ⟨%d2, H2⟩, ⟨%d3, H3⟩⟩
    ihave HR' := (Rest1_out c _ _ _) $$ HR
    icases HR' with ⟨HS0, HS1, HS2, HO⟩
    iapply (sound_kernel1_C c Set.univ (grid1.coords t) _ _ _ _ _ _ _ _ _ _ _ _ _ _ hc1 hc2 hc3 (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.Kernel.Gen

end
-- ==== Proof.KRegion2.lean ====
import proofs.«122748_j71631464563424_2_alg».proof.Proof.Gen.Kernel.Launch
import proofs.«122748_j71631464563424_2_alg».proof.Proof.Gen.Kernel.Skeleton
import proofs.«122748_j71631464563424_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection region: one 512-row slab of one batch element per grid point

A point reads its slab of the attention output (16 heads of 512 x 64) and the whole 1024 x 1024 weight, and writes
the slab's 512 x 1024 result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_o : Rect S1x16x512x64 := Rect.unit (s := S1x16x512x64) ![0, 0, 0, 0] S1x16x512x64.size inb_S1x16x512x64_S1x16x512x64_0_0_0_0
abbrev r2_w : Rect S1024x1024 := Rect.unit (s := S1024x1024) ![0, 0] S1024x1024.size inb_S1024x1024_S1024x1024_0_0
abbrev r2_y : Rect S1x512x1024 := Rect.unit (s := S1x512x1024) ![0, 0, 0] S1x512x1024.size inb_S1x512x1024_S1x512x1024_0_0_0

/-- What the body leaves in the result buffer, from the two input blocks: one whole-buffer store. -/
def out2_2 (x0 : Vec F S1x16x512x64 .bf16) (x1 : Vec F S1024x1024 .bf16) : Vec F S1x512x1024 .f32 :=
  View.canon [⟨r2_y, k2_pay1 (View.ld x0 r2_o) (View.ld x1 r2_w)⟩]

/-- A whole-buffer store covers the buffer. -/
theorem cover2_y (p0 : Vec F S1x512x1024 .f32) (y : S1x512x1024.Idx) :
    ∃ pc ∈ ([⟨r2_y, p0⟩] : List (View.Piece (Elt F) S1x512x1024 .f32)), y ∈ pc.1.set :=
  View.cover_of_tiled [⟨r2_y, p0⟩] S1x512x1024.size (by rfl) y

set_option maxHeartbeats 4000000 in
/-- The body on whole staging buffers: the inputs come back as they were, the output holds its payload. -/
theorem sound_kernel2 (c : Dev nD) (E : Set ℕ) (i : grid2.Coords)
    (arg2 : Memref sig .tc .vmem S1x16x512x64 .bf16) (harg2 : arg2.IsWhole) (arg3 : Memref sig .tc .vmem S1024x1024 .bf16) (harg3 : arg3.IsWhole)
    (arg4 : Memref sig .tc .vmem S1x512x1024 .f32) (harg4 : arg4.IsWhole)
    (x0 : Vec F S1x16x512x64 .bf16) (x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__outproj_kernel i arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_y _)

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KRun.lean ====
import proofs.«122748_j71631464563424_2_alg».proof.Proof.Gen.Kernel.Launch
import proofs.«122748_j71631464563424_2_alg».proof.Proof.Gen.Kernel.Skeleton
import proofs.«122748_j71631464563424_2_alg».proof.Proof.Gen.Kernel.Points
import proofs.«122748_j71631464563424_2_alg».proof.Proof.KRegion0
import proofs.«122748_j71631464563424_2_alg».proof.Proof.KRegion1
import proofs.«122748_j71631464563424_2_alg».proof.Proof.KRegion2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Att

variable (m : (ℓ : Loc nD τ sig) → Buf (Elt F) ℓ) (ρ : Dev nD → PrngReg)

/-! # The run: the three regions among the host operations, from the launch to the return

The contents of every unscoped buffer at each boundary are a fold through the program: the launch memory, then each
stretch of host operations applied, then each region's arrays at what its write-backs leave. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the contents
    after it; its arrays split out of the unscoped buffers and put back; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back; the generator register into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Att

end Cert.Kernel.Gen

end
-- ==== Proof.KIRegion0.lean ====
import proofs.«122748_j71631464563424_2_alg».proof.Proof.Gen.KernelIdeal.Launch
import proofs.«122748_j71631464563424_2_alg».proof.Proof.Gen.KernelIdeal.Skeleton
import proofs.«122748_j71631464563424_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The QKV projection region: one 512-row slab of one batch element per grid point

A point reads its 512 x 1024 slab of the activations and the whole 1024 x 3072 weight, and writes the slab's
queries, keys and values, each as 16 heads of 512 x 64. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0
abbrev r0_o : Rect S1x16x512x64 := Rect.unit (s := S1x16x512x64) ![0, 0, 0, 0] S1x16x512x64.size inb_S1x16x512x64_S1x16x512x64_0_0_0_0

/-- What the body leaves in the query, key and value buffers, from the two input blocks: one whole-buffer store each. -/
def out0_2 (x0 : Vec F S1x512x1024 .f32) (x1 : Vec F S1024x3072 .bf16) : Vec F S1x16x512x64 .bf16 :=
  View.canon [⟨r0_o, k0_pay2 (View.ld x0 r0_x) (View.ld x1 r0_w)⟩]
def out0_3 (x0 : Vec F S1x512x1024 .f32) (x1 : Vec F S1024x3072 .bf16) : Vec F S1x16x512x64 .bf16 :=
  View.canon [⟨r0_o, k0_pay3 (View.ld x0 r0_x) (View.ld x1 r0_w)⟩]
def out0_4 (x0 : Vec F S1x512x1024 .f32) (x1 : Vec F S1024x3072 .bf16) : Vec F S1x16x512x64 .bf16 :=
  View.canon [⟨r0_o, k0_pay4 (View.ld x0 r0_x) (View.ld x1 r0_w)⟩]

/-- A whole-buffer store covers the buffer. -/
theorem cover0_o (p0 : Vec F S1x16x512x64 .bf16) (y : S1x16x512x64.Idx) :
    ∃ pc ∈ ([⟨r0_o, p0⟩] : List (View.Piece (Elt F) S1x16x512x64 .bf16)), y ∈ pc.1.set :=
  View.cover_of_tiled [⟨r0_o, p0⟩] S1x16x512x64.size (by rfl) y

set_option maxHeartbeats 4000000 in
/-- The body on whole staging buffers: the inputs come back as they were, each output holds its payload. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x16x512x64 .bf16) (harg4 : arg4.IsWhole) (arg5 : Memref sig .tc .vmem S1x16x512x64 .bf16) (harg5 : arg5.IsWhole)
    (arg6 : Memref sig .tc .vmem S1x16x512x64 .bf16) (harg6 : arg6.IsWhole)
    (x0 : Vec F S1x512x1024 .f32) (x1 : Vec F S1024x3072 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-- The region's proof data on core `c`: the arrays as the region finds them; after the body each input's buffer at
    its block and each output's at its payload of the input blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KIRegion1.lean ====
import proofs.«122748_j71631464563424_2_alg».proof.Proof.Gen.KernelIdeal.Launch
import proofs.«122748_j71631464563424_2_alg».proof.Proof.Gen.KernelIdeal.Skeleton
import proofs.«122748_j71631464563424_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention region: one (batch, head) pair, one 1024-row query tile and one 1024-column key tile per grid point

The grid is (32 batch-head pairs) x (2 query tiles) x (2 key tiles), the key tile innermost.  Three scratch buffers
carry the streaming state of the 1024 query rows of the current tile across the key tiles: the running maximum,
the running normaliser and the running weighted sum.  At key tile 0 they are reset; at a key tile not beyond the
query tile they are updated; at the diagonal tile the output block is written. -/

/-- The three branch conditions of the body, from the grid coordinates. -/
abbrev cond1_1 (i : grid1.Coords) : Prop := (Scalar.cmpi .ne (Scalar.extui (Scalar.cmpi .eq (BitVec.ofNat 32 (i 2).val) 0#32)) 0#32) = 1#1
abbrev cond1_2 (i : grid1.Coords) : Prop := (Scalar.cmpi .ne (Scalar.extui (Scalar.cmpi .sle (BitVec.ofNat 32 (i 2).val) (BitVec.ofNat 32 (i 1).val))) 0#32) = 1#1
abbrev cond1_3 (i : grid1.Coords) : Prop := k1_cond3 i = 1#1

/-- Key tile 0: the even points. -/
theorem hcond1_1 : ∀ t : Fin cfg1.N, cond1_1 (grid1.coords t) ↔ t.val % 2 = 0 :=
  (by decide +kernel : ∀ t : Fin grid1.N, cond1_1 (grid1.coords t) ↔ t.val % 2 = 0)
/-- Key tile not beyond the query tile: every point but (query tile 0, key tile 1). -/
theorem hcond1_2 : ∀ t : Fin cfg1.N, cond1_2 (grid1.coords t) ↔ t.val % 4 ≠ 1 :=
  (by decide +kernel : ∀ t : Fin grid1.N, cond1_2 (grid1.coords t) ↔ t.val % 4 ≠ 1)
/-- The diagonal tiles. -/
theorem hcond1_3 : ∀ t : Fin cfg1.N, cond1_3 (grid1.coords t) ↔ (t.val % 4 = 0 ∨ t.val % 4 = 3) :=
  (by decide +kernel : ∀ t : Fin grid1.N, cond1_3 (grid1.coords t) ↔ (t.val % 4 = 0 ∨ t.val % 4 = 3))

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle of what a store through it, LAST, left reads that store's payload,
    whatever the earlier stores were. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A store through the whole-shape rectangle covers the buffer, whatever the earlier stores were. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-- Read what the run left in a buffer it stored whole: the last store's payload, its loads opened. -/
macro "sl_whole_ki" : tactic => `(tactic| (
  sl_unfold_words
  refine (View.read_writes_eq_canon _ _ _ (fun y => cover_cons_unit_zero (by first | exact hz2 | exact hz3) _ _ _ y)).trans ?_
  simp only [View.canon_cons_unit_zero (S := S1024x1) hz2, View.canon_cons_unit_zero (S := S1024x64) hz2, View.canon_cons_unit_zero (S := S1x1024x64) hz3,
      readCov_cons_unit_zero (S := S1024x1) _ hz2, readCov_cons_unit_zero (S := S1024x64) _ hz2, readCov_cons_unit_zero (S := S1x1024x64) _ hz3,
      View.readAt_eq_ld, View.ld_unit_zero (S := S1024x1) hz2, View.ld_unit_zero (S := S1024x64) hz2, View.ld_unit_zero (S := S1x1024x64) hz3]
  rfl))

/-! ## One update of the streaming state, and the final division, as functions of the blocks -/

/-- The running maximum after a key tile. -/
def updM (a1 a2 : BitVec 32) (q k : Vec F S1x1024x64 .bf16) (m : Vec F S1024x1 .f32) : Vec F S1024x1 .f32 :=
  k1_pay6 (k1_pay10 a1 a2 q k m)
/-- The running normaliser after a key tile. -/
def updL (a1 a2 : BitVec 32) (q k : Vec F S1x1024x64 .bf16) (m l : Vec F S1024x1 .f32) : Vec F S1024x1 .f32 :=
  k1_pay4 (k1_pay13 a1 a2 q k m m l)
/-- The running weighted sum after a key tile. -/
def updA (a1 a2 : BitVec 32) (q k v : Vec F S1x1024x64 .bf16) (m : Vec F S1024x1 .f32) (a : Vec F S1024x64 .f32) : Vec F S1024x64 .f32 :=
  k1_pay5 (k1_pay8 v) (k1_pay11 a1 a2 q k m m) (k1_pay12 a1 a2 q k m) a
/-- The output block: the weighted sum times the reciprocal of the normaliser. -/
def fin1 (a : Vec F S1024x64 .f32) (l : Vec F S1024x1 .f32) : Vec F S1x1024x64 .bf16 := k1_pay7 a l

set_option maxHeartbeats 4000000 in
/-- A diagonal tile that is not key tile 0: update from the carried state, then write the output block. -/
theorem sound_kernel1_C (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : ¬cond1_1 i) (hc2 : cond1_2 i) (hc3 : cond1_3 i)
    (xq xk xv : Vec F S1x1024x64 .bf16) (xm xl : Vec F S1024x1 .f32) (xa : Vec F S1024x64 .f32) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d)
        ∗ owns (c : Thread nD τ) arg7 fullShare xm ∗ owns (c : Thread nD τ) arg8 fullShare xl ∗ owns (c : Thread nD τ) arg9 fullShare xa
        ∗ (iprop(owns (c : Thread nD τ) arg3 fullShare xq ∗ owns (c : Thread nD τ) arg4 fullShare xk ∗ owns (c : Thread nD τ) arg5 fullShare xv
            ∗ owns (c : Thread nD τ) arg6 fullShare
                (fin1 (updA (BitVec.ofNat 32 (i 1).val) (BitVec.ofNat 32 (i 2).val) xq xk xv xm xa)
                  (updL (BitVec.ofNat 32 (i 1).val) (BitVec.ofNat 32 (i 2).val) xq xk xm xl))
            ∗ owns (c : Thread nD τ) arg7 fullShare (updM (BitVec.ofNat 32 (i 1).val) (BitVec.ofNat 32 (i 2).val) xq xk xm)
            ∗ owns (c : Thread nD τ) arg8 fullShare (updL (BitVec.ofNat 32 (i 1).val) (BitVec.ofNat 32 (i 2).val) xq xk xm xl)
            ∗ owns (c : Thread nD τ) arg9 fullShare (updA (BitVec.ofNat 32 (i 1).val) (BitVec.ofNat 32 (i 2).val) xq xk xv xm xa)) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_whole_ki
  isplitl [H7]
  · iexists _; isplitr
    swap; · iexact H7
    ipureintro
    sl_whole_ki
  isplitl [H8]
  · iexists _; isplitr
    swap; · iexact H8
    ipureintro
    sl_whole_ki
  iexists _; isplitr
  swap; · iexact H9
  ipureintro
  sl_whole_ki

set_option maxHeartbeats 4000000 in
/-- Key tile 0 on the diagonal (query tile 0): reset, update, write the output block. -/
theorem sound_kernel1_A0 (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : cond1_1 i) (hc2 : cond1_2 i) (hc3 : cond1_3 i)
    (xq xk xv : Vec F S1x1024x64 .bf16) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare xq ∗ owns (c : Thread nD τ) arg4 fullShare xk ∗ owns (c : Thread nD τ) arg5 fullShare xv
            ∗ owns (c : Thread nD τ) arg6 fullShare (fin1 (updA (BitVec.ofNat 32 (i 1).val) (BitVec.ofNat 32 (i 2).val) xq xk xv (k1_pay1 (F := F)) (k1_pay3 (F := F))) (updL (BitVec.ofNat 32 (i 1).val) (BitVec.ofNat 32 (i 2).val) xq xk (k1_pay1 (F := F)) (k1_pay2 (F := F))))
            ∗ owns (c : Thread nD τ) arg7 fullShare (updM (BitVec.ofNat 32 (i 1).val) (BitVec.ofNat 32 (i 2).val) xq xk (k1_pay1 (F := F))) ∗ owns (c : Thread nD τ) arg8 fullShare (updL (BitVec.ofNat 32 (i 1).val) (BitVec.ofNat 32 (i 2).val) xq xk (k1_pay1 (F := F)) (k1_pay2 (F := F))) ∗ owns (c : Thread nD τ) arg9 fullShare (updA (BitVec.ofNat 32 (i 1).val) (BitVec.ofNat 32 (i 2).val) xq xk xv (k1_pay1 (F := F)) (k1_pay3 (F := F)))) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf3; subst hf4; subst hf5
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_whole_ki
  isplitl [H7]
  · iexists _; isplitr
    swap; · iexact H7
    ipureintro
    sl_whole_ki
  isplitl [H8]
  · iexists _; isplitr
    swap; · iexact H8
    ipureintro
    sl_whole_ki
  iexists _; isplitr
  swap; · iexact H9
  ipureintro
  sl_whole_ki

set_option maxHeartbeats 4000000 in
/-- Key tile 0 below the diagonal (query tile 1): reset and update; the output buffer is left as found. -/
theorem sound_kernel1_A1 (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : cond1_1 i) (hc2 : cond1_2 i) (hc3 : ¬cond1_3 i)
    (xq xk xv xo : Vec F S1x1024x64 .bf16) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (updM (BitVec.ofNat 32 (i 1).val) (BitVec.ofNat 32 (i 2).val) xq xk (k1_pay1 (F := F))) ∗ owns (c : Thread nD τ) arg8 fullShare (updL (BitVec.ofNat 32 (i 1).val) (BitVec.ofNat 32 (i 2).val) xq xk (k1_pay1 (F := F)) (k1_pay2 (F := F))) ∗ owns (c : Thread nD τ) arg9 fullShare (updA (BitVec.ofNat 32 (i 1).val) (BitVec.ofNat 32 (i 2).val) xq xk xv (k1_pay1 (F := F)) (k1_pay3 (F := F)))) -∗ K ⟨⟩))
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_whole_ki
  isplitl [H8]
  · iexists _; isplitr
    swap; · iexact H8
    ipureintro
    sl_whole_ki
  iexists _; isplitr
  swap; · iexact H9
  ipureintro
  sl_whole_ki

set_option maxHeartbeats 4000000 in
/-- A key tile beyond the query tile: nothing is read or written. -/
theorem sound_kernel1_B (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .bf16) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (hc1 : ¬cond1_1 i) (hc2 : ¬cond1_2 i) (hc3 : ¬cond1_3 i)
    (K : PUnit → sProp 𝕄) :
    K ⟨⟩
      ⊢ wp frame (wpE (defs₀ (F := F)) Variants.none c none) E (cc1_attn_kernel i arg3 harg3 arg4 harg4 arg5 harg5 arg6 harg6 arg7 harg7 arg8 harg8 arg9 harg9) K := by
  simp only [cc1_attn_kernel_eq_skeleton]; unfold cc1_attn_kernel_skel
  iintro Hk
  sl_exec (disch := first | exact hc1 | exact hc2 | exact hc3)
  sl_step
  iexact Hk

/-! ## The scoped buffers that are no staging buffer of this region, with the three scratch buffers singled out -/

/-- The region's scoped rest with the three scratch buffers at `P0`, `P1`, `P2`, the others at anything. -/
def Rest1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))
/-- The other scoped buffers, at anything. -/
def Others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem Rest1_out (c : Dev nD) (P0 P1 P2 : sProp 𝕄) : Rest1 (F := F) c P0 P1 P2 ⊢ iprop(P0 ∗ P1 ∗ P2 ∗ Others1 (F := F) c) := by
  unfold Rest1 Others1
  iintro ⟨G0, G1, G2, G3, G4, G5, G6, G7, G8, G9, G10, G11, G12, G13, G14, G15, G16⟩
  isplitl [G9]; · iexact G9
  isplitl [G10]; · iexact G10
  isplitl [G11]; · iexact G11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G12]; · iexact G12
  isplitl [G13]; · iexact G13
  isplitl [G14]; · iexact G14
  isplitl [G15]; · iexact G15
  iexact G16

theorem Rest1_in (c : Dev nD) (P0 P1 P2 : sProp 𝕄) : iprop(P0 ∗ P1 ∗ P2 ∗ Others1 (F := F) c) ⊢ Rest1 (F := F) c P0 P1 P2 := by
  unfold Rest1 Others1
  iintro ⟨H0, H1, H2, G0, G1, G2, G3, G4, G5, G6, G7, G8, G12, G13, G14, G15, G16⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [H0]; · iexact H0
  isplitl [H1]; · iexact H1
  isplitl [H2]; · iexact H2
  isplitl [G12]; · iexact G12
  isplitl [G13]; · iexact G13
  isplitl [G14]; · iexact G14
  isplitl [G15]; · iexact G15
  iexact G16

/-- The scratch operands as the pipeline passes them. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The class invariant with the scratch buffers as memrefs owned at some contents. -/
theorem PhiA1_eq (c : Dev nD) :
    (Pipeline.ΦA spec1 c : sProp 𝕄)
      = iprop(Rest1 (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  unfold Pipeline.ΦA Rest1; rw [scopedRest1_eq]; simp only [scM1_0, scM1_1, scM1_2, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the points leave, by recursion on the point -/

/-- The grid coordinates the body computes with at point `t`: the query tile and the key tile. -/
abbrev qi1 (t : Fin cfg1.N) : BitVec 32 := BitVec.ofNat 32 ((grid1.coords t) 1).val
abbrev kv1 (t : Fin cfg1.N) : BitVec 32 := BitVec.ofNat 32 ((grid1.coords t) 2).val

/-- The streaming state after a reset and one update at point `t`. -/
def resetAt (c : Dev nD) (t : Fin cfg1.N) : Vec F S1024x1 .f32 × Vec F S1024x1 .f32 × Vec F S1024x64 .f32 :=
  (updM (qi1 t) (kv1 t) (iblk1 V c 0 t) (iblk1 V c 1 t) (k1_pay1 (F := F)),
   updL (qi1 t) (kv1 t) (iblk1 V c 0 t) (iblk1 V c 1 t) (k1_pay1 (F := F)) (k1_pay2 (F := F)),
   updA (qi1 t) (kv1 t) (iblk1 V c 0 t) (iblk1 V c 1 t) (iblk1 V c 2 t) (k1_pay1 (F := F)) (k1_pay3 (F := F)))
/-- The streaming state after one update at point `t` of the carried state `s`. -/
def stepAt (c : Dev nD) (t : Fin cfg1.N) (s : Vec F S1024x1 .f32 × Vec F S1024x1 .f32 × Vec F S1024x64 .f32) :
    Vec F S1024x1 .f32 × Vec F S1024x1 .f32 × Vec F S1024x64 .f32 :=
  (updM (qi1 t) (kv1 t) (iblk1 V c 0 t) (iblk1 V c 1 t) s.1,
   updL (qi1 t) (kv1 t) (iblk1 V c 0 t) (iblk1 V c 1 t) s.1 s.2.1,
   updA (qi1 t) (kv1 t) (iblk1 V c 0 t) (iblk1 V c 1 t) (iblk1 V c 2 t) s.1 s.2.2)

/-- What the output's staging buffer and the three scratch buffers hold after the body at position `n`:
    position 4b is (query tile 0, key tile 0) of pair b: reset, update, write; 4b+1 is (0, 1): nothing moves;
    4b+2 is (1, 0): reset and update, the output buffer untouched; 4b+3 is (1, 1): update, write. -/
def outsAt1 (c : Dev nD) : (n : ℕ) → n < cfg1.N →
    Vec F S1x1024x64 .bf16 × (Vec F S1024x1 .f32 × Vec F S1024x1 .f32 × Vec F S1024x64 .f32)
  | 0, hn => (fin1 (resetAt V c ⟨0, hn⟩).2.2 (resetAt V c ⟨0, hn⟩).2.1, resetAt V c ⟨0, hn⟩)
  | n + 1, hn =>
    if h0 : (n + 1) % 4 = 0 then (fin1 (resetAt V c ⟨n + 1, hn⟩).2.2 (resetAt V c ⟨n + 1, hn⟩).2.1, resetAt V c ⟨n + 1, hn⟩)
    else if h1 : (n + 1) % 4 = 1 then outsAt1 c n (Nat.lt_of_succ_lt hn)
    else if h2 : (n + 1) % 4 = 2 then ((outsAt1 c n (Nat.lt_of_succ_lt hn)).1, resetAt V c ⟨n + 1, hn⟩)
    else (fin1 (stepAt V c ⟨n + 1, hn⟩ (outsAt1 c n (Nat.lt_of_succ_lt hn)).2).2.2 (stepAt V c ⟨n + 1, hn⟩ (outsAt1 c n (Nat.lt_of_succ_lt hn)).2).2.1,
          stepAt V c ⟨n + 1, hn⟩ (outsAt1 c n (Nat.lt_of_succ_lt hn)).2)

theorem outsAt1_A0 (c : Dev nD) (t : Fin cfg1.N) (h : t.val % 4 = 0) :
    outsAt1 V c t.val t.isLt = (fin1 (resetAt V c t).2.2 (resetAt V c t).2.1, resetAt V c t) := by
  obtain ⟨n, hn⟩ := t
  cases n with
  | zero => rfl
  | succ n => exact (dif_pos h).trans rfl

theorem outsAt1_B (c : Dev nD) (t : Fin cfg1.N) (h : t.val % 4 = 1) :
    outsAt1 V c t.val t.isLt = outsAt1 V c (t.val - 1) (Nat.lt_of_le_of_lt (Nat.sub_le _ _) t.isLt) := by
  obtain ⟨n, hn⟩ := t
  cases n with
  | zero => simp at h
  | succ n => exact (dif_neg (by dsimp only at h; omega)).trans ((dif_pos h).trans rfl)

theorem outsAt1_A1 (c : Dev nD) (t : Fin cfg1.N) (h : t.val % 4 = 2) :
    outsAt1 V c t.val t.isLt = ((outsAt1 V c (t.val - 1) (Nat.lt_of_le_of_lt (Nat.sub_le _ _) t.isLt)).1, resetAt V c t) := by
  obtain ⟨n, hn⟩ := t
  cases n with
  | zero => simp at h
  | succ n => exact (dif_neg (by dsimp only at h; omega)).trans ((dif_neg (by dsimp only at h; omega)).trans ((dif_pos h).trans rfl))

theorem outsAt1_C (c : Dev nD) (t : Fin cfg1.N) (h : t.val % 4 = 3) :
    outsAt1 V c t.val t.isLt
      = (fin1 (stepAt V c t (outsAt1 V c (t.val - 1) (Nat.lt_of_le_of_lt (Nat.sub_le _ _) t.isLt)).2).2.2
              (stepAt V c t (outsAt1 V c (t.val - 1) (Nat.lt_of_le_of_lt (Nat.sub_le _ _) t.isLt)).2).2.1,
          stepAt V c t (outsAt1 V c (t.val - 1) (Nat.lt_of_le_of_lt (Nat.sub_le _ _) t.isLt)).2) := by
  obtain ⟨n, hn⟩ := t
  cases n with
  | zero => simp at h
  | succ n => exact (dif_neg (by dsimp only at h; omega)).trans ((dif_neg (by dsimp only at h; omega)).trans ((dif_neg (by dsimp only at h; omega)).trans rfl))

/-- The region invariant before position `n`: before the first point the class's; afterwards the scoped rest with the
    three scratch buffers at what the point before left, and the generator register at some state. -/
def PhiS1 (c : Dev nD) : (n : ℕ) → n ≤ cfg1.N → sProp 𝕄
  | 0, _ => Pipeline.ΦA spec1 c
  | n + 1, hn => iprop(Rest1 (F := F) c (owns (c : Thread nD τ) scM1_0 fullShare (outsAt1 V c n hn).2.1)
      (owns (c : Thread nD τ) scM1_1 fullShare (outsAt1 V c n hn).2.2.1)
      (owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c (owns (c : Thread nD τ) scM1_0 fullShare (outsAt1 V c n hn).2.1)
      (owns (c : Thread nD τ) scM1_1 fullShare (outsAt1 V c n hn).2.2.1)
      (owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(Rest1 (F := F) c (owns (c : Thread nD τ) scM1_0 fullShare (outsAt1 V c (n - 1) (by omega)).2.1)
      (owns (c : Thread nD τ) scM1_1 fullShare (outsAt1 V c (n - 1) (by omega)).2.2.1)
      (owns (c : Thread nD τ) scM1_2 fullShare (outsAt1 V c (n - 1) (by omega)).2.2.2) ∗ (∃ r, prngReg c r)) := by
  cases n with
  | zero => exact absurd rfl hz
  | succ n => rfl

/-- Whatever the position, the invariant gives the scratch buffers at SOME contents: enough for a point that resets them. -/
theorem PhiS1_any (c : Dev nD) (n : ℕ) (h : n ≤ cfg1.N) :
    PhiS1 V c n h ⊢ iprop(Rest1 (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  cases n with
  | zero => rw [PhiS1_zero V c 0 h rfl, PhiA1_eq]
  | succ n =>
    rw [PhiS1_succ]
    iintro ⟨HR, Hg⟩
    isplitl [HR]
    · ihave HR' := (Rest1_out c _ _ _) $$ HR
      icases HR' with ⟨H0, H1, H2, HO⟩
      iapply (Rest1_in c _ _ _)
      isplitl [H0]; · iexists _; iexact H0
      isplitl [H1]; · iexists _; iexact H1
      isplitl [H2]; · iexists _; iexact H2
      iexact HO
    iexact Hg

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle, and where it is written back -/

theorem liveAt1_3 (t : Fin cfg1.N) (h : cond1_3 (grid1.coords t)) : cfg1.idle 3 (grid1.coords t) = false := by
  show (!(k1_cond3 (grid1.coords t) == 1#1)) = false
  rw [h]; rfl
theorem idleAt1_3 (t : Fin cfg1.N) (h : ¬cond1_3 (grid1.coords t)) : cfg1.idle 3 (grid1.coords t) = true := by
  show (!(k1_cond3 (grid1.coords t) == 1#1)) = true
  rw [Bool.not_eq_true', beq_eq_false_iff_ne]; exact h
theorem noFlush1_3 (t : Fin cfg1.N) (h : t.val % 2 = 0) : (cfg1.win 3).flush t = false :=
  Bool.eq_false_iff.mpr fun hf => by have := (flush1_3 t).mp hf; omega
theorem flushAt1_3 (t : Fin cfg1.N) (h : t.val % 2 = 1) : (cfg1.win 3).flush t = true := (flush1_3 t).mpr h

/-- At (query tile 0, key tile 1) the output's staging buffer still holds what the diagonal point before it wrote:
    that point does not write the block back, and stores into the buffer. -/
theorem before1_3_B (c : Dev nD) (t : Fin cfg1.N) (h : t.val % 4 = 1) (d) :
    (dat1 V c).before 3 t d = (dat1 V c).after 3 ⟨t.val - 1, Nat.lt_of_le_of_lt (Nat.sub_le _ _) t.isLt⟩ := by
  have ht : t.val ≠ 0 := by omega
  rw [(dat1 V c).before_of_pos 3 t ht ((cfg1.win 3).fetch_out rfl t) d,
    noFlush1_3 ⟨t.val - 1, Nat.lt_of_le_of_lt (Nat.sub_le _ _) t.isLt⟩ (by show (t.val - 1) % 2 = 0; omega), if_neg Bool.false_ne_true]
  unfold Dat.left
  rw [show cfg1.idle 3 (cfg1.grid.coords ⟨t.val - 1, Nat.lt_of_le_of_lt (Nat.sub_le _ _) t.isLt⟩) = false from
    liveAt1_3 ⟨t.val - 1, Nat.lt_of_le_of_lt (Nat.sub_le _ _) t.isLt⟩ ((hcond1_3 _).mpr (Or.inl (by show (t.val - 1) % 4 = 0; omega)))]
  show (dat1 V c).kept 3 ⟨t.val - 1, Nat.lt_of_le_of_lt (Nat.sub_le _ _) t.isLt⟩ d = _
  unfold Dat.kept
  rw [Pipeline.fill_of_clip_none 3 _ (fun _ => rfl) d ((dat1 V c).after 3 _), Window.fill_cut]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3_live (c : Dev nD) (t : Fin cfg1.N) (h : cond1_3 (grid1.coords t)) :
    (dat1 V c).leavesExact 3 t = owns (c : Thread nD τ) (st1_3 t) fullShare ((outsAt1 V c t.val t.isLt).1) := by
  rw [← after1_3]; unfold Dat.leavesExact; rw [liveAt1_3 t h]
theorem leaves1_3_flush (c : Dev nD) (t : Fin cfg1.N) (h : ¬cond1_3 (grid1.coords t)) (hf : t.val % 2 = 1) :
    (dat1 V c).leavesExact 3 t = owns (c : Thread nD τ) (st1_3 t) fullShare ((outsAt1 V c t.val t.isLt).1) := by
  rw [← after1_3]; unfold Dat.leavesExact; rw [idleAt1_3 t h, flushAt1_3 t hf]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ,
    leaves1_0, leaves1_1, leaves1_2, PhiS1_castSucc]
  have h4 : t.val % 4 = 0 ∨ t.val % 4 = 1 ∨ t.val % 4 = 2 ∨ t.val % 4 = 3 := by omega
  rcases h4 with h | h | h | h
  · -- (query tile 0, key tile 0): reset, update, write
    have hc1 : cond1_1 (grid1.coords t) := (hcond1_1 t).mpr (by omega)
    have hc2 : cond1_2 (grid1.coords t) := (hcond1_2 t).mpr (by omega)
    have hc3 : cond1_3 (grid1.coords t) := (hcond1_3 t).mpr (Or.inl h)
    rw [leaves1_3_live V c t hc3, outsAt1_A0 V c t h]
    unfold resetAt; dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨HR, Hg⟩
    ihave HR' := (Rest1_out c _ _ _) $$ HR
    icases HR' with ⟨HS0, HS1, HS2, HO⟩
    iapply (sound_kernel1_A0 c Set.univ (grid1.coords t) _ _ _ _ _ _ _ _ _ _ _ _ _ _ hc1 hc2 hc3 (iblk1 V c 0 t) (iblk1 V c 1 t) (iblk1 V c 2 t) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexact H3
  · -- (query tile 0, key tile 1): nothing moves; the output block is written back after this point
    have hc1 : ¬cond1_1 (grid1.coords t) := fun hh => by have := (hcond1_1 t).mp hh; omega
    have hc2 : ¬cond1_2 (grid1.coords t) := fun hh => (hcond1_2 t).mp hh h
    have hc3 : ¬cond1_3 (grid1.coords t) := fun hh => by have := (hcond1_3 t).mp hh; omega
    have ht : t.val ≠ 0 := by omega
    rw [leaves1_3_flush V c t hc3 (by omega), outsAt1_B V c t h, PhiS1_pos V c _ _ ht]
    simp only [before1_3_B V c t h, after1_3]
    iintro ⟨HΦ, Ho, ⟨%d0, H0⟩, ⟨%d1, H1⟩, ⟨%d2, H2⟩, ⟨%d3, H3⟩⟩
    iapply (sound_kernel1_B c Set.univ (grid1.coords t) _ _ _ _ _ _ _ _ _ _ _ _ _ _ hc1 hc2 hc3 _)
    isplitl [HΦ]; · iexact HΦ
    isplitl [Ho]; · iexact Ho
    isplitl [H0]; · iexact H0
    isplitl [H1]; · iexact H1
    isplitl [H2]; · iexact H2
    iexact H3
  · -- (query tile 1, key tile 0): reset and update; the output buffer handed back as found
    have hc1 : cond1_1 (grid1.coords t) := (hcond1_1 t).mpr (by omega)
    have hc2 : cond1_2 (grid1.coords t) := (hcond1_2 t).mpr (by omega)
    have hc3 : ¬cond1_3 (grid1.coords t) := fun hh => by have := (hcond1_3 t).mp hh; omega
    rw [Dat.leavesExact_idle (dat1 V c) 3 t (idleAt1_3 t hc3) (noFlush1_3 t (by omega)), outsAt1_A1 V c t h]
    unfold resetAt; dsimp only
    iintro ⟨HΦ, Ho, ⟨%d0, H0⟩, ⟨%d1, H1⟩, ⟨%d2, H2⟩, ⟨%d3, H3⟩⟩
    ihave HΦ' := (PhiS1_any V c _ _) $$ HΦ
    icases HΦ' with ⟨HR, Hg⟩
    ihave HR' := (Rest1_out c _ _ _) $$ HR
    icases HR' with ⟨HS0, HS1, HS2, HO⟩
    iapply (sound_kernel1_A1 c Set.univ (grid1.coords t) _ _ _ _ _ _ _ _ _ _ _ _ _ _ hc1 hc2 hc3 (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexists _; iexact H3
  · -- (query tile 1, key tile 1): update from the carried state, write
    have hc1 : ¬cond1_1 (grid1.coords t) := fun hh => by have := (hcond1_1 t).mp hh; omega
    have hc2 : cond1_2 (grid1.coords t) := (hcond1_2 t).mpr (by omega)
    have hc3 : cond1_3 (grid1.coords t) := (hcond1_3 t).mpr (Or.inr h)
    have ht : t.val ≠ 0 := by omega
    rw [leaves1_3_live V c t hc3, outsAt1_C V c t h, PhiS1_pos V c _ _ ht]
    unfold stepAt; dsimp only
    iintro ⟨⟨HR, Hg⟩, Ho, ⟨%d0, H0⟩, ⟨%d1, H1⟩, ⟨%d2, H2⟩, ⟨%d3, H3⟩⟩
    ihave HR' := (Rest1_out c _ _ _) $$ HR
    icases HR' with ⟨HS0, HS1, HS2, HO⟩
    iapply (sound_kernel1_C c Set.univ (grid1.coords t) _ _ _ _ _ _ _ _ _ _ _ _ _ _ hc1 hc2 hc3 (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HO Hg]
    · isplitl [HS0 HS1 HS2 HO]
      · iapply (Rest1_in c _ _ _)
        isplitl [HS0]; · iexact HS0
        isplitl [HS1]; · iexact HS1
        isplitl [HS2]; · iexact HS2
        iexact HO
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.KernelIdeal.Gen

end
-- ==== Proof.KIRegion2.lean ====
import proofs.«122748_j71631464563424_2_alg».proof.Proof.Gen.KernelIdeal.Launch
import proofs.«122748_j71631464563424_2_alg».proof.Proof.Gen.KernelIdeal.Skeleton
import proofs.«122748_j71631464563424_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The output projection region: one 512-row slab of one batch element per grid point

A point reads its slab of the attention output (16 heads of 512 x 64) and the whole 1024 x 1024 weight, and writes
the slab's 512 x 1024 result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_o : Rect S1x16x512x64 := Rect.unit (s := S1x16x512x64) ![0, 0, 0, 0] S1x16x512x64.size inb_S1x16x512x64_S1x16x512x64_0_0_0_0
abbrev r2_w : Rect S1024x1024 := Rect.unit (s := S1024x1024) ![0, 0] S1024x1024.size inb_S1024x1024_S1024x1024_0_0
abbrev r2_y : Rect S1x512x1024 := Rect.unit (s := S1x512x1024) ![0, 0, 0] S1x512x1024.size inb_S1x512x1024_S1x512x1024_0_0_0

/-- What the body leaves in the result buffer, from the two input blocks: one whole-buffer store. -/
def out2_2 (x0 : Vec F S1x16x512x64 .bf16) (x1 : Vec F S1024x1024 .bf16) : Vec F S1x512x1024 .f32 :=
  View.canon [⟨r2_y, k2_pay1 (View.ld x0 r2_o) (View.ld x1 r2_w)⟩]

/-- A whole-buffer store covers the buffer. -/
theorem cover2_y (p0 : Vec F S1x512x1024 .f32) (y : S1x512x1024.Idx) :
    ∃ pc ∈ ([⟨r2_y, p0⟩] : List (View.Piece (Elt F) S1x512x1024 .f32)), y ∈ pc.1.set :=
  View.cover_of_tiled [⟨r2_y, p0⟩] S1x512x1024.size (by rfl) y

set_option maxHeartbeats 4000000 in
/-- The body on whole staging buffers: the inputs come back as they were, the output holds its payload. -/
theorem sound_kernel2 (c : Dev nD) (E : Set ℕ) (i : grid2.Coords)
    (arg2 : Memref sig .tc .vmem S1x16x512x64 .bf16) (harg2 : arg2.IsWhole) (arg3 : Memref sig .tc .vmem S1024x1024 .bf16) (harg3 : arg3.IsWhole)
    (arg4 : Memref sig .tc .vmem S1x512x1024 .f32) (harg4 : arg4.IsWhole)
    (x0 : Vec F S1x16x512x64 .bf16) (x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__outproj_kernel i arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_y _)

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KIRun.lean ====
import proofs.«122748_j71631464563424_2_alg».proof.Proof.Gen.KernelIdeal.Launch
import proofs.«122748_j71631464563424_2_alg».proof.Proof.Gen.KernelIdeal.Skeleton
import proofs.«122748_j71631464563424_2_alg».proof.Proof.Gen.KernelIdeal.Points
import proofs.«122748_j71631464563424_2_alg».proof.Proof.KIRegion0
import proofs.«122748_j71631464563424_2_alg».proof.Proof.KIRegion1
import proofs.«122748_j71631464563424_2_alg».proof.Proof.KIRegion2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

namespace Att

variable (m : (ℓ : Loc nD τ sig) → Buf (Elt F) ℓ) (ρ : Dev nD → PrngReg)

/-! # The run: the three regions among the host operations, from the launch to the return

The contents of every unscoped buffer at each boundary are a fold through the program: the launch memory, then each
stretch of host operations applied, then each region's arrays at what its write-backs leave. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the contents
    after it; its arrays split out of the unscoped buffers and put back; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back; the generator register into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Att

end Cert.KernelIdeal.Gen

end
-- ==== Proof.KIGlue.lean ====
/-
  The host operations between the kernel's regions, read at an index. Before the first region the two weights are
  transposed and converted to the narrower format (on the extended reals the conversion is the identity), so the
  converted weight at (i, j) is the argument at (j, i). Between the regions the arrays are only reshaped between
  [2, 16, 2048, 64] and [32, 2048, 64]: row 16·b + h of the flat leading axis is the pair (b, h), so a reshaped array
  at (g, r, d) is the original at (g / 16, g % 16, r, d), and back at (b, h, r, d) it is the flat one at (16·b + h, r, d).
-/
import proofs.«122748_j71631464563424_2_alg».proof.Proof.KIRun
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Cert.KernelIdeal.Gen.Att
open Idealize.ShloMosaic Idealize.ShloMosaic.TcCoe Idealize.ShloMosaic.ValueIdx
open Idealize.SL.Sem

/-! ## The shape operations at an index, over variables -/

section Pure

variable {α : Type}

/-- The transpose of a [3072, 1024] array at (i, j) is the array at (j, i). -/
theorem transpose_w1_apply (x : S3072x1024.Idx → α) (h : S3072x1024.Transposes [1, 0] S1024x3072) (i : S1024x3072.Idx) :
    transpose S1024x3072 [1, 0] x h i = x (ix2 (i 1) (i 0)) :=
  transpose_apply [1, 0] x h i (ix2 (i 1) (i 0)) (by intro b; fin_cases b <;> rfl)

/-- The transpose of a [1024, 1024] array at (i, j) is the array at (j, i). -/
theorem transpose_w2_apply (x : S1024x1024.Idx → α) (h : S1024x1024.Transposes [1, 0] S1024x1024) (i : S1024x1024.Idx) :
    transpose S1024x1024 [1, 0] x h i = x (ix2 (i 1) (i 0)) :=
  transpose_apply [1, 0] x h i (ix2 (i 1) (i 0)) (by intro b; fin_cases b <;> rfl)

theorem lt32 (i : S32x2048x64.Idx) : (i 0).val < 32 := (i 0).isLt
theorem lt2 (i : S2x16x2048x64.Idx) : (i 0).val < 2 := (i 0).isLt
theorem lt16 (i : S2x16x2048x64.Idx) : (i 1).val < 16 := (i 1).isLt

/-- The batch and head a flat row g of 32 = 2 · 16 stands for. -/
abbrev unflat (i : S32x2048x64.Idx) : S2x16x2048x64.Idx :=
  ix4 (⟨(i 0).val / 16, by have := lt32 i; omega⟩ : Fin 2) (⟨(i 0).val % 16, by omega⟩ : Fin 16) (i 1) (i 2)

/-- The flat row 16 · b + h of a batch b and head h. -/
abbrev flat (i : S2x16x2048x64.Idx) : S32x2048x64.Idx :=
  ix3 (⟨(i 0).val * 16 + (i 1).val, by have := lt2 i; have := lt16 i; omega⟩ : Fin 32) (i 2) (i 3)

/-- [2, 16, 2048, 64] reshaped to [32, 2048, 64], at (g, r, d), is the array at (g / 16, g % 16, r, d). -/
theorem reshape_flat_apply (x : S2x16x2048x64.Idx → α) (h : S2x16x2048x64.ShapeCasts S32x2048x64) (i : S32x2048x64.Idx) :
    shapeCast S32x2048x64 x h i = x (unflat i) := by
  refine shapeCast_apply x h i (unflat i) ?_
  rw [Shape.rowMajor_val_four, Shape.rowMajor_val_three]
  show ((((i 0).val / 16) * 16 + (i 0).val % 16) * 2048 + (i 1).val) * 64 + (i 2).val
      = ((i 0).val * 2048 + (i 1).val) * 64 + (i 2).val
  have := Nat.div_add_mod' (i 0).val 16
  rw [this]

/-- [32, 2048, 64] reshaped to [2, 16, 2048, 64], at (b, h, r, d), is the array at (16 · b + h, r, d). -/
theorem reshape_unflat_apply (x : S32x2048x64.Idx → α) (h : S32x2048x64.ShapeCasts S2x16x2048x64) (i : S2x16x2048x64.Idx) :
    shapeCast S2x16x2048x64 x h i = x (flat i) := by
  refine shapeCast_apply x h i (flat i) ?_
  rw [Shape.rowMajor_val_four, Shape.rowMajor_val_three]
  rfl

end Pure

/-! ## The stretches of host operations -/

variable (m : (ℓ : Loc nD τ sig) → Buf (Elt Ideal) ℓ) (ρ : Dev nD → PrngReg)

/-- (g0) The first argument enters region 0 as launched: no host operation before it writes it. -/
theorem g0 (c : Dev nD) : V1 (F := Ideal) m ρ c main_arg0 = m ((c : Thread nD τ).loc main_arg0) :=
  calc W1 (F := Ideal) m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- (g1) The first weight as region 0 reads it, at (i, j), is the second argument at (j, i). -/
theorem g1 (c : Dev nD) (i : S1024x3072.Idx) :
    (V1 (F := Ideal) m ρ c main_v1 : S1024x3072.Idx → EReal) i
      = (m ((c : Thread nD τ).loc main_arg1) : S3072x1024.Idx → EReal) (ix2 (i 1) (i 0)) := by
  have e : @Eq (S1024x3072.Idx → EReal) (W1 (F := Ideal) m ρ c (Proc.devRef .tc main_v1))
      (truncf (F := Ideal) .bf16 (transpose S1024x3072 [1, 0]
          (W0 (F := Ideal) m ρ c (Proc.devRef .tc main_arg1) : S3072x1024.Idx → EReal) transposes_S3072x1024_S1024x3072_1_0) bitsLt_bf16_f32) := by
    show StableHlo.after hostOps0 _ _ = _
    after_results
  refine (congrFun e i).trans ?_
  rw [truncf_apply]
  exact transpose_w1_apply _ _ i

/-- The second weight is written before region 0 and by nothing later: region 2 reads what the first stretch left. -/
theorem W5_main_v3 (c : Dev nD) :
    W5 (F := Ideal) m ρ c (Proc.devRef .tc main_v3) = W1 (F := Ideal) m ρ c (Proc.devRef .tc main_v3) :=
  calc W5 (F := Ideal) m ρ c (Proc.devRef .tc main_v3)
    _ = W4 m ρ c (Proc.devRef .tc main_v3) := StableHlo.after_of_forall_not_mem (b := Proc.devRef .tc main_v3) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_v3) := W2_of_ne m ρ c main_v3 (by decide)

/-- (g3) The second weight as region 2 reads it, at (i, j), is the third argument at (j, i). -/
theorem g3 (c : Dev nD) (i : S1024x1024.Idx) :
    (V5 (F := Ideal) m ρ c main_v3 : S1024x1024.Idx → EReal) i
      = (m ((c : Thread nD τ).loc main_arg2) : S1024x1024.Idx → EReal) (ix2 (i 1) (i 0)) := by
  have e : @Eq (S1024x1024.Idx → EReal) (W1 (F := Ideal) m ρ c (Proc.devRef .tc main_v3))
      (truncf (F := Ideal) .bf16 (transpose S1024x1024 [1, 0]
          (W0 (F := Ideal) m ρ c (Proc.devRef .tc main_arg2) : S1024x1024.Idx → EReal) transposes_S1024x1024_S1024x1024_1_0) bitsLt_bf16_f32) := by
    show StableHlo.after hostOps0 _ _ = _
    after_results
  refine (congrFun ((W5_main_v3 m ρ c).trans e) i).trans ?_
  rw [truncf_apply]
  exact transpose_w2_apply _ _ i

/-- (g5) Each of region 0's three results, flattened for region 1: at (g, r, d) it is the result at (g / 16, g % 16, r, d). -/
theorem g5_0 (c : Dev nD) (i : S32x2048x64.Idx) :
    (V3 (F := Ideal) m ρ c main_v5 : S32x2048x64.Idx → EReal) i
      = (W2 (F := Ideal) m ρ c (Proc.devRef .tc main_v4_0) : S2x16x2048x64.Idx → EReal) (unflat i) := by
  have e : @Eq (S32x2048x64.Idx → EReal) (W3 (F := Ideal) m ρ c (Proc.devRef .tc main_v5))
      (shapeCast S32x2048x64 (W2 (F := Ideal) m ρ c (Proc.devRef .tc main_v4_0) : S2x16x2048x64.Idx → EReal)
        shapeCasts_S2x16x2048x64_S32x2048x64) := by
    show StableHlo.after hostOps1 _ _ = _
    after_results <;> rfl
  exact (congrFun e i).trans (reshape_flat_apply _ _ i)

theorem g5_1 (c : Dev nD) (i : S32x2048x64.Idx) :
    (V3 (F := Ideal) m ρ c main_v6 : S32x2048x64.Idx → EReal) i
      = (W2 (F := Ideal) m ρ c (Proc.devRef .tc main_v4_1) : S2x16x2048x64.Idx → EReal) (unflat i) := by
  have e : @Eq (S32x2048x64.Idx → EReal) (W3 (F := Ideal) m ρ c (Proc.devRef .tc main_v6))
      (shapeCast S32x2048x64 (W2 (F := Ideal) m ρ c (Proc.devRef .tc main_v4_1) : S2x16x2048x64.Idx → EReal)
        shapeCasts_S2x16x2048x64_S32x2048x64) := by
    show StableHlo.after hostOps1 _ _ = _
    after_results <;> rfl
  exact (congrFun e i).trans (reshape_flat_apply _ _ i)

theorem g5_2 (c : Dev nD) (i : S32x2048x64.Idx) :
    (V3 (F := Ideal) m ρ c main_v7 : S32x2048x64.Idx → EReal) i
      = (W2 (F := Ideal) m ρ c (Proc.devRef .tc main_v4_2) : S2x16x2048x64.Idx → EReal) (unflat i) := by
  have e : @Eq (S32x2048x64.Idx → EReal) (W3 (F := Ideal) m ρ c (Proc.devRef .tc main_v7))
      (shapeCast S32x2048x64 (W2 (F := Ideal) m ρ c (Proc.devRef .tc main_v4_2) : S2x16x2048x64.Idx → EReal)
        shapeCasts_S2x16x2048x64_S32x2048x64) := by
    show StableHlo.after hostOps1 _ _ = _
    after_results <;> rfl
  exact (congrFun e i).trans (reshape_flat_apply _ _ i)

/-- (g9) Region 1's result, unflattened for region 2: at (b, h, r, d) it is the result at (16 · b + h, r, d). -/
theorem g9 (c : Dev nD) (i : S2x16x2048x64.Idx) :
    (V5 (F := Ideal) m ρ c main_v9 : S2x16x2048x64.Idx → EReal) i
      = (W4 (F := Ideal) m ρ c (Proc.devRef .tc main_v8) : S32x2048x64.Idx → EReal) (flat i) := by
  have e : @Eq (S2x16x2048x64.Idx → EReal) (W5 (F := Ideal) m ρ c (Proc.devRef .tc main_v9))
      (shapeCast S2x16x2048x64 (W4 (F := Ideal) m ρ c (Proc.devRef .tc main_v8) : S32x2048x64.Idx → EReal)
        shapeCasts_S32x2048x64_S2x16x2048x64) := by
    show StableHlo.after hostOps2 _ _ = _
    after_results <;> rfl
  exact (congrFun e i).trans (reshape_unflat_apply _ _ i)

end Cert.KernelIdeal.Glue

end
-- ==== Proof.LibFlashAttention.lean ====
/-
  Streaming softmax-weighted sums against the two-pass form, on the extended reals, for rows of MASKED real scores.

  A row has finitely many columns laid out as J > 0 tiles of a finite width.  Column c of tile j carries a real
  score S j c, a real value V j c and a mask bit K j c; a masked-out column's score is read as -inf.

  THE STREAMING FORM visits the tiles in order and keeps a running maximum m, a running normaliser l and a running
  weighted sum a, all relative to m: a tile with scores f and values v moves (m, l, a) to
  (m', exp (m - m') * l + sum_c exp (f c - m'), exp (m - m') * a + sum_c exp (f c - m') * v c) with
  m' = max m (max_c f c), starting from (-inf, 0, 0); the row's result is a * (1 / l).

  THE TWO-PASS FORM subtracts the row's maximum, exponentiates, divides every exponential by their sum and takes
  the weighted sum of the values.

  When the first tile has an unmasked column both forms are the real number
  (sum over unmasked columns of exp (S - M) * V) / (sum over unmasked columns of exp (S - M)), M the largest
  unmasked score: the running maximum after every tile is a real number, moving it from m to m' multiplies every
  term exp (s - m) by exp (m - m') = exp (s - m') / exp (s - m), a masked column contributes exp (-inf) = 0
  to every sum in both forms, and dividing every term of a finite real sum by a nonzero real divides the sum.
-/
import Idealize.ShloMosaic.PureOps.Ideal

noncomputable section

open scoped BigOperators

namespace Flash

open Idealize.ShloMosaic

/-! ## The two forms -/

/-- The maximum of a finite family of extended reals, folded from -inf. -/
def foldMax {κ : Type} [Fintype κ] (f : κ → EReal) : EReal := (Finset.univ : Finset κ).fold max ⊥ f

/-- One tile of the streaming recurrence on (running maximum, running normaliser, running weighted sum). -/
def step {κ : Type} [Fintype κ] (st : EReal × EReal × EReal) (f v : κ → EReal) : EReal × EReal × EReal :=
  (max st.1 (foldMax f),
    Ideal.exp (st.1 - max st.1 (foldMax f)) * st.2.1 + ∑ c, Ideal.exp (f c - max st.1 (foldMax f)),
    Ideal.exp (st.1 - max st.1 (foldMax f)) * st.2.2 + ∑ c, Ideal.exp (f c - max st.1 (foldMax f)) * v c)

/-- The streaming state after the first n tiles, from (-inf, 0, 0). -/
def state {κ : Type} [Fintype κ] (f v : ℕ → κ → EReal) : ℕ → EReal × EReal × EReal
  | 0 => (⊥, 0, 0)
  | n + 1 => step (state f v n) (f n) (v n)

/-- The streaming form's result: the weighted sum times the reciprocal of the normaliser. -/
def out (st : EReal × EReal × EReal) : EReal := st.2.2 * Ideal.div 1 st.2.1

/-- The two-pass form's result on a row with scores g and values w. -/
def twoPass {ι : Type} [Fintype ι] (g w : ι → EReal) : EReal :=
  ∑ i, Ideal.div (Ideal.exp (g i - foldMax g)) (∑ i', Ideal.exp (g i' - foldMax g)) * w i

/-- A masked real score: the real when the mask keeps the column, -inf otherwise. -/
def ms {κ : Type} (K : ℕ → κ → Prop) [∀ j c, Decidable (K j c)] (S : ℕ → κ → ℝ) : ℕ → κ → EReal :=
  fun j c => if K j c then ((S j c : ℝ) : EReal) else ⊥

/-- The real exponential of a kept score relative to m; 0 for a masked column. -/
def et (K : Prop) [Decidable K] (s m : ℝ) : ℝ := if K then Real.exp (s - m) else 0

/-! ## Small facts -/

/-- The image of a finite sum of reals is the sum of the images. -/
theorem coe_sum {α : Type} (s : Finset α) (h : α → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

theorem et_nonneg (K : Prop) [Decidable K] (s m : ℝ) : 0 ≤ et K s m := by
  unfold et; split
  · exact (Real.exp_pos _).le
  · exact le_rfl

theorem et_pos {K : Prop} [Decidable K] (hK : K) (s m : ℝ) : 0 < et K s m := by
  unfold et; rw [if_pos hK]; exact Real.exp_pos _

/-- Moving the reference point from m to m' rescales every term by exp (m - m'). -/
theorem et_rescale (K : Prop) [Decidable K] (s m m' : ℝ) : Real.exp (m - m') * et K s m = et K s m' := by
  unfold et; split
  · rw [← Real.exp_add]; congr 1; ring
  · exact mul_zero _

/-- The exponential of a masked score relative to a real reference point is the real term. -/
theorem exp_ms_sub (K : Prop) [Decidable K] (s m : ℝ) :
    Ideal.exp ((if K then ((s : ℝ) : EReal) else ⊥) - ((m : ℝ) : EReal)) = ((et K s m : ℝ) : EReal) := by
  unfold et
  by_cases hK : K
  · rw [if_pos hK, if_pos hK, ← EReal.coe_sub]; rfl
  · rw [if_neg hK, if_neg hK, sub_eq_add_neg, EReal.bot_add]; rfl

theorem le_foldMax {κ : Type} [Fintype κ] (f : κ → EReal) (c : κ) : f c ≤ foldMax f := by
  unfold foldMax
  rw [Finset.le_fold_max]
  exact Or.inr ⟨c, Finset.mem_univ c, le_rfl⟩

theorem foldMax_le {κ : Type} [Fintype κ] (f : κ → EReal) (B : EReal) (h : ∀ c, f c ≤ B) : foldMax f ≤ B := by
  unfold foldMax
  rw [Finset.fold_max_le]
  exact ⟨bot_le, fun c _ => h c⟩

theorem foldMax_lt_top {κ : Type} [Fintype κ] (f : κ → EReal) (h : ∀ c, f c < ⊤) : foldMax f < ⊤ := by
  unfold foldMax
  rw [Finset.fold_max_lt]
  exact ⟨bot_lt_top, fun c _ => h c⟩

theorem ms_lt_top {κ : Type} (K : ℕ → κ → Prop) [∀ j c, Decidable (K j c)] (S : ℕ → κ → ℝ) (j : ℕ) (c : κ) :
    ms K S j c < ⊤ := by
  unfold ms; split
  · exact EReal.coe_lt_top _
  · exact bot_lt_top

/-! ## The running maximum -/

section Max

variable {κ : Type} [Fintype κ] (f v : ℕ → κ → EReal)

theorem state_fst_succ (n : ℕ) : (state f v (n + 1)).1 = max (state f v n).1 (foldMax (f n)) := rfl

theorem state_fst_mono {n n' : ℕ} (h : n ≤ n') : (state f v n).1 ≤ (state f v n').1 := by
  induction h with
  | refl => exact le_rfl
  | step _ ih => exact ih.trans (by rw [state_fst_succ]; exact le_max_left _ _)

theorem tile_le_state (j : ℕ) (c : κ) : f j c ≤ (state f v (j + 1)).1 := by
  rw [state_fst_succ]
  exact (le_foldMax (f j) c).trans (le_max_right _ _)

theorem state_fst_lt_top (h : ∀ j c, f j c < ⊤) (n : ℕ) : (state f v n).1 < ⊤ := by
  induction n with
  | zero => exact bot_lt_top
  | succ n ih => rw [state_fst_succ]; exact max_lt ih (foldMax_lt_top _ (h n))

/-- The running maximum after all J tiles is the maximum of the whole row. -/
theorem state_fst_eq_foldMax {ι : Type} [Fintype ι] (J : ℕ) (e : Fin J × κ ≃ ι) (g : ι → EReal)
    (hg : ∀ (j : Fin J) (c : κ), g (e (j, c)) = f j.val c) : (state f v J).1 = foldMax g := by
  apply le_antisymm
  · have : ∀ n, n ≤ J → (state f v n).1 ≤ foldMax g := by
      intro n
      induction n with
      | zero => intro _; exact bot_le
      | succ n ih =>
        intro hn
        rw [state_fst_succ]
        refine max_le (ih (by omega)) (foldMax_le _ _ fun c => ?_)
        rw [← hg ⟨n, by omega⟩ c]
        exact le_foldMax g _
    exact this J le_rfl
  · refine foldMax_le _ _ fun i => ?_
    have hi := hg (e.symm i).1 (e.symm i).2
    rw [Prod.mk.eta, Equiv.apply_symm_apply] at hi
    rw [hi]
    exact (tile_le_state f v _ _).trans (state_fst_mono f v (e.symm i).1.isLt)

end Max

/-! ## The streaming invariant on masked real scores -/

section Masked

variable {κ : Type} [Fintype κ] (K : ℕ → κ → Prop) [∀ j c, Decidable (K j c)] (S V : ℕ → κ → ℝ)

local notation "vv" => (fun (j : ℕ) (c : κ) => ((V j c : ℝ) : EReal))

/-- Once the first tile has an unmasked column the running maximum is a real number after every tile. -/
theorem state_fst_real (c0 : κ) (h0 : K 0 c0) (n : ℕ) (hn : 1 ≤ n) :
    ∃ r : ℝ, (state (ms K S) vv n).1 = ((r : ℝ) : EReal) := by
  have hlt : (state (ms K S) vv n).1 < ⊤ := state_fst_lt_top _ _ (ms_lt_top K S) n
  have hgt : ⊥ < (state (ms K S) vv n).1 := by
    have h1 : ms K S 0 c0 ≤ (state (ms K S) vv n).1 :=
      (tile_le_state (ms K S) vv 0 c0).trans (state_fst_mono _ _ hn)
    refine lt_of_lt_of_le ?_ h1
    unfold ms; rw [if_pos h0]; exact EReal.bot_lt_coe _
  exact ⟨(state (ms K S) vv n).1.toReal, (EReal.coe_toReal hlt.ne hgt.ne').symm⟩

/-- One step from a real state to a real running maximum r'. -/
theorem step_real (n : ℕ) (m l a r' : ℝ)
    (hmax : max ((m : ℝ) : EReal) (foldMax (ms K S n)) = ((r' : ℝ) : EReal)) :
    step (((m : ℝ) : EReal), ((l : ℝ) : EReal), ((a : ℝ) : EReal)) (ms K S n) (vv n)
      = (((r' : ℝ) : EReal),
          ((Real.exp (m - r') * l + ∑ c, et (K n c) (S n c) r' : ℝ) : EReal),
          ((Real.exp (m - r') * a + ∑ c, et (K n c) (S n c) r' * V n c : ℝ) : EReal)) := by
  unfold step
  simp only [hmax]
  have he : Ideal.exp (((m : ℝ) : EReal) - ((r' : ℝ) : EReal)) = ((Real.exp (m - r') : ℝ) : EReal) := by
    rw [← EReal.coe_sub]; rfl
  have hs : ∀ c, Ideal.exp (ms K S n c - ((r' : ℝ) : EReal)) = ((et (K n c) (S n c) r' : ℝ) : EReal) :=
    fun c => exp_ms_sub (K n c) (S n c) r'
  simp only [he, hs]
  refine Prod.ext rfl (Prod.ext ?_ ?_)
  · show ((Real.exp (m - r') : ℝ) : EReal) * ((l : ℝ) : EReal) + ∑ c, ((et (K n c) (S n c) r' : ℝ) : EReal) = _
    rw [← coe_sum, ← EReal.coe_mul, ← EReal.coe_add]
  · show ((Real.exp (m - r') : ℝ) : EReal) * ((a : ℝ) : EReal)
        + ∑ c, ((et (K n c) (S n c) r' : ℝ) : EReal) * ((V n c : ℝ) : EReal) = _
    simp only [← EReal.coe_mul]
    rw [← coe_sum, ← EReal.coe_add]

/-- The first step, from (-inf, 0, 0), to a real running maximum r'. -/
theorem step_init (r' : ℝ) (hmax : max (⊥ : EReal) (foldMax (ms K S 0)) = ((r' : ℝ) : EReal)) :
    step ((⊥ : EReal), (0 : EReal), (0 : EReal)) (ms K S 0) (vv 0)
      = (((r' : ℝ) : EReal),
          ((∑ c, et (K 0 c) (S 0 c) r' : ℝ) : EReal),
          ((∑ c, et (K 0 c) (S 0 c) r' * V 0 c : ℝ) : EReal)) := by
  unfold step
  simp only [hmax]
  have hs : ∀ c, Ideal.exp (ms K S 0 c - ((r' : ℝ) : EReal)) = ((et (K 0 c) (S 0 c) r' : ℝ) : EReal) :=
    fun c => exp_ms_sub (K 0 c) (S 0 c) r'
  simp only [hs, mul_zero, zero_add]
  refine Prod.ext rfl (Prod.ext ?_ ?_)
  · show ∑ c, ((et (K 0 c) (S 0 c) r' : ℝ) : EReal) = _
    rw [← coe_sum]
  · show ∑ c, ((et (K 0 c) (S 0 c) r' : ℝ) : EReal) * ((V 0 c : ℝ) : EReal) = _
    simp only [← EReal.coe_mul]
    rw [← coe_sum]

/-- THE INVARIANT: after n >= 1 tiles, with the running maximum the real r, the normaliser is the sum over the
    columns seen so far of the terms relative to r, and the weighted sum the sum of term times value. -/
theorem state_sums (c0 : κ) (h0 : K 0 c0) (n : ℕ) (hn : 1 ≤ n) :
    ∀ r : ℝ, (state (ms K S) vv n).1 = ((r : ℝ) : EReal) →
      (state (ms K S) vv n).2
        = (((∑ j ∈ Finset.range n, ∑ c, et (K j c) (S j c) r : ℝ) : EReal),
            ((∑ j ∈ Finset.range n, ∑ c, et (K j c) (S j c) r * V j c : ℝ) : EReal)) := by
  induction n, hn using Nat.le_induction with
  | base =>
    intro r hr
    have hmax : max (⊥ : EReal) (foldMax (ms K S 0)) = ((r : ℝ) : EReal) := hr
    show (step ((⊥ : EReal), (0 : EReal), (0 : EReal)) (ms K S 0) (vv 0)).2 = _
    rw [step_init K S V r hmax]
    simp
  | succ n hn ih =>
    intro r' hr'
    obtain ⟨r, hr⟩ := state_fst_real K S V c0 h0 n hn
    have hst : state (ms K S) vv n
        = (((r : ℝ) : EReal), ((∑ j ∈ Finset.range n, ∑ c, et (K j c) (S j c) r : ℝ) : EReal),
            ((∑ j ∈ Finset.range n, ∑ c, et (K j c) (S j c) r * V j c : ℝ) : EReal)) :=
      Prod.ext hr (ih r hr)
    have hmax : max ((r : ℝ) : EReal) (foldMax (ms K S n)) = ((r' : ℝ) : EReal) := by
      rw [← hr, ← state_fst_succ]; exact hr'
    show (step (state (ms K S) vv n) (ms K S n) (vv n)).2 = _
    rw [hst, step_real K S V n r _ _ r' hmax]
    refine Prod.ext ?_ ?_
    · show ((_ : ℝ) : EReal) = ((_ : ℝ) : EReal)
      congr 1
      rw [Finset.sum_range_succ, Finset.mul_sum]
      congr 1
      refine Finset.sum_congr rfl fun j _ => ?_
      rw [Finset.mul_sum]
      exact Finset.sum_congr rfl fun c _ => et_rescale _ _ _ _
    · show ((_ : ℝ) : EReal) = ((_ : ℝ) : EReal)
      congr 1
      rw [Finset.sum_range_succ, Finset.mul_sum]
      congr 1
      refine Finset.sum_congr rfl fun j _ => ?_
      rw [Finset.mul_sum]
      refine Finset.sum_congr rfl fun c _ => ?_
      rw [← mul_assoc, et_rescale]

end Masked

/-! ## A fully masked tile changes nothing -/

/-- A tile whose every column is masked leaves a state with a real running maximum as it is: the maximum does not
    move, the rescaling factor is exp 0 = 1, and every new term is exp (-inf) = 0. -/
theorem step_all_masked {κ : Type} [Fintype κ] (m : ℝ) (l a : EReal) (f v : κ → EReal) (hf : ∀ c, f c = ⊥) :
    step (((m : ℝ) : EReal), l, a) f v = (((m : ℝ) : EReal), l, a) := by
  have hmax : foldMax f = ⊥ := le_antisymm (foldMax_le _ _ fun c => (hf c).le) bot_le
  have h0 : Ideal.exp (((m : ℝ) : EReal) - ((m : ℝ) : EReal)) = 1 := by
    rw [← EReal.coe_sub, sub_self]
    show ((Real.exp 0 : ℝ) : EReal) = 1
    rw [Real.exp_zero]; rfl
  have hb : Ideal.exp ((⊥ : EReal) - ((m : ℝ) : EReal)) = 0 := by
    rw [sub_eq_add_neg, EReal.bot_add]; rfl
  unfold step
  simp only [hmax, max_eq_left bot_le, hf, h0, hb, one_mul, zero_mul, Finset.sum_const_zero, add_zero]

/-! ## The two forms agree -/

section Final

variable {κ ι : Type} [Fintype κ] [Fintype ι] (K : ℕ → κ → Prop) [∀ j c, Decidable (K j c)] (S V : ℕ → κ → ℝ)

/-- The streaming form over J > 0 tiles and the two-pass form over the flat row agree, for masked real scores and
    real values, when the first tile has an unmasked column; `e` lays the (tile, column) pairs out along the row. -/
theorem streamed_eq_twoPass (J : ℕ) (hJ : 0 < J) (c0 : κ) (h0 : K 0 c0)
    (e : Fin J × κ ≃ ι) (g w : ι → EReal)
    (hg : ∀ (j : Fin J) (c : κ), g (e (j, c)) = ms K S j.val c)
    (hw : ∀ (j : Fin J) (c : κ), w (e (j, c)) = ((V j.val c : ℝ) : EReal)) :
    out (state (ms K S) (fun (j : ℕ) (c : κ) => ((V j c : ℝ) : EReal)) J) = twoPass g w := by
  obtain ⟨M, hM⟩ := state_fst_real K S V c0 h0 J hJ
  have hsums := state_sums K S V c0 h0 J hJ M hM
  have hgM : foldMax g = ((M : ℝ) : EReal) := by
    rw [← state_fst_eq_foldMax (ms K S) (fun (j : ℕ) (c : κ) => ((V j c : ℝ) : EReal)) J e g hg]; exact hM
  have hLpos : 0 < ∑ j ∈ Finset.range J, ∑ c, et (K j c) (S j c) M := by
    refine Finset.sum_pos' (fun j _ => Finset.sum_nonneg fun c _ => et_nonneg _ _ _) ⟨0, Finset.mem_range.mpr hJ, ?_⟩
    exact Finset.sum_pos' (fun c _ => et_nonneg _ _ _) ⟨c0, Finset.mem_univ c0, et_pos h0 _ _⟩
  have hLfin : (∑ j ∈ Finset.range J, ∑ c, et (K j c) (S j c) M)
      = ∑ j : Fin J, ∑ c, et (K j.val c) (S j.val c) M :=
    (Fin.sum_univ_eq_sum_range (fun j => ∑ c, et (K j c) (S j c) M) J).symm
  have hAfin : (∑ j ∈ Finset.range J, ∑ c, et (K j c) (S j c) M * V j c)
      = ∑ j : Fin J, ∑ c, et (K j.val c) (S j.val c) M * V j.val c :=
    (Fin.sum_univ_eq_sum_range (fun j => ∑ c, et (K j c) (S j c) M * V j c) J).symm
  have hexp : ∀ (j : Fin J) (c : κ),
      Ideal.exp (g (e (j, c)) - foldMax g) = ((et (K j.val c) (S j.val c) M : ℝ) : EReal) := by
    intro j c; rw [hg, hgM]; exact exp_ms_sub _ _ _
  have hsumL : ∑ i', Ideal.exp (g i' - foldMax g)
      = (((∑ j ∈ Finset.range J, ∑ c, et (K j c) (S j c) M : ℝ)) : EReal) := by
    rw [← Equiv.sum_comp e, Fintype.sum_prod_type, hLfin, coe_sum]
    refine Finset.sum_congr rfl fun j _ => ?_
    rw [coe_sum]
    exact Finset.sum_congr rfl fun c _ => hexp j c
  have hout : out (state (ms K S) (fun (j : ℕ) (c : κ) => ((V j c : ℝ) : EReal)) J)
      = (((∑ j ∈ Finset.range J, ∑ c, et (K j c) (S j c) M * V j c)
          * (1 / ∑ j ∈ Finset.range J, ∑ c, et (K j c) (S j c) M) : ℝ) : EReal) := by
    unfold out
    rw [hsums]
    show ((_ : ℝ) : EReal) * Ideal.div 1 ((_ : ℝ) : EReal) = _
    rw [Ideal.div_coe hLpos.ne', one_mul, ← EReal.coe_mul]
  rw [hout]
  unfold twoPass
  rw [hsumL, ← Equiv.sum_comp e, Fintype.sum_prod_type, hAfin, Finset.sum_mul, coe_sum]
  refine Finset.sum_congr rfl fun j _ => ?_
  rw [Finset.sum_mul, coe_sum]
  refine Finset.sum_congr rfl fun c _ => ?_
  rw [hexp, hw, Ideal.div_coe hLpos.ne', ← EReal.coe_mul, ← EReal.coe_mul]
  congr 1
  ring

end Final

end Flash

end
-- ==== Proof.Spec.lean ====
/-
  Causal multi-head self-attention as one function of the three argument arrays, index by index, on the extended
  reals: activations x[b, t, d] (2 x 2048 x 1024), the stacked projection weight w[e, d] (3072 x 1024, one row per
  output feature: rows 0..1023 the queries', 1024..2047 the keys', 2048..3071 the values', head h taking the 64
  rows h*64 .. h*64+63 of each), and the output weight wo[e, d] (1024 x 1024).

    proj[b, t, e]      = sum_d x[b, t, d] * w[e, d]
    Q, K, V[b, h, t, j] = proj[b, t, (0|1|2)*1024 + h*64 + j]
    score[b, h, t, s]  = (sum_j Q[b, h, t, j] * K[b, h, s, j]) * 1/8,  read as -inf for s > t
    A[b, h, t, j]      = the softmax over s of score[b, h, t, .] weighting V[b, h, s, j]   (Flash.twoPass)
    out[b, t, e]       = sum_d A[b, d / 64, t, d % 64] * wo[e, d]
-/
import Idealize.ShloMosaic.PureOps.Ideal
import Idealize.ShloMosaic.Lib.ValueIdx
import proofs.«122748_j71631464563424_2_alg».proof.Proof.LibFlashAttention

noncomputable section

open scoped BigOperators

namespace Attn

open Idealize.ShloMosaic Idealize.ShloMosaic.ValueIdx

abbrev SX : Shape := ⟨3, ![2, 2048, 1024]⟩
abbrev SW : Shape := ⟨2, ![3072, 1024]⟩
abbrev SWo : Shape := ⟨2, ![1024, 1024]⟩
abbrev SH : Shape := ⟨4, ![2, 16, 2048, 64]⟩

/-- One entry of the stacked projection. -/
def proj (x : SX.Idx → EReal) (w : SW.Idx → EReal) (b : Fin 2) (t : Fin 2048) (e : Fin 3072) : EReal :=
  ∑ d : Fin 1024, x (ix3 b t d) * w (ix2 e d)

/-- The row of the stacked weight that gives feature `j` of head `h` of the queries (s = 0), keys (1) or values (2). -/
def feat (s : Fin 3) (h : Fin 16) (j : Fin 64) : Fin 3072 := ⟨s.val * 1024 + h.val * 64 + j.val, by omega⟩

/-- The queries (s = 0), keys (1) or values (2), one 2048 x 64 matrix per batch element and head. -/
def qkv (s : Fin 3) (x : SX.Idx → EReal) (w : SW.Idx → EReal) : SH.Idx → EReal :=
  fun i => proj x w (i 0) (i 2) (feat s (i 1) (i 3))

/-- The score scale 1/8 = 1/sqrt 64, as the f32 word of 0.125. -/
def scale : EReal := Ideal.ofBits .f32 0x3E000000#32

def score (Q K : SH.Idx → EReal) (b : Fin 2) (h : Fin 16) (t s : Fin 2048) : EReal :=
  (∑ j : Fin 64, Q (ix4 b h t j) * K (ix4 b h s j)) * scale

/-- The causally masked score: -inf for a key position beyond the query position. -/
def mscore (Q K : SH.Idx → EReal) (b : Fin 2) (h : Fin 16) (t s : Fin 2048) : EReal :=
  if s.val ≤ t.val then score Q K b h t s else ⊥

/-- The attention output, per batch element, head, query position and feature. -/
def attn (Q K V : SH.Idx → EReal) : SH.Idx → EReal :=
  fun i => Flash.twoPass (fun s : Fin 2048 => mscore Q K (i 0) (i 1) (i 2) s) (fun s : Fin 2048 => V (ix4 (i 0) (i 1) s (i 3)))

/-- The head of a merged feature index and the feature within the head. -/
def headOf (d : Fin 1024) : Fin 16 := ⟨d.val / 64, by omega⟩
def featOf (d : Fin 1024) : Fin 64 := ⟨d.val % 64, by omega⟩

/-- The output projection over the merged heads. -/
def outp (A : SH.Idx → EReal) (wo : SWo.Idx → EReal) : SX.Idx → EReal :=
  fun i => ∑ d : Fin 1024, A (ix4 (i 0) (headOf d) (i 1) (featOf d)) * wo (ix2 (i 2) d)

/-- The whole layer. -/
def layer (x : SX.Idx → EReal) (w : SW.Idx → EReal) (wo : SWo.Idx → EReal) : SX.Idx → EReal :=
  outp (attn (qkv 0 x w) (qkv 1 x w) (qkv 2 x w)) wo

end Attn

end
-- ==== Proof.KIValue1.lean ====
/-
  The attention region's arithmetic, row by row, on the extended reals: one key tile moves a query row's streaming
  state (running maximum, running normaliser, running weighted sum) exactly as `Flash.step` does on the row's masked
  scores against that tile, and the final division is `Flash.out`.
-/
import proofs.«122748_j71631464563424_2_alg».proof.Proof.KIRegion1
import proofs.«122748_j71631464563424_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val1

open Cert.KernelIdeal Cert.KernelIdeal.Gen Idealize.ShloMosaic Idealize.ShloMosaic.ValueIdx

/-! ## Position words -/

theorem toInt_ofNat_small (a : ℕ) (ha : a < 2 ^ 31) : (BitVec.ofNat 32 a).toInt = (a : Int) := by
  have h1 : (BitVec.ofNat 32 a).toNat = a := by rw [BitVec.toNat_ofNat]; omega
  rw [BitVec.toInt_eq_toNat_of_lt (by rw [h1]; omega), h1]

theorem sle_ofNat (a b : ℕ) (ha : a < 2 ^ 31) (hb : b < 2 ^ 31) :
    (BitVec.ofNat 32 a).sle (BitVec.ofNat 32 b) = decide (a ≤ b) := by
  rw [BitVec.sle_eq_decide, toInt_ofNat_small a ha, toInt_ofNat_small b hb]
  simp

/-- The position word of entry `c` of tile `k`: k * 1024 + c. -/
theorem word_pos (k c : ℕ) :
    IntOp.addi (Scalar.muli (BitVec.ofNat 32 k) 1024#32) (BitVec.ofNat 32 c) = BitVec.ofNat 32 (k * 1024 + c) := by
  simp [IntOp.addi, IntOp.muli, Scalar.muli, BitVec.ofNat_add, BitVec.ofNat_mul]

/-- The causal comparison of position words is the comparison of the positions. -/
theorem cmpi_sle_words (qi kv r c : ℕ) (hqi : qi < 2) (hkv : kv < 2) (hr : r < 1024) (hc : c < 1024) :
    IntOp.cmpi .sle (IntOp.addi (Scalar.muli (BitVec.ofNat 32 kv) 1024#32) (BitVec.ofNat 32 c))
        (IntOp.addi (Scalar.muli (BitVec.ofNat 32 qi) 1024#32) (BitVec.ofNat 32 r))
      = if kv * 1024 + c ≤ qi * 1024 + r then 1#1 else 0#1 := by
  rw [word_pos, word_pos]
  unfold IntOp.cmpi
  simp only
  rw [sle_ofNat _ _ (by omega) (by omega)]
  split <;> simp [*]

/-! ## A tile of masked scores -/

/-- The score of query row `r` of the query block against key row `c` of the key block. -/
def sc (q k : Vec Ideal S1x1024x64 .bf16) (r c : Fin 1024) : EReal :=
  (∑ j : Fin 64, q (ix3 0 r j) * k (ix3 0 c j)) * Attn.scale

/-- Query row `r` of query tile `qi` against key tile `kv`: the score where the key position is not beyond the query
    position, -inf elsewhere. -/
def tile (qi kv : ℕ) (q k : Vec Ideal S1x1024x64 .bf16) (r : Fin 1024) : Fin 1024 → EReal :=
  fun c => if kv * 1024 + c.val ≤ qi * 1024 + r.val then sc q k r c else ⊥

theorem neg_big_bot : Named.named (F := Ideal) κ "neg_big" (φ := .f32) 0xFF333332#32 = (⊥ : EReal) :=
  IdealRules.named_const.ideal_named_scalar _ _ _ _ rfl

theorem ofBits_neg_inf : Ideal.ofBits .f32 0xFF800000#32 = (⊥ : EReal) := by
  simp [Ideal.ofBits, Ideal.ieee]

/-! ## The layout operations of the body, read at an entry -/

section Layout
variable {α : Type}

theorem drop_apply (x : S1x1024x64.Idx → α) (r : Fin 1024) (j : Fin 64) :
    shapeCast S1024x64 x shapeCasts_S1x1024x64_S1024x64 (ix2 r j) = x (ix3 0 r j) :=
  shapeCast_apply x _ _ _ (by rw [Shape.rowMajor_val_three, Shape.rowMajor_val_two]; simp)

theorem add_apply (y : S1024x64.Idx → α) (r : Fin 1024) (j : Fin 64) :
    shapeCast S1x1024x64 y shapeCasts_S1024x64_S1x1024x64 (ix3 0 r j) = y (ix2 r j) :=
  shapeCast_apply y _ _ _ (by rw [Shape.rowMajor_val_three, Shape.rowMajor_val_two]; simp)

theorem tr_apply (B : S1024x64.Idx → α) (j : Fin 64) (c : Fin 1024) :
    transpose S64x1024 [1, 0] B transposes_S1024x64_p1_0_S64x1024 (ix2 j c) = B (ix2 c j) :=
  transpose_apply [1, 0] B _ _ (ix2 c j) (fun b => by match b with | ⟨0, _⟩ => rfl | ⟨1, _⟩ => rfl)

theorem col_apply (v : S1024.Idx → α) (r : Fin 1024) :
    shapeCast S1024x1 v shapeCasts_S1024_S1024x1 (ix2 r 0) = v (ix1 r) :=
  shapeCast_apply v _ _ _ (by rw [Shape.rowMajor_val_one, Shape.rowMajor_val_two]; simp)

theorem bc1024_apply (m : S1024x1.Idx → α) (r c : Fin 1024) :
    broadcastTo S1024x1024 m broadcasts_S1024x1_S1024x1024 (ix2 r c) = m (ix2 r 0) :=
  broadcastTo_apply m _ _ (ix2 r 0) (fun a => by match a with | ⟨0, _⟩ => rfl | ⟨1, _⟩ => rfl)

theorem bc64_apply (m : S1024x1.Idx → α) (r : Fin 1024) (j : Fin 64) :
    broadcastTo S1024x64 m broadcasts_S1024x1_S1024x64 (ix2 r j) = m (ix2 r 0) :=
  broadcastTo_apply m _ _ (ix2 r 0) (fun a => by match a with | ⟨0, _⟩ => rfl | ⟨1, _⟩ => rfl)

end Layout

theorem mm_qk_l0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem mm_qk_l1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem mm_qk_r0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem mm_qk_r1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a 1024 x 64 matrix with a 64 x 1024 matrix, into zero, at an entry. -/
theorem mm_qk (A : FVec Ideal S1024x64 .bf16) (B : FVec Ideal S64x1024 .bf16) (i : S1024x1024.Idx) :
    matmul dot_S1024x64_S64x1024_S1024x1024_1_0_0_1_n_n none A B (constant (F := Ideal) S1024x1024 .f32 0x00000000#32) i
      = ∑ k : Fin 64, A (ix2 (i 0) k) * B (ix2 k (i 1)) := by
  refine (Ideal.matmul_constant_zero_apply dot_S1024x64_S64x1024_S1024x1024_1_0_0_1_n_n none A B i).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx i ((contrEquiv1 dot_S1024x64_S64x1024_S1024x1024_1_0_0_1_n_n 64 rfl rfl).symm k) = ix2 (i 0) k :=
    funext fun a => Fin.ext (by
      match a with
      | ⟨0, _⟩ => exact mm_qk_l0 _ _
      | ⟨1, _⟩ => exact (mm_qk_l1 _ _).trans hk)
  have er : dot_S1024x64_S64x1024_S1024x1024_1_0_0_1_n_n.rhsIdx i ((contrEquiv1 dot_S1024x64_S64x1024_S1024x1024_1_0_0_1_n_n 64 rfl rfl).symm k) = ix2 k (i 1) :=
    funext fun a => Fin.ext (by
      match a with
      | ⟨0, _⟩ => exact (mm_qk_r0 _ _).trans hk
      | ⟨1, _⟩ => exact mm_qk_r1 _ _)
  rw [el, er]
  rfl

theorem mm_pv_l0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mm_pv_l1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem mm_pv_r0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem mm_pv_r1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of a 1024 x 1024 matrix with a 1024 x 64 matrix, into zero, at an entry. -/
theorem mm_pv (A : FVec Ideal S1024x1024 .bf16) (B : FVec Ideal S1024x64 .bf16) (i : S1024x64.Idx) :
    matmul dot_S1024x1024_S1024x64_S1024x64_1_0_0_1_n_n none A B (constant (F := Ideal) S1024x64 .f32 0x00000000#32) i
      = ∑ k : Fin 1024, A (ix2 (i 0) k) * B (ix2 k (i 1)) := by
  refine (Ideal.matmul_constant_zero_apply dot_S1024x1024_S1024x64_S1024x64_1_0_0_1_n_n none A B i).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx i ((contrEquiv1 dot_S1024x1024_S1024x64_S1024x64_1_0_0_1_n_n 1024 rfl rfl).symm k) = ix2 (i 0) k :=
    funext fun a => Fin.ext (by
      match a with
      | ⟨0, _⟩ => exact mm_pv_l0 _ _
      | ⟨1, _⟩ => exact (mm_pv_l1 _ _).trans hk)
  have er : dot_S1024x1024_S1024x64_S1024x64_1_0_0_1_n_n.rhsIdx i ((contrEquiv1 dot_S1024x1024_S1024x64_S1024x64_1_0_0_1_n_n 1024 rfl rfl).symm k) = ix2 k (i 1) :=
    funext fun a => Fin.ext (by
      match a with
      | ⟨0, _⟩ => exact (mm_pv_r0 _ _).trans hk
      | ⟨1, _⟩ => exact mm_pv_r1 _ _)
  rw [el, er]
  rfl

/-- The reduced index `r` with column `c` put back is (r, c). -/
theorem lift_row (r : Fin 1024) (c : Fin (S1024x1024.size 1)) :
    reduces_S1024x1024_S1024.lift (ix1 r) c = ix2 r (⟨c.val, c.isLt⟩ : Fin 1024) := by
  funext a; apply Fin.ext
  fin_cases a <;> rfl

/-- A row's maximum from -inf. -/
theorem rowmax_apply (src : FVec Ideal S1024x1024 .f32) (r : Fin 1024) (hφ : FKind.Formats .f32)
    (hacc : (0xFF800000#32 : BitVec 32) = FKind.maximumf.neutral .f32 hφ) :
    multiReduction (F := Ideal) .maximumf [1] S1024 src 0xFF800000#32 reduces_S1024x1024_S1024 hφ hacc (ix1 r)
      = Flash.foldMax fun c : Fin 1024 => src (ix2 r c) := by
  refine (Ideal.multiReduction_maximumf_single src 0xFF800000#32 reduces_S1024x1024_S1024 hφ hacc (ix1 r)).trans ?_
  unfold Flash.foldMax
  have hf : (src ∘ reduces_S1024x1024_S1024.lift (ix1 r)) = fun c : Fin 1024 => src (ix2 r c) :=
    funext fun c => congrArg src (lift_row r c)
  rw [show FloatOps.ofBits (F := Ideal) .f32 0xFF800000#32 = (⊥ : EReal) from ofBits_neg_inf]
  exact congrArg (fun f => Finset.fold max (⊥ : EReal) f (Finset.univ : Finset (Fin 1024))) hf

/-- A row's sum from zero. -/
theorem rowsum_apply (src : FVec Ideal S1024x1024 .f32) (r : Fin 1024) (hφ : FKind.Formats .f32)
    (hacc : (0x00000000#32 : BitVec 32) = FKind.add.neutral .f32 hφ) :
    multiReduction (F := Ideal) .add [1] S1024 src 0x00000000#32 reduces_S1024x1024_S1024 hφ hacc (ix1 r)
      = ∑ c : Fin 1024, src (ix2 r c) :=
  (Ideal.multiReduction_add_single src 0x00000000#32 reduces_S1024x1024_S1024 hφ hacc (ix1 r)).trans
    (Finset.sum_congr rfl fun c _ => congrArg src (lift_row r c))

/-- The product of the query block with the transposed key block, scaled, at an entry. -/
theorem qk_apply' (q k : Vec Ideal S1x1024x64 .bf16) (r c : Fin 1024) :
    mulf (matmul dot_S1024x64_S64x1024_S1024x1024_1_0_0_1_n_n none
          (shapeCast S1024x64 q shapeCasts_S1x1024x64_S1024x64 : FVec Ideal S1024x64 .bf16)
          (transpose S64x1024 [1, 0] (shapeCast S1024x64 k shapeCasts_S1x1024x64_S1024x64 : FVec Ideal S1024x64 .bf16) transposes_S1024x64_p1_0_S64x1024 : FVec Ideal S64x1024 .bf16)
          (constant (F := Ideal) S1024x1024 .f32 0x00000000#32))
        (broadcast S1024x1024 (Scalar.ofBits (F := Ideal) .f32 0x3E000000#32)) (ix2 r c)
      = (∑ j : Fin 64, q (ix3 0 r j) * k (ix3 0 c j)) * Attn.scale := by
  show matmul _ none _ _ _ (ix2 r c) * _ = _
  rw [mm_qk]
  congr 1
  refine Finset.sum_congr rfl fun j _ => ?_
  rw [drop_apply, tr_apply, drop_apply]

/-! ## The payloads at an entry -/

/-- The masked scores of the query block against the key block. -/
theorem pay9_apply (qi kv : ℕ) (hqi : qi < 2) (hkv : kv < 2) (q k : Vec Ideal S1x1024x64 .bf16) (r c : Fin 1024) :
    k1_pay9 (F := Ideal) (BitVec.ofNat 32 qi) (BitVec.ofNat 32 kv) q k (ix2 r c) = tile qi kv q k r c := by
  have hcond : IntOp.cmpi .sle
      (IntOp.addi (Scalar.muli (BitVec.ofNat 32 kv) 1024#32) (iota .tc S1024x1024 32 [1] iota_S1024x1024_d1_w32 (ix2 r c)))
      (IntOp.addi (Scalar.muli (BitVec.ofNat 32 qi) 1024#32) (iota .tc S1024x1024 32 [0] iota_S1024x1024_d0_w32 (ix2 r c)))
        = if kv * 1024 + c.val ≤ qi * 1024 + r.val then 1#1 else 0#1 := by
    rw [iota_single_apply, iota_single_apply]
    exact cmpi_sle_words qi kv r.val c.val hqi hkv r.isLt c.isLt
  unfold tile sc
  by_cases hle : kv * 1024 + c.val ≤ qi * 1024 + r.val
  · rw [if_pos hle] at hcond
    rw [if_pos hle]
    refine Eq.trans ?_ (qk_apply' q k r c)
    exact (congrArg (fun b => Scalar.select b _ _) hcond).trans (select_one _ _)
  · rw [if_neg hle] at hcond
    rw [if_neg hle]
    refine Eq.trans ?_ neg_big_bot
    exact (congrArg (fun b => Scalar.select b _ _) hcond).trans (select_zero _ _)

/-- The running maximum after the tile, at a row. -/
theorem pay10_apply (a1 a2 : BitVec 32) (q k : Vec Ideal S1x1024x64 .bf16) (m : Vec Ideal S1024x1 .f32) (r : Fin 1024) :
    k1_pay10 (F := Ideal) a1 a2 q k m (ix2 r 0)
      = max (m (ix2 r 0)) (Flash.foldMax fun c : Fin 1024 => k1_pay9 (F := Ideal) a1 a2 q k (ix2 r c)) :=
  congrArg (max (m (ix2 r 0))) ((col_apply _ r).trans (rowmax_apply _ r _ _))

/-- The rescaling factor of the old state, at a row. -/
theorem pay11_apply (a1 a2 : BitVec 32) (q k : Vec Ideal S1x1024x64 .bf16) (m m' : Vec Ideal S1024x1 .f32) (r : Fin 1024) :
    k1_pay11 (F := Ideal) a1 a2 q k m m' (ix2 r 0)
      = Ideal.exp (m' (ix2 r 0) - k1_pay10 (F := Ideal) a1 a2 q k m (ix2 r 0)) := rfl

/-- The exponentials of the tile's scores relative to the new maximum. -/
theorem pay12_apply (a1 a2 : BitVec 32) (q k : Vec Ideal S1x1024x64 .bf16) (m : Vec Ideal S1024x1 .f32) (r c : Fin 1024) :
    k1_pay12 (F := Ideal) a1 a2 q k m (ix2 r c)
      = Ideal.exp (k1_pay9 (F := Ideal) a1 a2 q k (ix2 r c) - k1_pay10 (F := Ideal) a1 a2 q k m (ix2 r 0)) :=
  congrArg (fun z => Ideal.exp (k1_pay9 (F := Ideal) a1 a2 q k (ix2 r c) - z)) (bc1024_apply _ r c)

/-- The running normaliser after the tile, at a row. -/
theorem pay13_apply (a1 a2 : BitVec 32) (q k : Vec Ideal S1x1024x64 .bf16) (m m' l : Vec Ideal S1024x1 .f32) (r : Fin 1024) :
    k1_pay13 (F := Ideal) a1 a2 q k m m' l (ix2 r 0)
      = k1_pay11 (F := Ideal) a1 a2 q k m m' (ix2 r 0) * l (ix2 r 0)
          + ∑ c : Fin 1024, k1_pay12 (F := Ideal) a1 a2 q k m (ix2 r c) :=
  congrArg (fun z => k1_pay11 (F := Ideal) a1 a2 q k m m' (ix2 r 0) * l (ix2 r 0) + z)
    ((col_apply _ r).trans (rowsum_apply _ r _ _))

/-- The running weighted sum after the tile, at an entry. -/
theorem pay5_apply (v : Vec Ideal S1x1024x64 .bf16) (e : FVec Ideal S1024x1 .f32) (p : FVec Ideal S1024x1024 .f32)
    (a : Vec Ideal S1024x64 .f32) (r : Fin 1024) (j : Fin 64) :
    k1_pay5 (F := Ideal) (k1_pay8 (F := Ideal) v) e p a (ix2 r j)
      = e (ix2 r 0) * a (ix2 r j) + ∑ c : Fin 1024, p (ix2 r c) * v (ix3 0 c j) := by
  have h1 : broadcastTo S1024x64 e broadcasts_S1024x1_S1024x64 (ix2 r j) = e (ix2 r 0) := bc64_apply e r j
  have h2 : matmul dot_S1024x1024_S1024x64_S1024x64_1_0_0_1_n_n none
        (truncf .bf16 p bitsLt_bf16_f32 : FVec Ideal S1024x1024 .bf16)
        (shapeCast S1024x64 v shapeCasts_S1x1024x64_S1024x64 : FVec Ideal S1024x64 .bf16)
        (constant (F := Ideal) S1024x64 .f32 0x00000000#32) (ix2 r j)
      = ∑ c : Fin 1024, p (ix2 r c) * v (ix3 0 c j) :=
    (mm_pv _ _ (ix2 r j)).trans (Finset.sum_congr rfl fun c _ => congrArg (fun z => p (ix2 r c) * z) (drop_apply v c j))
  unfold k1_pay5 k1_pay8
  refine (congrFun (shapeCast_self _ _) (ix2 r j)).trans ?_
  exact (congrArg₂ (fun x y => x * a (ix2 r j) + y) h1 h2)

/-- The output block: the weighted sum times the reciprocal of the normaliser. -/
theorem pay7_apply (a : Vec Ideal S1024x64 .f32) (l : Vec Ideal S1024x1 .f32) (r : Fin 1024) (j : Fin 64) :
    k1_pay7 (F := Ideal) a l (ix3 0 r j) = a (ix2 r j) * Ideal.div 1 (l (ix2 r 0)) := by
  have hone : Ideal.ofBits .f32 0x3F800000#32 = (1 : EReal) := by
    simp [Ideal.ofBits, Ideal.ieee, -EReal.coe_mul]; norm_num
  unfold k1_pay7
  refine (add_apply _ r j).trans ?_
  refine (congrArg (fun z => a (ix2 r j) * z) (bc64_apply _ r j)).trans ?_
  exact congrArg (fun z => a (ix2 r j) * Ideal.div z (l (ix2 r 0))) hone

/-! ## One key tile is one streaming step on every query row -/

theorem init_m (r : Fin 1024) : k1_pay1 (F := Ideal) (ix2 r 0) = (⊥ : EReal) := by
  unfold k1_pay1
  exact (congrFun (shapeCast_self _ _) (ix2 r 0)).trans ofBits_neg_inf
theorem ofBits_zero' : Ideal.ofBits .f32 0x00000000#32 = (0 : EReal) := by simp [Ideal.ofBits, Ideal.ieee]
theorem init_l (r : Fin 1024) : k1_pay2 (F := Ideal) (ix2 r 0) = (0 : EReal) := by
  unfold k1_pay2
  exact (congrFun (shapeCast_self _ _) (ix2 r 0)).trans ofBits_zero'
theorem init_a (r : Fin 1024) (j : Fin 64) : k1_pay3 (F := Ideal) (ix2 r j) = (0 : EReal) := by
  unfold k1_pay3
  exact (congrFun (shapeCast_self _ _) (ix2 r j)).trans ofBits_zero'

/-- One key tile moves a query row's state (running maximum, normaliser, weighted sum at feature `j`) as one
    streaming step on the row's masked scores against the tile. -/
theorem upd_row (qi kv : ℕ) (hqi : qi < 2) (hkv : kv < 2) (q k v : Vec Ideal S1x1024x64 .bf16)
    (m l : Vec Ideal S1024x1 .f32) (a : Vec Ideal S1024x64 .f32) (r : Fin 1024) (j : Fin 64) :
    (updM (F := Ideal) (BitVec.ofNat 32 qi) (BitVec.ofNat 32 kv) q k m (ix2 r 0),
     updL (F := Ideal) (BitVec.ofNat 32 qi) (BitVec.ofNat 32 kv) q k m l (ix2 r 0),
     updA (F := Ideal) (BitVec.ofNat 32 qi) (BitVec.ofNat 32 kv) q k v m a (ix2 r j))
      = Flash.step (m (ix2 r 0), l (ix2 r 0), a (ix2 r j)) (tile qi kv q k r) (fun c => v (ix3 0 c j)) := by
  have h9 : ∀ c : Fin 1024, k1_pay9 (F := Ideal) (BitVec.ofNat 32 qi) (BitVec.ofNat 32 kv) q k (ix2 r c) = tile qi kv q k r c :=
    fun c => pay9_apply qi kv hqi hkv q k r c
  have hM : k1_pay10 (F := Ideal) (BitVec.ofNat 32 qi) (BitVec.ofNat 32 kv) q k m (ix2 r 0)
      = max (m (ix2 r 0)) (Flash.foldMax (tile qi kv q k r)) :=
    (pay10_apply _ _ q k m r).trans (congrArg (fun f => max (m (ix2 r 0)) (Flash.foldMax f)) (funext h9))
  have hE : k1_pay11 (F := Ideal) (BitVec.ofNat 32 qi) (BitVec.ofNat 32 kv) q k m m (ix2 r 0)
      = Ideal.exp (m (ix2 r 0) - max (m (ix2 r 0)) (Flash.foldMax (tile qi kv q k r))) := by
    rw [pay11_apply, hM]
  have hP : ∀ c : Fin 1024, k1_pay12 (F := Ideal) (BitVec.ofNat 32 qi) (BitVec.ofNat 32 kv) q k m (ix2 r c)
      = Ideal.exp (tile qi kv q k r c - max (m (ix2 r 0)) (Flash.foldMax (tile qi kv q k r))) := by
    intro c; rw [pay12_apply, hM, h9]
  unfold Flash.step
  refine Prod.ext ?_ (Prod.ext ?_ ?_)
  · exact (congrFun (shapeCast_self _ _) (ix2 r 0)).trans hM
  · refine (congrFun (shapeCast_self _ _) (ix2 r 0)).trans ((pay13_apply _ _ q k m m l r).trans ?_)
    rw [hE]
    exact congrArg _ (Finset.sum_congr rfl fun c _ => hP c)
  · refine (pay5_apply v _ _ a r j).trans ?_
    rw [hE]
    exact congrArg _ (Finset.sum_congr rfl fun c _ => by rw [hP c])

/-- The output block at an entry is the streaming form's result of the row's state. -/
theorem fin_row (a : Vec Ideal S1024x64 .f32) (l : Vec Ideal S1024x1 .f32) (m : EReal) (r : Fin 1024) (j : Fin 64) :
    fin1 (F := Ideal) a l (ix3 0 r j) = Flash.out (m, l (ix2 r 0), a (ix2 r j)) :=
  pay7_apply a l r j

end Cert.KernelIdeal.Val1

end
-- ==== Proof.Spec32.lean ====
/-
  The attention of one (batch, head) pair, over arrays whose leading axis merges batch and head: 32 pairs of
  2048 x 64 matrices.  Query position t of pair p, feature j: the softmax over the key positions s <= t of
  (sum_j' Q[p, t, j'] * K[p, s, j']) / 8, weighting V[p, s, j].
-/
import proofs.«122748_j71631464563424_2_alg».proof.Proof.Spec

noncomputable section

open scoped BigOperators

namespace Attn

open Idealize.ShloMosaic Idealize.ShloMosaic.ValueIdx

abbrev S32 : Shape := ⟨3, ![32, 2048, 64]⟩

/-- The masked score of query position `t` against key position `s` of pair `p`. -/
def mscore32 (Q K : S32.Idx → EReal) (p : Fin 32) (t s : Fin 2048) : EReal :=
  if s.val ≤ t.val then (∑ j : Fin 64, Q (ix3 p t j) * K (ix3 p s j)) * scale else ⊥

/-- The attention output over the merged (batch, head) axis. -/
def attn32 (Q K V : S32.Idx → EReal) : S32.Idx → EReal :=
  fun i => Flash.twoPass (fun s : Fin 2048 => mscore32 Q K (i 0) (i 1) s) (fun s : Fin 2048 => V (ix3 (i 0) s (i 2)))

end Attn

end
-- ==== Proof.KICover1.lean ====
/-
  The attention region's output blocks tile its result array.  The grid has 32 x 2 x 2 points; point t works on the
  (batch, head) pair t / 4, the query tile t / 2 % 2 and the key tile t % 2, and writes the 1024 x 64 block
  (pair, query tile) of the [32, 2048, 64] result back at the odd points, after the last key tile.  Every index
  (p, r, j) of the result lies in the block written back at the point 4 * p + 2 * (r / 1024) + 1.
-/
import proofs.«122748_j71631464563424_2_alg».proof.Proof.KIRegion1
import Idealize.ShloMosaic.Lib.Pipeline.Value

noncomputable section

namespace Cert.KernelIdeal.Val1c

open Cert.KernelIdeal Cert.KernelIdeal.Gen Idealize.ShloMosaic Idealize.ShloMosaic.TcCoe Idealize.SL.Sem

/-- The output window's block index over the grid: (pair, query tile, 0). -/
theorem idx3 : ∀ t : Fin cfg1.N, win1_3.index t (0 : Fin 3) = t.val / 4
    ∧ win1_3.index t (1 : Fin 3) = t.val / 2 % 2
    ∧ win1_3.index t (2 : Fin 3) = 0 :=
  (by decide +kernel : ∀ t : Fin grid1.N, win1_3.index t (0 : Fin 3) = t.val / 4
    ∧ win1_3.index t (1 : Fin 3) = t.val / 2 % 2 ∧ win1_3.index t (2 : Fin 3) = 0)

/-- An index of the array is in point t's block iff each coordinate is in the block's range on its axis. -/
theorem mem_blk3 (t : Fin cfg1.N) (i : S32x2048x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v8).slice (win1_3.rect t)).set ↔ _
  rw [View.set_slice_whole, Rect.mem_set_unit]
  exact Iff.rfl

/-- Every index (p, r, j) of the result lies in the block written back at the point 4 * p + 2 * (r / 1024) + 1. -/
theorem cover3 : ∀ i : S32x2048x64.Idx,
    ∃ t : Fin cfg1.N, (cfg1.win 3).flush t = true ∧ i ∈ ((cfg1.win 3).blk t).view.set := by
  intro i
  have hi0 : (i 0).val < 32 := (i 0).isLt
  have hi1 : (i 1).val < 2048 := (i 1).isLt
  have hi2 : (i 2).val < 64 := (i 2).isLt
  have hN : cfg1.N = 128 := N_1
  obtain ⟨t, htv⟩ : ∃ t : Fin cfg1.N, t.val = 4 * (i 0).val + 2 * ((i 1).val / 1024) + 1 :=
    ⟨⟨4 * (i 0).val + 2 * ((i 1).val / 1024) + 1, by rw [hN]; omega⟩, rfl⟩
  obtain ⟨e0, e1, e2⟩ := idx3 t
  refine ⟨t, (flush1_3 t).mpr (by omega), ?_⟩
  rw [mem_blk3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 64 ≤ (i 2).val ∧ (i 2).val < win1_3.index t (2 : Fin 3) * 64 + 64
    omega

end Cert.KernelIdeal.Val1c

end
-- ==== Proof.KIValue1B.lean ====
/-
  The attention region as a whole-array function: the output array ends holding, at pair p, query position t and
  feature j, the softmax-weighted sum `Attn.attn32` of the three operand arrays — given that their entries are real.
  A query row of query tile 0 streams over key tile 0 alone, which is the two-tile stream with a fully masked second
  tile; a row of query tile 1 streams over both key tiles.
-/
import proofs.«122748_j71631464563424_2_alg».proof.Proof.KIValue1
import proofs.«122748_j71631464563424_2_alg».proof.Proof.Spec32
import proofs.«122748_j71631464563424_2_alg».proof.Proof.KICover1

set_option maxRecDepth 16384

noncomputable section

open scoped BigOperators

namespace Cert.KernelIdeal.Val1

open Cert.KernelIdeal Cert.KernelIdeal.Gen Idealize.ShloMosaic Idealize.ShloMosaic.ValueIdx Idealize.ShloMosaic.TcCoe Idealize.SL.Sem
open Idealize.ShloMosaic.Pipeline (Dat)

/-! ## Real entries -/

/-- An extended real that is (the image of) a real number. -/
def IsR (x : EReal) : Prop := ∃ r : ℝ, x = ((r : ℝ) : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sum {α : Type} (s : Finset α) (f : α → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem IsR.coe_toReal {x : EReal} (h : IsR x) : ((x.toReal : ℝ) : EReal) = x := by
  obtain ⟨r, rfl⟩ := h; rfl
theorem isR_scale : IsR Attn.scale := by
  refine ⟨1 / 8, ?_⟩
  unfold Attn.scale
  simp [Ideal.ofBits, Ideal.ieee, -EReal.coe_mul]; norm_num

/-! ## The key positions as (tile, column) pairs -/

/-- Key position kv * 1024 + c as the pair (kv, c). -/
def e2 : Fin 2 × Fin 1024 ≃ Fin 2048 where
  toFun p := ⟨p.1.val * 1024 + p.2.val, by have := p.1.isLt; have := p.2.isLt; omega⟩
  invFun s := (⟨s.val / 1024, by have := s.isLt; omega⟩, ⟨s.val % 1024, Nat.mod_lt _ (by norm_num)⟩)
  left_inv p := by
    have h1 := p.1.isLt; have h2 := p.2.isLt
    refine Prod.ext (Fin.ext ?_) (Fin.ext ?_)
    · show (p.1.val * 1024 + p.2.val) / 1024 = p.1.val; omega
    · show (p.1.val * 1024 + p.2.val) % 1024 = p.2.val; omega
  right_inv s := by
    refine Fin.ext ?_
    show s.val / 1024 * 1024 + s.val % 1024 = s.val; omega

/-! ## One query row, over arrays with real entries -/

section Row

variable (Q K Vv : Attn.S32.Idx → EReal) (hQ : ∀ i, IsR (Q i)) (hK : ∀ i, IsR (K i)) (hV : ∀ i, IsR (Vv i))
variable (p : Fin 32) (T : Fin 2048) (j : Fin 64)

/-- The key position of column `c` of key tile `kv` (tile 0 beyond the second tile: never used). -/
def kpos (kv : ℕ) (c : Fin 1024) : Fin 2048 := if h : kv < 2 then ⟨kv * 1024 + c.val, by omega⟩ else ⟨0, by norm_num⟩

/-- The mask, the real scores and the real values of the row, per (tile, column). -/
def rK (kv : ℕ) (c : Fin 1024) : Prop := kv * 1024 + c.val ≤ T.val
instance (kv : ℕ) (c : Fin 1024) : Decidable (rK T kv c) := by unfold rK; infer_instance
def rS (kv : ℕ) (c : Fin 1024) : ℝ := ((∑ j' : Fin 64, Q (ix3 p T j') * K (ix3 p (kpos kv c) j')) * Attn.scale).toReal
def rV (kv : ℕ) (c : Fin 1024) : ℝ := (Vv (ix3 p (kpos kv c) j)).toReal

include hQ hK in
theorem rS_coe (kv : ℕ) (c : Fin 1024) :
    ((rS Q K p T kv c : ℝ) : EReal) = (∑ j' : Fin 64, Q (ix3 p T j') * K (ix3 p (kpos kv c) j')) * Attn.scale :=
  IsR.coe_toReal ((IsR.sum _ _ fun j' _ => (hQ _).mul (hK _)).mul isR_scale)

include hV in
theorem rV_coe (kv : ℕ) (c : Fin 1024) : ((rV Vv p j kv c : ℝ) : EReal) = Vv (ix3 p (kpos kv c) j) :=
  IsR.coe_toReal (hV _)

include hQ hK hV in
/-- The two-tile stream of the row ends at the row's attention output. -/
theorem stream_row :
    Flash.out (Flash.state (Flash.ms (rK T) (rS Q K p T)) (fun (kv : ℕ) (c : Fin 1024) => ((rV Vv p j kv c : ℝ) : EReal)) 2)
      = Attn.attn32 Q K Vv (ix3 p T j) := by
  unfold Attn.attn32
  refine Flash.streamed_eq_twoPass (rK T) (rS Q K p T) (rV Vv p j) 2 (by norm_num) (0 : Fin 1024)
    (by show 0 * 1024 + 0 ≤ T.val; omega) e2 _ _ ?_ ?_
  · intro kv c
    have hkv := kv.isLt
    have hpos : kpos kv.val c = e2 (kv, c) := by unfold kpos; rw [dif_pos hkv]; rfl
    show Attn.mscore32 Q K p T (e2 (kv, c)) = Flash.ms (rK T) (rS Q K p T) kv.val c
    unfold Attn.mscore32 Flash.ms rK
    rw [rS_coe Q K hQ hK p T, hpos]
    rfl
  · intro kv c
    have hkv := kv.isLt
    have hpos : kpos kv.val c = e2 (kv, c) := by unfold kpos; rw [dif_pos hkv]; rfl
    show Vv (ix3 p (e2 (kv, c)) j) = _
    rw [rV_coe Vv hV p j, hpos]

include hQ hK hV in
/-- A row of query tile 0 (its position below 1024): the one-tile stream is already the two-tile one. -/
theorem stream_row_one (hT : T.val < 1024) :
    Flash.out (Flash.state (Flash.ms (rK T) (rS Q K p T)) (fun (kv : ℕ) (c : Fin 1024) => ((rV Vv p j kv c : ℝ) : EReal)) 1)
      = Attn.attn32 Q K Vv (ix3 p T j) := by
  rw [← stream_row Q K Vv hQ hK hV p T j]
  obtain ⟨m1, hm1⟩ := Flash.state_fst_real (rK T) (rS Q K p T) (rV Vv p j) (0 : Fin 1024)
    (by show 0 * 1024 + 0 ≤ T.val; omega) 1 le_rfl
  have hst : Flash.state (Flash.ms (rK T) (rS Q K p T)) (fun (kv : ℕ) (c : Fin 1024) => ((rV Vv p j kv c : ℝ) : EReal)) 1
      = (((m1 : ℝ) : EReal), (Flash.state (Flash.ms (rK T) (rS Q K p T)) (fun (kv : ℕ) (c : Fin 1024) => ((rV Vv p j kv c : ℝ) : EReal)) 1).2) :=
    Prod.ext hm1 rfl
  show _ = Flash.out (Flash.step (Flash.state _ _ 1) _ _)
  rw [hst, Flash.step_all_masked]
  intro c
  unfold Flash.ms
  exact if_neg (show ¬ rK T 1 c by unfold rK; omega)

end Row

/-! ## The blocks of the operand arrays -/

section Blocks

variable (V : (c : Dev nD) → (b : Ref sig .tc) → Buf (Elt Ideal) ((c : Thread nD τ).loc b)) (c : Dev nD)

theorem hz3' : (![0, 0, 0] : Fin 3 → Nat) = fun _ => 0 := funext fun a => by fin_cases a <;> rfl

/-- The index maps and the coordinates over the 128 grid points: point t is pair t / 4, query tile t / 2 % 2,
    key tile t % 2; the key and value windows sit at key tile min (key tile, query tile). -/
theorem idx_facts : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = min (t.val % 2) (t.val / 2 % 2) ∧ win1_1.index t (2 : Fin 3) = 0
    ∧ win1_2.index t (0 : Fin 3) = t.val / 4 ∧ win1_2.index t (1 : Fin 3) = min (t.val % 2) (t.val / 2 % 2) ∧ win1_2.index t (2 : Fin 3) = 0
    ∧ win1_3.index t (0 : Fin 3) = t.val / 4 ∧ win1_3.index t (1 : Fin 3) = t.val / 2 % 2 ∧ win1_3.index t (2 : Fin 3) = 0
    ∧ ((grid1.coords t) (1 : Fin 3)).val = t.val / 2 % 2 ∧ ((grid1.coords t) (2 : Fin 3)).val = t.val % 2 :=
  (by decide +kernel : ∀ t : Fin grid1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = min (t.val % 2) (t.val / 2 % 2) ∧ win1_1.index t (2 : Fin 3) = 0
    ∧ win1_2.index t (0 : Fin 3) = t.val / 4 ∧ win1_2.index t (1 : Fin 3) = min (t.val % 2) (t.val / 2 % 2) ∧ win1_2.index t (2 : Fin 3) = 0
    ∧ win1_3.index t (0 : Fin 3) = t.val / 4 ∧ win1_3.index t (1 : Fin 3) = t.val / 2 % 2 ∧ win1_3.index t (2 : Fin 3) = 0
    ∧ ((grid1.coords t) (1 : Fin 3)).val = t.val / 2 % 2 ∧ ((grid1.coords t) (2 : Fin 3)).val = t.val % 2)

theorem t_lt (t : Fin cfg1.N) : t.val < 128 := lt_of_lt_of_eq t.isLt N_1

/-- The pair of a grid point. -/
def pairOf (t : Fin cfg1.N) : Fin 32 := ⟨t.val / 4, by have := t_lt t; omega⟩
/-- Row `r` of tile `k` as a position. -/
def posOf (k : ℕ) (hk : k < 2) (r : Fin 1024) : Fin 2048 := ⟨k * 1024 + r.val, by omega⟩

/-- An entry of the query block at point `t`. -/
theorem blk_q (t : Fin cfg1.N) (r : Fin 1024) (j : Fin 64) :
    iblk1 V c 0 t (ix3 0 r j) = V c main_v5 (ix3 (pairOf t) (posOf (t.val / 2 % 2) (by omega) r) j) := by
  obtain ⟨e0, e1, e2, -⟩ := idx_facts t
  show V c main_v5 (((cfg1.win 0).blk t).view.emb (ix3 0 r j)) = _
  refine congrArg (V c main_v5) (funext fun a => Fin.ext ?_)
  match a with
  | ⟨0, _⟩ => show win1_0.index t (0 : Fin 3) * 1 + 1 * 0 = t.val / 4; omega
  | ⟨1, _⟩ => show win1_0.index t (1 : Fin 3) * 1024 + 1 * r.val = t.val / 2 % 2 * 1024 + r.val; omega
  | ⟨2, _⟩ => show win1_0.index t (2 : Fin 3) * 64 + 1 * j.val = j.val; omega

/-- An entry of the key block at point `t`. -/
theorem blk_k (t : Fin cfg1.N) (r : Fin 1024) (j : Fin 64) :
    iblk1 V c 1 t (ix3 0 r j) = V c main_v6 (ix3 (pairOf t) (posOf (min (t.val % 2) (t.val / 2 % 2)) (by omega) r) j) := by
  obtain ⟨-, -, -, e0, e1, e2, -⟩ := idx_facts t
  show V c main_v6 (((cfg1.win 1).blk t).view.emb (ix3 0 r j)) = _
  refine congrArg (V c main_v6) (funext fun a => Fin.ext ?_)
  match a with
  | ⟨0, _⟩ => show win1_1.index t (0 : Fin 3) * 1 + 1 * 0 = t.val / 4; omega
  | ⟨1, _⟩ => show win1_1.index t (1 : Fin 3) * 1024 + 1 * r.val = min (t.val % 2) (t.val / 2 % 2) * 1024 + r.val; omega
  | ⟨2, _⟩ => show win1_1.index t (2 : Fin 3) * 64 + 1 * j.val = j.val; omega

/-- An entry of the value block at point `t`. -/
theorem blk_v (t : Fin cfg1.N) (r : Fin 1024) (j : Fin 64) :
    iblk1 V c 2 t (ix3 0 r j) = V c main_v7 (ix3 (pairOf t) (posOf (min (t.val % 2) (t.val / 2 % 2)) (by omega) r) j) := by
  obtain ⟨-, -, -, -, -, -, e0, e1, e2, -⟩ := idx_facts t
  show V c main_v7 (((cfg1.win 2).blk t).view.emb (ix3 0 r j)) = _
  refine congrArg (V c main_v7) (funext fun a => Fin.ext ?_)
  match a with
  | ⟨0, _⟩ => show win1_2.index t (0 : Fin 3) * 1 + 1 * 0 = t.val / 4; omega
  | ⟨1, _⟩ => show win1_2.index t (1 : Fin 3) * 1024 + 1 * r.val = min (t.val % 2) (t.val / 2 % 2) * 1024 + r.val; omega
  | ⟨2, _⟩ => show win1_2.index t (2 : Fin 3) * 64 + 1 * j.val = j.val; omega

end Blocks

/-! ## What a point leaves, row by row -/

section Entries

variable (V : (c : Dev nD) → (b : Ref sig .tc) → Buf (Elt Ideal) ((c : Thread nD τ).loc b)) (c : Dev nD)

/-- A reset followed by one update is the first streaming step of every row. -/
theorem reset_row (t : Fin cfg1.N) (hq : ((grid1.coords t) (1 : Fin 3)).val < 2) (hk : ((grid1.coords t) (2 : Fin 3)).val < 2)
    (r : Fin 1024) (j : Fin 64) :
    ((resetAt V c t).1 (ix2 r 0), (resetAt V c t).2.1 (ix2 r 0), (resetAt V c t).2.2 (ix2 r j))
      = Flash.step ((⊥ : EReal), (0 : EReal), (0 : EReal))
          (tile ((grid1.coords t) (1 : Fin 3)).val ((grid1.coords t) (2 : Fin 3)).val (iblk1 V c 0 t) (iblk1 V c 1 t) r)
          (fun c' : Fin 1024 => iblk1 V c 2 t (ix3 0 c' j)) := by
  have h := upd_row ((grid1.coords t) (1 : Fin 3)).val ((grid1.coords t) (2 : Fin 3)).val hq hk
    (iblk1 V c 0 t) (iblk1 V c 1 t) (iblk1 V c 2 t) (k1_pay1 (F := Ideal)) (k1_pay2 (F := Ideal)) (k1_pay3 (F := Ideal)) r j
  rw [init_m, init_l, init_a] at h
  exact h

/-- One update of a carried state is one streaming step of every row. -/
theorem step_row (t : Fin cfg1.N) (hq : ((grid1.coords t) (1 : Fin 3)).val < 2) (hk : ((grid1.coords t) (2 : Fin 3)).val < 2)
    (s : Vec Ideal S1024x1 .f32 × Vec Ideal S1024x1 .f32 × Vec Ideal S1024x64 .f32) (r : Fin 1024) (j : Fin 64) :
    ((stepAt V c t s).1 (ix2 r 0), (stepAt V c t s).2.1 (ix2 r 0), (stepAt V c t s).2.2 (ix2 r j))
      = Flash.step (s.1 (ix2 r 0), s.2.1 (ix2 r 0), s.2.2 (ix2 r j))
          (tile ((grid1.coords t) (1 : Fin 3)).val ((grid1.coords t) (2 : Fin 3)).val (iblk1 V c 0 t) (iblk1 V c 1 t) r)
          (fun c' : Fin 1024 => iblk1 V c 2 t (ix3 0 c' j)) :=
  upd_row ((grid1.coords t) (1 : Fin 3)).val ((grid1.coords t) (2 : Fin 3)).val hq hk
    (iblk1 V c 0 t) (iblk1 V c 1 t) (iblk1 V c 2 t) s.1 s.2.1 s.2.2 r j

variable (hQ : ∀ i, IsR (V c main_v5 i)) (hK : ∀ i, IsR (V c main_v6 i)) (hV : ∀ i, IsR (V c main_v7 i))

include hQ hK in
/-- The tile of masked scores a point's blocks give a row is the row's tile of the whole arrays. -/
theorem tile_eq (t : Fin cfg1.N) (qi kv : ℕ) (hqi : t.val / 2 % 2 = qi) (hkv : t.val % 2 = kv) (hle : kv ≤ qi) (r : Fin 1024) :
    tile qi kv (iblk1 V c 0 t) (iblk1 V c 1 t) r
      = Flash.ms (rK (posOf qi (by omega) r)) (rS (V c main_v5) (V c main_v6) (pairOf t) (posOf qi (by omega) r)) kv := by
  funext c'
  have hk2 : kv < 2 := by omega
  have hpos : kpos kv c' = posOf (min (t.val % 2) (t.val / 2 % 2)) (by omega) c' := by
    unfold kpos posOf; rw [dif_pos hk2]; exact Fin.ext (by show kv * 1024 + c'.val = min (t.val % 2) (t.val / 2 % 2) * 1024 + c'.val; omega)
  unfold tile Flash.ms
  by_cases hc : kv * 1024 + c'.val ≤ qi * 1024 + r.val
  · rw [if_pos hc, if_pos (show rK (posOf qi (by omega) r) kv c' from hc), rS_coe _ _ hQ hK]
    unfold sc
    congr 1
    refine Finset.sum_congr rfl fun j' _ => ?_
    rw [blk_q V c t r j', blk_k V c t c' j', hpos]
    subst hqi
    rfl
  · rw [if_neg hc, if_neg (show ¬rK (posOf qi (by omega) r) kv c' from hc)]

include hV in
/-- The value column a point's block gives is the column of the whole array. -/
theorem vcol_eq (t : Fin cfg1.N) (qi kv : ℕ) (hqi : t.val / 2 % 2 = qi) (hkv : t.val % 2 = kv) (hle : kv ≤ qi) (j : Fin 64) :
    (fun c' : Fin 1024 => iblk1 V c 2 t (ix3 0 c' j)) = fun c' : Fin 1024 => ((rV (V c main_v7) (pairOf t) j kv c' : ℝ) : EReal) := by
  funext c'
  have hk2 : kv < 2 := by omega
  have hpos : kpos kv c' = posOf (min (t.val % 2) (t.val / 2 % 2)) (by omega) c' := by
    unfold kpos posOf; rw [dif_pos hk2]; exact Fin.ext (by show kv * 1024 + c'.val = min (t.val % 2) (t.val / 2 % 2) * 1024 + c'.val; omega)
  rw [rV_coe _ hV, blk_v V c t c' j, hpos]

end Entries

/-! ## The output blocks, and the array -/

section Final

variable (V : (c : Dev nD) → (b : Ref sig .tc) → Buf (Elt Ideal) ((c : Thread nD τ).loc b)) (c : Dev nD)
variable (hQ : ∀ i, IsR (V c main_v5 i)) (hK : ∀ i, IsR (V c main_v6 i)) (hV : ∀ i, IsR (V c main_v7 i))

include hQ hK hV in
/-- What the output's staging buffer holds when query tile 0's block is written back (after the point (0, 1)): the
    rows' attention outputs, from the one-tile stream of the point (0, 0). -/
theorem out_entry_one (t : Fin cfg1.N) (h : t.val % 4 = 1) (r : Fin 1024) (j : Fin 64) :
    (outsAt1 V c t.val t.isLt).1 (ix3 0 r j)
      = Attn.attn32 (V c main_v5) (V c main_v6) (V c main_v7) (ix3 (pairOf t) (posOf 0 (by norm_num) r) j) := by
  have ht := t_lt t
  have hlt' : t.val - 1 < cfg1.N := Nat.lt_of_le_of_lt (Nat.sub_le _ _) t.isLt
  have ht' : (⟨t.val - 1, hlt'⟩ : Fin cfg1.N).val % 4 = 0 := by show (t.val - 1) % 4 = 0; omega
  obtain ⟨-, -, -, -, -, -, -, -, -, -, -, -, ec1, ec2⟩ := idx_facts ⟨t.val - 1, hlt'⟩
  have hq : ((grid1.coords ⟨t.val - 1, hlt'⟩) (1 : Fin 3)).val = 0 := by rw [ec1]; show (t.val - 1) / 2 % 2 = 0; omega
  have hk : ((grid1.coords ⟨t.val - 1, hlt'⟩) (2 : Fin 3)).val = 0 := by rw [ec2]; show (t.val - 1) % 2 = 0; omega
  have hp : pairOf ⟨t.val - 1, hlt'⟩ = pairOf t := Fin.ext (by show (t.val - 1) / 4 = t.val / 4; omega)
  rw [outsAt1_B V c t h]
  rw [show outsAt1 V c (t.val - 1) (Nat.lt_of_le_of_lt (Nat.sub_le _ _) t.isLt)
      = (fin1 (resetAt V c ⟨t.val - 1, hlt'⟩).2.2 (resetAt V c ⟨t.val - 1, hlt'⟩).2.1, resetAt V c ⟨t.val - 1, hlt'⟩) from
    outsAt1_A0 V c ⟨t.val - 1, hlt'⟩ ht']
  show fin1 (resetAt V c ⟨t.val - 1, hlt'⟩).2.2 (resetAt V c ⟨t.val - 1, hlt'⟩).2.1 (ix3 0 r j) = _
  rw [fin_row _ _ ((resetAt V c ⟨t.val - 1, hlt'⟩).1 (ix2 r 0)) r j,
    reset_row V c ⟨t.val - 1, hlt'⟩ (by omega) (by omega) r j, hq, hk,
    tile_eq V c hQ hK ⟨t.val - 1, hlt'⟩ 0 0 (by show (t.val - 1) / 2 % 2 = 0; omega) (by show (t.val - 1) % 2 = 0; omega) le_rfl r,
    vcol_eq V c hV ⟨t.val - 1, hlt'⟩ 0 0 (by show (t.val - 1) / 2 % 2 = 0; omega) (by show (t.val - 1) % 2 = 0; omega) le_rfl j, hp]
  exact stream_row_one (V c main_v5) (V c main_v6) (V c main_v7) hQ hK hV (pairOf t) (posOf 0 (by norm_num) r) j
    (by show 0 * 1024 + r.val < 1024; omega)

include hQ hK hV in
/-- What the output's staging buffer holds after the point (1, 1): the rows' attention outputs, from the two-tile
    stream of the points (1, 0) and (1, 1). -/
theorem out_entry_two (t : Fin cfg1.N) (h : t.val % 4 = 3) (r : Fin 1024) (j : Fin 64) :
    (outsAt1 V c t.val t.isLt).1 (ix3 0 r j)
      = Attn.attn32 (V c main_v5) (V c main_v6) (V c main_v7) (ix3 (pairOf t) (posOf 1 (by norm_num) r) j) := by
  have ht := t_lt t
  have hlt' : t.val - 1 < cfg1.N := Nat.lt_of_le_of_lt (Nat.sub_le _ _) t.isLt
  have ht' : (⟨t.val - 1, hlt'⟩ : Fin cfg1.N).val % 4 = 2 := by show (t.val - 1) % 4 = 2; omega
  obtain ⟨-, -, -, -, -, -, -, -, -, -, -, -, ec1', ec2'⟩ := idx_facts ⟨t.val - 1, hlt'⟩
  obtain ⟨-, -, -, -, -, -, -, -, -, -, -, -, ec1, ec2⟩ := idx_facts t
  have hq' : ((grid1.coords ⟨t.val - 1, hlt'⟩) (1 : Fin 3)).val = 1 := by rw [ec1']; show (t.val - 1) / 2 % 2 = 1; omega
  have hk' : ((grid1.coords ⟨t.val - 1, hlt'⟩) (2 : Fin 3)).val = 0 := by rw [ec2']; show (t.val - 1) % 2 = 0; omega
  have hq : ((grid1.coords t) (1 : Fin 3)).val = 1 := by rw [ec1]; omega
  have hk : ((grid1.coords t) (2 : Fin 3)).val = 1 := by rw [ec2]; omega
  have hp : pairOf ⟨t.val - 1, hlt'⟩ = pairOf t := Fin.ext (by show (t.val - 1) / 4 = t.val / 4; omega)
  rw [outsAt1_C V c t h]
  rw [show outsAt1 V c (t.val - 1) (Nat.lt_of_le_of_lt (Nat.sub_le _ _) t.isLt)
      = ((outsAt1 V c ((⟨t.val - 1, hlt'⟩ : Fin cfg1.N).val - 1) (Nat.lt_of_le_of_lt (Nat.sub_le _ _) hlt')).1, resetAt V c ⟨t.val - 1, hlt'⟩) from
    outsAt1_A1 V c ⟨t.val - 1, hlt'⟩ ht']
  show fin1 (stepAt V c t (resetAt V c ⟨t.val - 1, hlt'⟩)).2.2 (stepAt V c t (resetAt V c ⟨t.val - 1, hlt'⟩)).2.1 (ix3 0 r j) = _
  rw [fin_row _ _ ((stepAt V c t (resetAt V c ⟨t.val - 1, hlt'⟩)).1 (ix2 r 0)) r j,
    step_row V c t (by omega) (by omega) (resetAt V c ⟨t.val - 1, hlt'⟩) r j,
    reset_row V c ⟨t.val - 1, hlt'⟩ (by omega) (by omega) r j, hq, hk, hq', hk',
    tile_eq V c hQ hK ⟨t.val - 1, hlt'⟩ 1 0 (by show (t.val - 1) / 2 % 2 = 1; omega) (by show (t.val - 1) % 2 = 0; omega) (by norm_num) r,
    vcol_eq V c hV ⟨t.val - 1, hlt'⟩ 1 0 (by show (t.val - 1) / 2 % 2 = 1; omega) (by show (t.val - 1) % 2 = 0; omega) (by norm_num) j,
    tile_eq V c hQ hK t 1 1 (by omega) (by omega) le_rfl r,
    vcol_eq V c hV t 1 1 (by omega) (by omega) le_rfl j, hp]
  exact stream_row (V c main_v5) (V c main_v6) (V c main_v7) hQ hK hV (pairOf t) (posOf 1 (by norm_num) r) j

include hQ hK hV in
set_option maxHeartbeats 1000000 in
/-- The output's staging buffer at a write-back point, at any entry. -/
theorem out_entry_any (t : Fin cfg1.N) (hf : t.val % 2 = 1) (y : S1x1024x64.Idx) :
    (outsAt1 V c t.val t.isLt).1 y
      = Attn.attn32 (V c main_v5) (V c main_v6) (V c main_v7) (ix3 (pairOf t) (posOf (t.val / 2 % 2) (by omega) (y 1)) (y 2)) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  refine (congrArg (outsAt1 V c t.val t.isLt).1 hy).trans ?_
  have h4 : t.val % 4 = 1 ∨ t.val % 4 = 3 := by omega
  rcases h4 with h | h
  · refine (out_entry_one V c hQ hK hV t h (y 1) (y 2)).trans ?_
    have hp : posOf 0 (by norm_num) (y 1) = posOf (t.val / 2 % 2) (by omega) (y 1) :=
      Fin.ext (by show 0 * 1024 + (y 1).val = t.val / 2 % 2 * 1024 + (y 1).val; omega)
    rw [hp]
  · refine (out_entry_two V c hQ hK hV t h (y 1) (y 2)).trans ?_
    have hp : posOf 1 (by norm_num) (y 1) = posOf (t.val / 2 % 2) (by omega) (y 1) :=
      Fin.ext (by show 1 * 1024 + (y 1).val = t.val / 2 % 2 * 1024 + (y 1).val; omega)
    rw [hp]

/-- An entry of a block of the output array. -/
theorem read_blk3 (G : Attn.S32.Idx → EReal) (t : Fin cfg1.N) (y : S1x1024x64.Idx) :
    ((cfg1.win 3).blk t).view.read (Elt Ideal) G y = G (ix3 (pairOf t) (posOf (t.val / 2 % 2) (by omega) (y 1)) (y 2)) := by
  obtain ⟨-, -, -, -, -, -, -, -, -, e0, e1, e2, -⟩ := idx_facts t
  show G (((cfg1.win 3).blk t).view.emb y) = _
  refine congrArg G (funext fun a => Fin.ext ?_)
  match a with
  | ⟨0, _⟩ => show win1_3.index t (0 : Fin 3) * 1 + 1 * (y 0).val = t.val / 4; have h0 : (y 0).val < 1 := (y 0).isLt; omega
  | ⟨1, _⟩ => show win1_3.index t (1 : Fin 3) * 1024 + 1 * (y 1).val = t.val / 2 % 2 * 1024 + (y 1).val; omega
  | ⟨2, _⟩ => show win1_3.index t (2 : Fin 3) * 64 + 1 * (y 2).val = (y 2).val; omega

include hQ hK hV in
set_option maxHeartbeats 1000000 in
/-- What a point writes back is its block of the attention output. -/
theorem flushed3_eq (t : Fin cfg1.N) (hf : t.val % 2 = 1) :
    (dat1 (F := Ideal) V c).flushed 3 t
      = ((cfg1.win 3).blk t).view.read (Elt Ideal) (Attn.attn32 (V c main_v5) (V c main_v6) (V c main_v7)) := by
  show (cfg1.win 3).cut (grid1.coords t) ((dat1 (F := Ideal) V c).after 3 t) = _
  rw [after1_3]
  exact funext fun y => (out_entry_any V c hQ hK hV t hf y).trans (read_blk3 _ t y).symm

end Final

/-! ## The array after the region -/

section Array

variable (V : (c : Dev nD) → (b : Ref sig .tc) → Buf (Elt Ideal) ((c : Thread nD τ).loc b)) (c : Dev nD)

/-- The output array ends holding the attention of the three operand arrays, when their entries are real. -/
theorem arr_eq (hQ : ∀ i, ∃ r : ℝ, V c main_v5 i = ((r : ℝ) : EReal)) (hK : ∀ i, ∃ r : ℝ, V c main_v6 i = ((r : ℝ) : EReal))
    (hV : ∀ i, ∃ r : ℝ, V c main_v7 i = ((r : ℝ) : EReal)) :
    (dat1 (F := Ideal) V c).arrAt 3 cfg1.N = Attn.attn32 (V c main_v5) (V c main_v6) (V c main_v7) :=
  (dat1 (F := Ideal) V c).arrAt_eq_of_cover 3 _
    (fun t hf => flushed3_eq V c hQ hK hV t ((flush1_3 t).mp hf)) Cert.KernelIdeal.Val1c.cover3

end Array

end Cert.KernelIdeal.Val1

end
-- ==== Proof.KIValue0.lean ====
import proofs.«122748_j71631464563424_2_alg».proof.Proof.KIRegion0
import proofs.«122748_j71631464563424_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

/-! # The stacked projection region as three functions of the arrays it reads

Each grid point (b, q) multiplies the 512 x 1024 slab of activations of batch element b by the 1024 x 3072 stacked weight
and stores the product's three 1024-column parts (queries, keys, values) head by head, as 16 heads of 512 x 64; the slabs
tile the three [2, 16, 2048, 64] results. Column s * 1024 + h * 64 + j of the product is feature j of head h of part s. -/

/-! ## The block product at an index -/

/-- The left operand's row coordinate is the output's row. -/
theorem lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The right operand's column coordinate is the output's column. -/
theorem rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- A 512 x 1024 by 1024 x 3072 product into a zero accumulator, at (r, e): the sum over the shared axis. -/
theorem mm_apply (a : FVec Ideal S512x1024 .bf16) (b : FVec Ideal S1024x3072 .bf16) (r : Fin 512) (e : Fin 3072) :
    matmul dot_S512x1024_S1024x3072_S512x3072_1_0_0_1_n_n none a b (constant (F := Ideal) S512x3072 .f32 0x00000000#32) (ix2 r e)
      = ∑ k : Fin 1024, a (ix2 r k) * b (ix2 k e) := by
  simp only [matmul]
  rw [Ideal.matmul_constant_zero_apply,
    ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r e)
      ((contrEquiv1 dot_S512x1024_S1024x3072_S512x3072_1_0_0_1_n_n 1024 rfl rfl).symm k) = ix2 r k :=
    funext fun a => Fin.ext (by
      match a with
      | ⟨0, _⟩ => exact lhs_row _ _
      | ⟨1, _⟩ => exact (dot_S512x1024_S1024x3072_S512x3072_1_0_0_1_n_n.lhsIdx_val_of_single rfl _ _).trans hk)
  have er : dot_S512x1024_S1024x3072_S512x3072_1_0_0_1_n_n.rhsIdx (ix2 r e)
      ((contrEquiv1 dot_S512x1024_S1024x3072_S512x3072_1_0_0_1_n_n 1024 rfl rfl).symm k) = ix2 k e :=
    funext fun a => Fin.ext (by
      match a with
      | ⟨0, _⟩ => exact (dot_S512x1024_S1024x3072_S512x3072_1_0_0_1_n_n.rhsIdx_val_of_single rfl _ _).trans hk
      | ⟨1, _⟩ => exact rhs_col _ _)
  rw [el, er]

/-! ## The payloads at an index -/

/-- The product reshaped to [512, 3, 16, 64], at (r, s, h, j): row r of the loaded slab times column
    s * 1024 + h * 64 + j of the loaded weight. -/
theorem pay1_apply (x0 : Vec Ideal S1x512x1024 .f32) (x1 : Vec Ideal S1024x3072 .bf16)
    (r : Fin 512) (s : Fin 3) (h : Fin 16) (j : Fin 64) :
    k0_pay1 (F := Ideal) x0 x1 (ix4 r s h j)
      = ∑ d : Fin 1024, (x0 (ix3 (0 : Fin 1) r d) : EReal) * (x1 (ix2 d (Attn.feat s h j)) : EReal) := by
  unfold k0_pay1
  refine (shapeCast_apply _ _ (ix4 r s h j) (ix2 r (Attn.feat s h j)) (by
    rw [Shape.rowMajor_val_two, Shape.rowMajor_val_four]
    show r.val * 3072 + (s.val * 1024 + h.val * 64 + j.val) = ((r.val * 3 + s.val) * 16 + h.val) * 64 + j.val
    omega)).trans ?_
  refine (mm_apply _ _ r (Attn.feat s h j)).trans ?_
  refine Finset.sum_congr rfl fun d _ => ?_
  have hl : (truncf (F := Ideal) .bf16 (shapeCast S512x1024 x0 shapeCasts_S1x512x1024_S512x1024) bitsLt_bf16_f32 (ix2 r d) : EReal)
      = (x0 (ix3 (0 : Fin 1) r d) : EReal) := by
    refine (truncf_apply (ψ := .bf16) (shapeCast S512x1024 x0 shapeCasts_S1x512x1024_S512x1024) bitsLt_bf16_f32 (ix2 r d)).trans ?_
    exact shapeCast_apply _ _ (ix2 r d) (ix3 (0 : Fin 1) r d) (by
      rw [Shape.rowMajor_val_three, Shape.rowMajor_val_two]
      show (0 * 512 + r.val) * 1024 + d.val = r.val * 1024 + d.val
      omega)
  have hr : (shapeCast S1024x3072 x1 shapeCasts_S1024x3072_S1024x3072 (ix2 d (Attn.feat s h j)) : EReal)
      = (x1 (ix2 d (Attn.feat s h j)) : EReal) := by
    rw [shapeCast_self]
  exact congrArg₂ (· * ·) hl hr

/-- The queries' block at (0, h, r, j): part 0 of the product (columns 0 .. 1023) at row r, head h,
    feature j. -/
theorem pay2_apply (x0 : Vec Ideal S1x512x1024 .f32) (x1 : Vec Ideal S1024x3072 .bf16)
    (h : Fin 16) (r : Fin 512) (j : Fin 64) :
    k0_pay2 (F := Ideal) x0 x1 (ix4 (0 : Fin 1) h r j)
      = ∑ d : Fin 1024, (x0 (ix3 (0 : Fin 1) r d) : EReal) * (x1 (ix2 d (Attn.feat 0 h j)) : EReal) := by
  unfold k0_pay2
  refine (shapeCast_apply _ _ (ix4 (0 : Fin 1) h r j) (ix3 h r j) (by
    rw [Shape.rowMajor_val_three, Shape.rowMajor_val_four]
    show (h.val * 512 + r.val) * 64 + j.val = ((0 * 16 + h.val) * 512 + r.val) * 64 + j.val
    omega)).trans ?_
  refine (truncf_apply (ψ := .bf16) _ bitsLt_bf16_f32 (ix3 h r j)).trans ?_
  refine (transpose_apply _ _ _ (ix3 h r j) (ix3 r h j) (fun b => by fin_cases b <;> rfl)).trans ?_
  refine (shapeCast_apply _ _ (ix3 r h j) (ix4 r (0 : Fin 1) h j) (by
    rw [Shape.rowMajor_val_four, Shape.rowMajor_val_three]
    show ((r.val * 1 + 0) * 16 + h.val) * 64 + j.val = (r.val * 16 + h.val) * 64 + j.val
    omega)).trans ?_
  refine (extractStridedSlice_apply _ _ _ (ix4 r (0 : Fin 1) h j) (ix4 r (0 : Fin 3) h j) (fun a => by
    match a with
    | ⟨0, _⟩ => show r.val = 0 + r.val; omega
    | ⟨1, _⟩ => show 0 = 0 + 0; omega
    | ⟨2, _⟩ => show h.val = 0 + h.val; omega
    | ⟨3, _⟩ => show j.val = 0 + j.val; omega)).trans ?_
  exact pay1_apply x0 x1 r 0 h j

/-- The keys' block at (0, h, r, j): part 1 of the product (columns 1024 .. 2047) at row r, head h,
    feature j. -/
theorem pay3_apply (x0 : Vec Ideal S1x512x1024 .f32) (x1 : Vec Ideal S1024x3072 .bf16)
    (h : Fin 16) (r : Fin 512) (j : Fin 64) :
    k0_pay3 (F := Ideal) x0 x1 (ix4 (0 : Fin 1) h r j)
      = ∑ d : Fin 1024, (x0 (ix3 (0 : Fin 1) r d) : EReal) * (x1 (ix2 d (Attn.feat 1 h j)) : EReal) := by
  unfold k0_pay3
  refine (shapeCast_apply _ _ (ix4 (0 : Fin 1) h r j) (ix3 h r j) (by
    rw [Shape.rowMajor_val_three, Shape.rowMajor_val_four]
    show (h.val * 512 + r.val) * 64 + j.val = ((0 * 16 + h.val) * 512 + r.val) * 64 + j.val
    omega)).trans ?_
  refine (truncf_apply (ψ := .bf16) _ bitsLt_bf16_f32 (ix3 h r j)).trans ?_
  refine (transpose_apply _ _ _ (ix3 h r j) (ix3 r h j) (fun b => by fin_cases b <;> rfl)).trans ?_
  refine (shapeCast_apply _ _ (ix3 r h j) (ix4 r (0 : Fin 1) h j) (by
    rw [Shape.rowMajor_val_four, Shape.rowMajor_val_three]
    show ((r.val * 1 + 0) * 16 + h.val) * 64 + j.val = (r.val * 16 + h.val) * 64 + j.val
    omega)).trans ?_
  refine (extractStridedSlice_apply _ _ _ (ix4 r (0 : Fin 1) h j) (ix4 r (1 : Fin 3) h j) (fun a => by
    match a with
    | ⟨0, _⟩ => show r.val = 0 + r.val; omega
    | ⟨1, _⟩ => show 1 = 1 + 0; omega
    | ⟨2, _⟩ => show h.val = 0 + h.val; omega
    | ⟨3, _⟩ => show j.val = 0 + j.val; omega)).trans ?_
  exact pay1_apply x0 x1 r 1 h j

/-- The values' block at (0, h, r, j): part 2 of the product (columns 2048 .. 3071) at row r, head h,
    feature j. -/
theorem pay4_apply (x0 : Vec Ideal S1x512x1024 .f32) (x1 : Vec Ideal S1024x3072 .bf16)
    (h : Fin 16) (r : Fin 512) (j : Fin 64) :
    k0_pay4 (F := Ideal) x0 x1 (ix4 (0 : Fin 1) h r j)
      = ∑ d : Fin 1024, (x0 (ix3 (0 : Fin 1) r d) : EReal) * (x1 (ix2 d (Attn.feat 2 h j)) : EReal) := by
  unfold k0_pay4
  refine (shapeCast_apply _ _ (ix4 (0 : Fin 1) h r j) (ix3 h r j) (by
    rw [Shape.rowMajor_val_three, Shape.rowMajor_val_four]
    show (h.val * 512 + r.val) * 64 + j.val = ((0 * 16 + h.val) * 512 + r.val) * 64 + j.val
    omega)).trans ?_
  refine (truncf_apply (ψ := .bf16) _ bitsLt_bf16_f32 (ix3 h r j)).trans ?_
  refine (transpose_apply _ _ _ (ix3 h r j) (ix3 r h j) (fun b => by fin_cases b <;> rfl)).trans ?_
  refine (shapeCast_apply _ _ (ix3 r h j) (ix4 r (0 : Fin 1) h j) (by
    rw [Shape.rowMajor_val_four, Shape.rowMajor_val_three]
    show ((r.val * 1 + 0) * 16 + h.val) * 64 + j.val = (r.val * 16 + h.val) * 64 + j.val
    omega)).trans ?_
  refine (extractStridedSlice_apply _ _ _ (ix4 r (0 : Fin 1) h j) (ix4 r (2 : Fin 3) h j) (fun a => by
    match a with
    | ⟨0, _⟩ => show r.val = 0 + r.val; omega
    | ⟨1, _⟩ => show 2 = 2 + 0; omega
    | ⟨2, _⟩ => show h.val = 0 + h.val; omega
    | ⟨3, _⟩ => show j.val = 0 + j.val; omega)).trans ?_
  exact pay1_apply x0 x1 r 2 h j

/-! ## From the blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Part s of the stacked projection, head by head: entry (b, h, t, j) sums, over the model feature d, the activation
    (b, t, d) times row d, column s * 1024 + h * 64 + j of the stacked weight. -/
def qkv (s : Fin 3) (A : S2x2048x1024.Idx → EReal) (W : S1024x3072.Idx → EReal) : S2x16x2048x64.Idx → EReal :=
  fun i => ∑ d : Fin 1024, A (ix3 (i 0) (i 2) d) * W (ix2 d (Attn.feat s (i 1) (i 3)))

/-- The stacked projection's part at an index. -/
theorem qkv_apply (s : Fin 3) (A : S2x2048x1024.Idx → EReal) (W : S1024x3072.Idx → EReal) (i : S2x16x2048x64.Idx) :
    qkv s A W i = ∑ d : Fin 1024, A (ix3 (i 0) (i 2) d) * W (ix2 d (Attn.feat s (i 1) (i 3))) := rfl

/-- A point's stored block P, known index by index as part s of the slab product, is at block index y part s of the
    stacked projection at array index i, once the loaded slab's row (y 2) is row (i 2) of batch element (i 0) and the
    loaded weight's column for head (y 1), feature (y 3) is the one for head (i 1), feature (i 3). -/
theorem point_eq (s : Fin 3) (P : Vec Ideal S1x16x512x64 .bf16) (x0 : Vec Ideal S1x512x1024 .f32) (x1 : Vec Ideal S1024x3072 .bf16)
    (hP : ∀ (h : Fin 16) (r : Fin 512) (j : Fin 64), (P (ix4 (0 : Fin 1) h r j) : EReal)
      = ∑ d : Fin 1024, (x0 (ix3 (0 : Fin 1) r d) : EReal) * (x1 (ix2 d (Attn.feat s h j)) : EReal))
    (A : S2x2048x1024.Idx → EReal) (W : S1024x3072.Idx → EReal) (y : S1x16x512x64.Idx) (i : S2x16x2048x64.Idx)
    (h0 : ∀ d : Fin 1024, (x0 (ix3 (0 : Fin 1) (y 2) d) : EReal) = A (ix3 (i 0) (i 2) d))
    (h1 : ∀ d : Fin 1024, (x1 (ix2 d (Attn.feat s (y 1) (y 3))) : EReal) = W (ix2 d (Attn.feat s (i 1) (i 3)))) :
    (P y : EReal) = qkv s A W i := by
  obtain ⟨u, h, r, j, rfl⟩ : ∃ (u : Fin 1) (h : Fin 16) (r : Fin 512) (j : Fin 64), y = ix4 u h r j :=
    ⟨y 0, y 1, y 2, y 3, eq_ix4 y⟩
  obtain rfl : u = 0 := Subsingleton.elim _ _
  rw [hP]
  exact Finset.sum_congr rfl fun d _ => congrArg₂ (· * ·) (h0 d) (h1 d)

variable (V : (c : Dev nD) → (b : Ref sig .tc) → Buf (Elt Ideal) ((c : Thread nD τ).loc b))

/-! ### The queries (window 2) -/

/-- The index maps over the grid: the activation window moves with the queries' window on the batch and row axes, the
    weight window stays at the origin, and the queries' block indices on the head and feature axes are zero. -/
theorem idx_facts2 : ∀ t : Fin cfg0.N, win0_0.index t (0 : Fin 3) = win0_2.index t (0 : Fin 4)
    ∧ win0_0.index t (1 : Fin 3) = win0_2.index t (2 : Fin 4)
    ∧ win0_0.index t (2 : Fin 3) = 0
    ∧ win0_1.index t (0 : Fin 2) = 0
    ∧ win0_1.index t (1 : Fin 2) = 0
    ∧ win0_2.index t (1 : Fin 4) = 0
    ∧ win0_2.index t (3 : Fin 4) = 0 :=
  (by decide +kernel : ∀ t : Fin grid0.N, _)

/-- Every (batch element, row slab) is some point's. -/
theorem idx_onto2 : ∀ (q0 : Fin 2) (q1 : Fin 4), ∃ t : Fin cfg0.N, win0_2.index t = ![q0.val, 0, q1.val, 0] :=
  (by decide +kernel : ∀ (q0 : Fin 2) (q1 : Fin 4), ∃ t : Fin grid0.N, win0_2.index t = ![q0.val, 0, q1.val, 0])

/-- What point t writes back is block t of the queries of the arrays the region finds. -/
theorem flushed2_eq (c : Dev nD) (t : Fin cfg0.N) :
    (dat0 (F := Ideal) V c).flushed 2 t
      = ((cfg0.win 2).blk t).view.read (Elt Ideal) (qkv 0 (V c main_arg0) (V c main_v1)) := by
  show (cfg0.win 2).cut (grid0.coords t) ((dat0 V c).after 2 t) = _
  rw [after0_2]
  unfold out0_2
  rw [View.canon_unit_zero hz4]
  simp only [View.ld_unit_zero (S := S1x512x1024) hz3, View.ld_unit_zero (S := S1024x3072) hz2]
  obtain ⟨e0, e1, e2, e3, e4, e5, e6⟩ := idx_facts2 t
  funext j
  have hj0 : (j 0).val < 1 := (j 0).isLt
  have hj1 : (j 1).val < 16 := (j 1).isLt
  have hj2 : (j 2).val < 512 := (j 2).isLt
  have hj3 : (j 3).val < 64 := (j 3).isLt
  refine point_eq 0 _ _ _ (pay2_apply _ _) _ _ j (((cfg0.win 2).blk t).view.emb j) (fun d => ?_) (fun d => ?_)
  · show V c main_arg0 (((cfg0.win 0).blk t).view.emb (ix3 (0 : Fin 1) (j 2) d)) = V c main_arg0 _
    refine congrArg _ (funext fun a => Fin.ext ?_)
    match a with
    | ⟨0, _⟩ => show win0_0.index t (0 : Fin 3) * 1 + 1 * 0 = win0_2.index t (0 : Fin 4) * 1 + 1 * (j 0).val; omega
    | ⟨1, _⟩ => show win0_0.index t (1 : Fin 3) * 512 + 1 * (j 2).val = win0_2.index t (2 : Fin 4) * 512 + 1 * (j 2).val; omega
    | ⟨2, _⟩ => show win0_0.index t (2 : Fin 3) * 1024 + 1 * d.val = d.val; omega
  · show V c main_v1 (((cfg0.win 1).blk t).view.emb (ix2 d (Attn.feat 0 (j 1) (j 3)))) = V c main_v1 _
    refine congrArg _ (funext fun a => Fin.ext ?_)
    match a with
    | ⟨0, _⟩ => show win0_1.index t (0 : Fin 2) * 1024 + 1 * d.val = d.val; omega
    | ⟨1, _⟩ =>
      show win0_1.index t (1 : Fin 2) * 3072 + 1 * (0 * 1024 + (j 1).val * 64 + (j 3).val)
        = 0 * 1024 + (win0_2.index t (1 : Fin 4) * 16 + 1 * (j 1).val) * 64 + (win0_2.index t (3 : Fin 4) * 64 + 1 * (j 3).val)
      omega

/-- An index of the array is in point t's block iff each coordinate is in the block's range on its axis. -/
theorem mem_blk2 (t : Fin cfg0.N) (i : S2x16x2048x64.Idx) :
    i ∈ ((cfg0.win 2).blk t).view.set ↔ ∀ a : Fin 4, win0_2.index t a * S1x16x512x64.size a ≤ (i a).val
      ∧ (i a).val < win0_2.index t a * S1x16x512x64.size a + S1x16x512x64.size a := by
  show i ∈ ((View.whole main_v4_0).slice (win0_2.rect t)).set ↔ _
  rw [View.set_slice_whole, Rect.mem_set_unit]
  exact Iff.rfl

/-- Every index (b, h, t, j) of the queries lies in the block of the point (b, t / 512). -/
theorem cover2 (i : S2x16x2048x64.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto2 ⟨(i 0).val, hi0⟩ ⟨(i 2).val / 512, by omega⟩
  have q0 : win0_2.index t (0 : Fin 4) = (i 0).val := congrFun ht 0
  have q1 : win0_2.index t (1 : Fin 4) = 0 := congrFun ht 1
  have q2 : win0_2.index t (2 : Fin 4) = (i 2).val / 512 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

/-- The queries' array after the region: part 0 of the stacked projection of the activations and the stacked weight as the
    region finds them. -/
theorem arr2_eq (c : Dev nD) :
    (dat0 (F := Ideal) V c).arrAt 2 cfg0.N = qkv 0 (V c main_arg0) (V c main_v1) :=
  (dat0 (F := Ideal) V c).arrAt_eq_of_cover 2 (qkv 0 (V c main_arg0) (V c main_v1)) (fun t _ => flushed2_eq V c t) cover2

/-- The same, index by index, over the two arrays named as functions on their index sets. -/
theorem arr2_eq' (c : Dev nD) (A : S2x2048x1024.Idx → EReal) (W : S1024x3072.Idx → EReal)
    (hA : V c main_arg0 = A) (hW : V c main_v1 = W) :
    (dat0 (F := Ideal) V c).arrAt 2 cfg0.N
      = (fun i => ∑ d : Fin 1024, A (ix3 (i 0) (i 2) d) * W (ix2 d (Attn.feat 0 (i 1) (i 3))) :
          S2x16x2048x64.Idx → EReal) := by
  subst hA hW
  exact arr2_eq V c

/-! ### The keys (window 3) -/

/-- The index maps over the grid: the activation window moves with the keys' window on the batch and row axes, the
    weight window stays at the origin, and the keys' block indices on the head and feature axes are zero. -/
theorem idx_facts3 : ∀ t : Fin cfg0.N, win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0
    ∧ win0_1.index t (1 : Fin 2) = 0
    ∧ win0_3.index t (1 : Fin 4) = 0
    ∧ win0_3.index t (3 : Fin 4) = 0 :=
  (by decide +kernel : ∀ t : Fin grid0.N, _)

/-- Every (batch element, row slab) is some point's. -/
theorem idx_onto3 : ∀ (q0 : Fin 2) (q1 : Fin 4), ∃ t : Fin cfg0.N, win0_3.index t = ![q0.val, 0, q1.val, 0] :=
  (by decide +kernel : ∀ (q0 : Fin 2) (q1 : Fin 4), ∃ t : Fin grid0.N, win0_3.index t = ![q0.val, 0, q1.val, 0])

/-- What point t writes back is block t of the keys of the arrays the region finds. -/
theorem flushed3_eq (c : Dev nD) (t : Fin cfg0.N) :
    (dat0 (F := Ideal) V c).flushed 3 t
      = ((cfg0.win 3).blk t).view.read (Elt Ideal) (qkv 1 (V c main_arg0) (V c main_v1)) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S1024x3072) hz2]
  obtain ⟨e0, e1, e2, e3, e4, e5, e6⟩ := idx_facts3 t
  funext j
  have hj0 : (j 0).val < 1 := (j 0).isLt
  have hj1 : (j 1).val < 16 := (j 1).isLt
  have hj2 : (j 2).val < 512 := (j 2).isLt
  have hj3 : (j 3).val < 64 := (j 3).isLt
  refine point_eq 1 _ _ _ (pay3_apply _ _) _ _ j (((cfg0.win 3).blk t).view.emb j) (fun d => ?_) (fun d => ?_)
  · show V c main_arg0 (((cfg0.win 0).blk t).view.emb (ix3 (0 : Fin 1) (j 2) d)) = V c main_arg0 _
    refine congrArg _ (funext fun a => Fin.ext ?_)
    match a with
    | ⟨0, _⟩ => show win0_0.index t (0 : Fin 3) * 1 + 1 * 0 = win0_3.index t (0 : Fin 4) * 1 + 1 * (j 0).val; omega
    | ⟨1, _⟩ => show win0_0.index t (1 : Fin 3) * 512 + 1 * (j 2).val = win0_3.index t (2 : Fin 4) * 512 + 1 * (j 2).val; omega
    | ⟨2, _⟩ => show win0_0.index t (2 : Fin 3) * 1024 + 1 * d.val = d.val; omega
  · show V c main_v1 (((cfg0.win 1).blk t).view.emb (ix2 d (Attn.feat 1 (j 1) (j 3)))) = V c main_v1 _
    refine congrArg _ (funext fun a => Fin.ext ?_)
    match a with
    | ⟨0, _⟩ => show win0_1.index t (0 : Fin 2) * 1024 + 1 * d.val = d.val; omega
    | ⟨1, _⟩ =>
      show win0_1.index t (1 : Fin 2) * 3072 + 1 * (1 * 1024 + (j 1).val * 64 + (j 3).val)
        = 1 * 1024 + (win0_3.index t (1 : Fin 4) * 16 + 1 * (j 1).val) * 64 + (win0_3.index t (3 : Fin 4) * 64 + 1 * (j 3).val)
      omega

/-- An index of the array is in point t's block iff each coordinate is in the block's range on its axis. -/
theorem mem_blk3 (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v4_1).slice (win0_3.rect t)).set ↔ _
  rw [View.set_slice_whole, Rect.mem_set_unit]
  exact Iff.rfl

/-- Every index (b, h, t, j) of the keys lies in the block of the point (b, t / 512). -/
theorem cover3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The keys' array after the region: part 1 of the stacked projection of the activations and the stacked weight as the
    region finds them. -/
theorem arr3_eq (c : Dev nD) :
    (dat0 (F := Ideal) V c).arrAt 3 cfg0.N = qkv 1 (V c main_arg0) (V c main_v1) :=
  (dat0 (F := Ideal) V c).arrAt_eq_of_cover 3 (qkv 1 (V c main_arg0) (V c main_v1)) (fun t _ => flushed3_eq V c t) cover3

/-- The same, index by index, over the two arrays named as functions on their index sets. -/
theorem arr3_eq' (c : Dev nD) (A : S2x2048x1024.Idx → EReal) (W : S1024x3072.Idx → EReal)
    (hA : V c main_arg0 = A) (hW : V c main_v1 = W) :
    (dat0 (F := Ideal) V c).arrAt 3 cfg0.N
      = (fun i => ∑ d : Fin 1024, A (ix3 (i 0) (i 2) d) * W (ix2 d (Attn.feat 1 (i 1) (i 3))) :
          S2x16x2048x64.Idx → EReal) := by
  subst hA hW
  exact arr3_eq V c

/-! ### The values (window 4) -/

/-- The index maps over the grid: the activation window moves with the values' window on the batch and row axes, the
    weight window stays at the origin, and the values' block indices on the head and feature axes are zero. -/
theorem idx_facts4 : ∀ t : Fin cfg0.N, win0_0.index t (0 : Fin 3) = win0_4.index t (0 : Fin 4)
    ∧ win0_0.index t (1 : Fin 3) = win0_4.index t (2 : Fin 4)
    ∧ win0_0.index t (2 : Fin 3) = 0
    ∧ win0_1.index t (0 : Fin 2) = 0
    ∧ win0_1.index t (1 : Fin 2) = 0
    ∧ win0_4.index t (1 : Fin 4) = 0
    ∧ win0_4.index t (3 : Fin 4) = 0 :=
  (by decide +kernel : ∀ t : Fin grid0.N, _)

/-- Every (batch element, row slab) is some point's. -/
theorem idx_onto4 : ∀ (q0 : Fin 2) (q1 : Fin 4), ∃ t : Fin cfg0.N, win0_4.index t = ![q0.val, 0, q1.val, 0] :=
  (by decide +kernel : ∀ (q0 : Fin 2) (q1 : Fin 4), ∃ t : Fin grid0.N, win0_4.index t = ![q0.val, 0, q1.val, 0])

/-- What point t writes back is block t of the values of the arrays the region finds. -/
theorem flushed4_eq (c : Dev nD) (t : Fin cfg0.N) :
    (dat0 (F := Ideal) V c).flushed 4 t
      = ((cfg0.win 4).blk t).view.read (Elt Ideal) (qkv 2 (V c main_arg0) (V c main_v1)) := by
  show (cfg0.win 4).cut (grid0.coords t) ((dat0 V c).after 4 t) = _
  rw [after0_4]
  unfold out0_4
  rw [View.canon_unit_zero hz4]
  simp only [View.ld_unit_zero (S := S1x512x1024) hz3, View.ld_unit_zero (S := S1024x3072) hz2]
  obtain ⟨e0, e1, e2, e3, e4, e5, e6⟩ := idx_facts4 t
  funext j
  have hj0 : (j 0).val < 1 := (j 0).isLt
  have hj1 : (j 1).val < 16 := (j 1).isLt
  have hj2 : (j 2).val < 512 := (j 2).isLt
  have hj3 : (j 3).val < 64 := (j 3).isLt
  refine point_eq 2 _ _ _ (pay4_apply _ _) _ _ j (((cfg0.win 4).blk t).view.emb j) (fun d => ?_) (fun d => ?_)
  · show V c main_arg0 (((cfg0.win 0).blk t).view.emb (ix3 (0 : Fin 1) (j 2) d)) = V c main_arg0 _
    refine congrArg _ (funext fun a => Fin.ext ?_)
    match a with
    | ⟨0, _⟩ => show win0_0.index t (0 : Fin 3) * 1 + 1 * 0 = win0_4.index t (0 : Fin 4) * 1 + 1 * (j 0).val; omega
    | ⟨1, _⟩ => show win0_0.index t (1 : Fin 3) * 512 + 1 * (j 2).val = win0_4.index t (2 : Fin 4) * 512 + 1 * (j 2).val; omega
    | ⟨2, _⟩ => show win0_0.index t (2 : Fin 3) * 1024 + 1 * d.val = d.val; omega
  · show V c main_v1 (((cfg0.win 1).blk t).view.emb (ix2 d (Attn.feat 2 (j 1) (j 3)))) = V c main_v1 _
    refine congrArg _ (funext fun a => Fin.ext ?_)
    match a with
    | ⟨0, _⟩ => show win0_1.index t (0 : Fin 2) * 1024 + 1 * d.val = d.val; omega
    | ⟨1, _⟩ =>
      show win0_1.index t (1 : Fin 2) * 3072 + 1 * (2 * 1024 + (j 1).val * 64 + (j 3).val)
        = 2 * 1024 + (win0_4.index t (1 : Fin 4) * 16 + 1 * (j 1).val) * 64 + (win0_4.index t (3 : Fin 4) * 64 + 1 * (j 3).val)
      omega

/-- An index of the array is in point t's block iff each coordinate is in the block's range on its axis. -/
theorem mem_blk4 (t : Fin cfg0.N) (i : S2x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v4_2).slice (win0_4.rect t)).set ↔ _
  rw [View.set_slice_whole, Rect.mem_set_unit]
  exact Iff.rfl

/-- Every index (b, h, t, j) of the values lies in the block of the point (b, t / 512). -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The values' array after the region: part 2 of the stacked projection of the activations and the stacked weight as the
    region finds them. -/
theorem arr4_eq (c : Dev nD) :
    (dat0 (F := Ideal) V c).arrAt 4 cfg0.N = qkv 2 (V c main_arg0) (V c main_v1) :=
  (dat0 (F := Ideal) V c).arrAt_eq_of_cover 4 (qkv 2 (V c main_arg0) (V c main_v1)) (fun t _ => flushed4_eq V c t) cover4

/-- The same, index by index, over the two arrays named as functions on their index sets. -/
theorem arr4_eq' (c : Dev nD) (A : S2x2048x1024.Idx → EReal) (W : S1024x3072.Idx → EReal)
    (hA : V c main_arg0 = A) (hW : V c main_v1 = W) :
    (dat0 (F := Ideal) V c).arrAt 4 cfg0.N
      = (fun i => ∑ d : Fin 1024, A (ix3 (i 0) (i 2) d) * W (ix2 d (Attn.feat 2 (i 1) (i 3))) :
          S2x16x2048x64.Idx → EReal) := by
  subst hA hW
  exact arr4_eq V c

end Cert.KernelIdeal.Val0

end
-- ==== Proof.KIValue2.lean ====
import proofs.«122748_j71631464563424_2_alg».proof.Proof.KIRegion2
import proofs.«122748_j71631464563424_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

/-! # The output projection region as one function of the arrays it reads

Each grid point (b, q) multiplies the 512 x 1024 slab of merged heads (row r, column d = head * 64 + feature) of batch
element b by the 1024 x 1024 weight; the slabs tile the [2, 2048, 1024] result. -/

/-! ## The block product at an index -/

/-- The left operand's row coordinate is the output's row. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The right operand's column coordinate is the output's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A 512 x 1024 by 1024 x 1024 product into a zero accumulator, at (r, e): the sum over the shared axis. -/
theorem mm_apply (a : FVec Ideal S512x1024 .bf16) (b : FVec Ideal S1024x1024 .bf16) (r : Fin 512) (e : Fin 1024) :
    matmul dot_S512x1024_S1024x1024_S512x1024_1_0_0_1_n_n none a b (constant (F := Ideal) S512x1024 .f32 0x00000000#32) (ix2 r e)
      = ∑ k : Fin 1024, a (ix2 r k) * b (ix2 k e) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e)
      ((contrEquiv1 dot_S512x1024_S1024x1024_S512x1024_1_0_0_1_n_n 1024 rfl rfl).symm k) = ix2 r k :=
    funext fun a => Fin.ext (by
      match a with
      | ⟨0, _⟩ => exact lhs_row _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r e)
      ((contrEquiv1 dot_S512x1024_S1024x1024_S512x1024_1_0_0_1_n_n 1024 rfl rfl).symm k) = ix2 k e :=
    funext fun a => Fin.ext (by
      match a with
      | ⟨0, _⟩ => exact (dot_S512x1024_S1024x1024_S512x1024_1_0_0_1_n_n.rhsIdx_val_of_single rfl _ _).trans hk
      | ⟨1, _⟩ => exact rhs_col _ _)
  rw [el, er]

/-! ## The payload at an index -/

/-- What a point stores at (0, r, e) of its result block: row r of the merged heads (column d is head d / 64, feature
    d % 64 of the loaded slab) times column e of the weight. -/
theorem pay_apply (x0 : Vec Ideal S1x16x512x64 .bf16) (x1 : Vec Ideal S1024x1024 .bf16) (r : Fin 512) (e : Fin 1024) :
    k2_pay1 (F := Ideal) x0 x1 (ix3 (0 : Fin 1) r e)
      = ∑ d : Fin 1024, x0 (ix4 (0 : Fin 1) (Attn.headOf d) r (Attn.featOf d)) * x1 (ix2 d e) := by
  unfold k2_pay1
  refine (shapeCast_apply _ _ (ix3 (0 : Fin 1) r e) (ix2 r e) (by
    rw [Shape.rowMajor_val_two, Shape.rowMajor_val_three]
    show r.val * 1024 + e.val = ((0 * 512 + r.val) * 1024 + e.val)
    omega)).trans ?_
  refine (mm_apply _ _ r e).trans ?_
  refine Finset.sum_congr rfl fun d _ => ?_
  have hl : shapeCast S512x1024 (transpose S512x16x64 [1, 0, 2] (shapeCast S16x512x64 x0 shapeCasts_S1x16x512x64_S16x512x64)
        transposes_S16x512x64_p1_0_2_S512x16x64) shapeCasts_S512x16x64_S512x1024 (ix2 r d)
      = x0 (ix4 (0 : Fin 1) (Attn.headOf d) r (Attn.featOf d)) := by
    refine (shapeCast_apply _ _ (ix2 r d) (ix3 r (Attn.headOf d) (Attn.featOf d)) (by
      rw [Shape.rowMajor_val_two, Shape.rowMajor_val_three]
      show (r.val * 16 + d.val / 64) * 64 + d.val % 64 = r.val * 1024 + d.val
      omega)).trans ?_
    refine (transpose_apply _ _ _ (ix3 r (Attn.headOf d) (Attn.featOf d)) (ix3 (Attn.headOf d) r (Attn.featOf d))
      (fun b => by fin_cases b <;> rfl)).trans ?_
    exact shapeCast_apply _ _ (ix3 (Attn.headOf d) r (Attn.featOf d)) (ix4 (0 : Fin 1) (Attn.headOf d) r (Attn.featOf d)) (by
      rw [Shape.rowMajor_val_three, Shape.rowMajor_val_four]
      show ((0 * 16 + d.val / 64) * 512 + r.val) * 64 + d.val % 64 = (d.val / 64 * 512 + r.val) * 64 + d.val % 64
      omega)
  have hr : shapeCast S1024x1024 x1 shapeCasts_S1024x1024_S1024x1024 (ix2 d e) = x1 (ix2 d e) := by
    rw [shapeCast_self]
  exact congrArg₂ (· * ·) hl hr

/-! ## From the blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projection of the merged heads: entry (b, t, e) sums, over the merged feature d, the attention output of head
    d / 64 at feature d % 64 times row d, column e of the weight. -/
def proj (A : S2x16x2048x64.Idx → EReal) (W : S1024x1024.Idx → EReal) : S2x2048x1024.Idx → EReal :=
  fun i => ∑ d : Fin 1024, A (ix4 (i 0) (Attn.headOf d) (i 1) (Attn.featOf d)) * W (ix2 d (i 2))

/-- A point's payload at block index y is the projection at array index i, once the loaded slab's row (y 1) is row
    (i 1) of batch element (i 0) and the loaded weight's column (y 2) is column (i 2). -/
theorem point_eq (x0 : Vec Ideal S1x16x512x64 .bf16) (x1 : Vec Ideal S1024x1024 .bf16)
    (A : S2x16x2048x64.Idx → EReal) (W : S1024x1024.Idx → EReal) (y : S1x512x1024.Idx) (i : S2x2048x1024.Idx)
    (h0 : ∀ (h : Fin 16) (j : Fin 64), x0 (ix4 (0 : Fin 1) h (y 1) j) = A (ix4 (i 0) h (i 1) j))
    (h1 : ∀ d : Fin 1024, x1 (ix2 d (y 2)) = W (ix2 d (i 2))) :
    k2_pay1 (F := Ideal) x0 x1 y = proj A W i := by
  obtain ⟨u, r, e, rfl⟩ : ∃ (u : Fin 1) (r : Fin 512) (e : Fin 1024), y = ix3 u r e := ⟨y 0, y 1, y 2, eq_ix3 y⟩
  obtain rfl : u = 0 := Subsingleton.elim _ _
  rw [pay_apply]
  exact Finset.sum_congr rfl fun d _ => by rw [h0, h1]

variable (V : (c : Dev nD) → (b : Ref sig .tc) → Buf (Elt Ideal) ((c : Thread nD τ).loc b))

/-- The index maps over the grid: the slab window moves with the result window on the batch and row axes, the weight
    window stays at the origin, and the result's block indices stay in their ranges. -/
theorem idx_facts : ∀ t : Fin cfg2.N, win2_0.index t (0 : Fin 4) = win2_2.index t (0 : Fin 3)
    ∧ win2_0.index t (1 : Fin 4) = 0
    ∧ win2_0.index t (2 : Fin 4) = win2_2.index t (1 : Fin 3)
    ∧ win2_0.index t (3 : Fin 4) = 0
    ∧ win2_1.index t (0 : Fin 2) = 0
    ∧ win2_1.index t (1 : Fin 2) = 0
    ∧ win2_2.index t (2 : Fin 3) = 0
    ∧ win2_2.index t (0 : Fin 3) ≤ 1
    ∧ win2_2.index t (1 : Fin 3) ≤ 3 :=
  (by decide +kernel : ∀ t : Fin grid2.N, _)

/-- Every (batch element, row slab) is some point's. -/
theorem idx_onto : ∀ (q0 : Fin 2) (q1 : Fin 4), ∃ t : Fin cfg2.N, win2_2.index t = ![q0.val, q1.val, 0] :=
  (by decide +kernel : ∀ (q0 : Fin 2) (q1 : Fin 4), ∃ t : Fin grid2.N, win2_2.index t = ![q0.val, q1.val, 0])

/-- What point t writes back is block t of the projection of the arrays the region finds. -/
theorem flushed_eq (c : Dev nD) (t : Fin cfg2.N) :
    (dat2 (F := Ideal) V c).flushed 2 t
      = ((cfg2.win 2).blk t).view.read (Elt Ideal) (proj (V c main_v9) (V c main_v3)) := by
  show (cfg2.win 2).cut (grid2.coords t) ((dat2 V c).after 2 t) = _
  rw [after2_2]
  unfold out2_2
  rw [View.canon_unit_zero hz3]
  simp only [View.ld_unit_zero (S := S1x16x512x64) hz4, View.ld_unit_zero (S := S1024x1024) hz2]
  obtain ⟨e0, e1, e2, e3, e4, e5, e6, e7, e8⟩ := idx_facts t
  funext j
  have hj0 : (j 0).val < 1 := (j 0).isLt
  have hj1 : (j 1).val < 512 := (j 1).isLt
  have hj2 : (j 2).val < 1024 := (j 2).isLt
  refine point_eq _ _ _ _ j (((cfg2.win 2).blk t).view.emb j) (fun h f => ?_) (fun d => ?_)
  · show V c main_v9 (((cfg2.win 0).blk t).view.emb (ix4 (0 : Fin 1) h (j 1) f)) = V c main_v9 _
    refine congrArg _ (funext fun a => Fin.ext ?_)
    match a with
    | ⟨0, _⟩ => show win2_0.index t (0 : Fin 4) * 1 + 1 * 0 = win2_2.index t (0 : Fin 3) * 1 + 1 * (j 0).val; omega
    | ⟨1, _⟩ => show win2_0.index t (1 : Fin 4) * 16 + 1 * h.val = h.val; omega
    | ⟨2, _⟩ => show win2_0.index t (2 : Fin 4) * 512 + 1 * (j 1).val = win2_2.index t (1 : Fin 3) * 512 + 1 * (j 1).val; omega
    | ⟨3, _⟩ => show win2_0.index t (3 : Fin 4) * 64 + 1 * f.val = f.val; omega
  · show V c main_v3 (((cfg2.win 1).blk t).view.emb (ix2 d (j 2))) = V c main_v3 _
    refine congrArg _ (funext fun a => Fin.ext ?_)
    match a with
    | ⟨0, _⟩ => show win2_1.index t (0 : Fin 2) * 1024 + 1 * d.val = d.val; omega
    | ⟨1, _⟩ => show win2_1.index t (1 : Fin 2) * 1024 + 1 * (j 2).val = win2_2.index t (2 : Fin 3) * 1024 + 1 * (j 2).val; omega

/-- An index of the array is in point t's block iff each coordinate is in the block's range on its axis. -/
theorem mem_blk (t : Fin cfg2.N) (i : S2x2048x1024.Idx) :
    i ∈ ((cfg2.win 2).blk t).view.set ↔ ∀ a : Fin 3, win2_2.index t a * S1x512x1024.size a ≤ (i a).val
      ∧ (i a).val < win2_2.index t a * S1x512x1024.size a + S1x512x1024.size a := by
  show i ∈ ((View.whole main_v10).slice (win2_2.rect t)).set ↔ _
  rw [View.set_slice_whole, Rect.mem_set_unit]
  exact Iff.rfl

/-- Every index (b, t, e) of the result lies in the block of the point (b, t / 512). -/
theorem cover (i : S2x2048x1024.Idx) :
    ∃ t : Fin cfg2.N, (cfg2.win 2).flush t = true ∧ i ∈ ((cfg2.win 2).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 512 ≤ (i 1).val ∧ (i 1).val < win2_2.index t (1 : Fin 3) * 512 + 512; omega
  | ⟨2, _⟩ => show win2_2.index t (2 : Fin 3) * 1024 ≤ (i 2).val ∧ (i 2).val < win2_2.index t (2 : Fin 3) * 1024 + 1024; omega

/-- The result array after the region: the projection of the attention output and the weight as the region finds them. -/
theorem arr_eq (c : Dev nD) :
    (dat2 (F := Ideal) V c).arrAt 2 cfg2.N = proj (V c main_v9) (V c main_v3) :=
  (dat2 (F := Ideal) V c).arrAt_eq_of_cover 2 (proj (V c main_v9) (V c main_v3)) (fun t _ => flushed_eq V c t) cover

/-- The projection at an index. -/
theorem proj_apply (A : S2x16x2048x64.Idx → EReal) (W : S1024x1024.Idx → EReal) (i : S2x2048x1024.Idx) :
    proj A W i = ∑ d : Fin 1024, A (ix4 (i 0) (Attn.headOf d) (i 1) (Attn.featOf d)) * W (ix2 d (i 2)) := rfl

/-- The same, index by index, over the two arrays named as functions on their index sets. -/
theorem arr_eq' (c : Dev nD) (A : S2x16x2048x64.Idx → EReal) (W : S1024x1024.Idx → EReal)
    (hA : V c main_v9 = A) (hW : V c main_v3 = W) :
    (dat2 (F := Ideal) V c).arrAt 2 cfg2.N
      = (fun i => ∑ d : Fin 1024, A (ix4 (i 0) (Attn.headOf d) (i 1) (Attn.featOf d)) * W (ix2 d (i 2)) :
          S2x2048x1024.Idx → EReal) := by
  subst hA hW
  exact arr_eq V c

end Cert.KernelIdeal.Val2

end
-- ==== Proof.KIFinal.lean ====
import proofs.«122748_j71631464563424_2_alg».proof.Proof.KIRun
import proofs.«122748_j71631464563424_2_alg».proof.Proof.KIValue0
import proofs.«122748_j71631464563424_2_alg».proof.Proof.KIValue2
import proofs.«122748_j71631464563424_2_alg».proof.Proof.Spec32

noncomputable section

open scoped BigOperators

namespace Cert.KernelIdeal.Final

open Cert.KernelIdeal Cert.KernelIdeal.Gen Cert.KernelIdeal.Gen.Att Idealize.ShloMosaic Idealize.ShloMosaic.TcCoe Idealize.SL.Sem
open Idealize.ShloMosaic.ValueIdx

/-! # The kernel's result as the layer of its three arguments

The three regions chained: the stacked projection's parts (region 0), viewed over the merged (batch, head) axis, go
through the attention (region 1), whose output, viewed head by head again, goes through the output projection
(region 2). -/

/-! ## Extended reals that are reals: products and finite sums -/

/-- A product of two reals is a real. -/
theorem real_mul {a b : EReal} (ha : ∃ r : ℝ, a = ((r : ℝ) : EReal)) (hb : ∃ r : ℝ, b = ((r : ℝ) : EReal)) :
    ∃ r : ℝ, a * b = ((r : ℝ) : EReal) := by
  obtain ⟨r, rfl⟩ := ha
  obtain ⟨s, rfl⟩ := hb
  exact ⟨r * s, (EReal.coe_mul r s).symm⟩

/-- A finite sum of reals is a real. -/
theorem real_sum {ι : Type} [DecidableEq ι] (s : Finset ι) (f : ι → EReal) (hf : ∀ d ∈ s, ∃ r : ℝ, f d = ((r : ℝ) : EReal)) :
    ∃ r : ℝ, ∑ d ∈ s, f d = ((r : ℝ) : EReal) := by
  induction s using Finset.induction_on with
  | empty => exact ⟨0, by rw [Finset.sum_empty]; rfl⟩
  | insert a s ha ih =>
    obtain ⟨r, hr⟩ := hf a (Finset.mem_insert_self a s)
    obtain ⟨t, ht⟩ := ih fun d hd => hf d (Finset.mem_insert_of_mem hd)
    exact ⟨r + t, by rw [Finset.sum_insert ha, hr, ht, EReal.coe_add]⟩

/-! ## The merged (batch, head) axis -/

/-- The batch element of a (batch, head) pair, -/
def batchOf (p : Fin 32) : Fin 2 := ⟨p.val / 16, by omega⟩
/-- its head, -/
def headOf (p : Fin 32) : Fin 16 := ⟨p.val % 16, by omega⟩
/-- and the pair of a batch element and a head. -/
def pairOf (b : Fin 2) (h : Fin 16) : Fin 32 := ⟨b.val * 16 + h.val, by omega⟩

/-- Part s of the stacked projection over the merged (batch, head) axis. -/
def q32 (s : Fin 3) (x : Attn.SX.Idx → EReal) (w : Attn.SW.Idx → EReal) : Attn.S32.Idx → EReal :=
  fun i => Attn.qkv s x w (ix4 (batchOf (i 0)) (headOf (i 0)) (i 1) (i 2))

/-- With real activations and weights every entry of a part of the stacked projection is a real. -/
theorem q32_real (s : Fin 3) (x : Attn.SX.Idx → EReal) (w : Attn.SW.Idx → EReal)
    (hx : ∀ i, ∃ r : ℝ, x i = ((r : ℝ) : EReal)) (hw : ∀ i, ∃ r : ℝ, w i = ((r : ℝ) : EReal)) (i : Attn.S32.Idx) :
    ∃ r : ℝ, q32 s x w i = ((r : ℝ) : EReal) := by
  unfold q32 Attn.qkv Attn.proj
  exact real_sum _ _ fun d _ => real_mul (hx _) (hw _)

/-! ## The chain -/

variable (m : (ℓ : Loc nD τ sig) → Buf (Elt Ideal) ℓ) (ρ : Dev nD → PrngReg)

/-- A part of the stacked projection as region 0 leaves it (over the weight as the region finds it, one row per model
    feature) is the specification's part (over the weight as launched, one row per output feature). -/
theorem qkv_eq (c : Dev nD) (s : Fin 3) (x : Attn.SX.Idx → EReal) (w : Attn.SW.Idx → EReal)
    (g0 : V1 m ρ c main_arg0 = x)
    (g1 : ∀ i : S1024x3072.Idx, V1 m ρ c main_v1 i = w (ix2 (i 1) (i 0))) :
    Val0.qkv s (V1 m ρ c main_arg0) (V1 m ρ c main_v1) = Attn.qkv s x w := by
  funext i
  unfold Val0.qkv Attn.qkv Attn.proj
  refine Finset.sum_congr rfl fun d _ => ?_
  rw [g0, g1]

/-- THE KERNEL'S RESULT, from what the host operations between the regions do to the arrays (g0 .. g9: the transposed
    weights, the regrouping of the (batch, head) axes), what the attention region computes on real inputs (r1), and
    the specification's regrouping (asm). -/
theorem out_eq (c : Dev nD) (x : Attn.SX.Idx → EReal) (w : Attn.SW.Idx → EReal) (wo : Attn.SWo.Idx → EReal)
    (g0 : V1 m ρ c main_arg0 = x)
    (g1 : ∀ i : S1024x3072.Idx, V1 m ρ c main_v1 i = w (ix2 (i 1) (i 0)))
    (g3 : ∀ i : S1024x1024.Idx, V5 m ρ c main_v3 i = wo (ix2 (i 1) (i 0)))
    (g5 : ∀ i : S32x2048x64.Idx, V3 m ρ c main_v5 i
      = W2 m ρ c (Proc.devRef .tc main_v4_0) (ix4 (batchOf (i 0)) (headOf (i 0)) (i 1) (i 2)))
    (g6 : ∀ i : S32x2048x64.Idx, V3 m ρ c main_v6 i
      = W2 m ρ c (Proc.devRef .tc main_v4_1) (ix4 (batchOf (i 0)) (headOf (i 0)) (i 1) (i 2)))
    (g7 : ∀ i : S32x2048x64.Idx, V3 m ρ c main_v7 i
      = W2 m ρ c (Proc.devRef .tc main_v4_2) (ix4 (batchOf (i 0)) (headOf (i 0)) (i 1) (i 2)))
    (g9 : ∀ i : S2x16x2048x64.Idx, V5 m ρ c main_v9 i
      = W4 m ρ c (Proc.devRef .tc main_v8) (ix3 (pairOf (i 0) (i 1)) (i 2) (i 3)))
    (r1 : (∀ i, ∃ r : ℝ, V3 m ρ c main_v5 i = ((r : ℝ) : EReal)) → (∀ i, ∃ r : ℝ, V3 m ρ c main_v6 i = ((r : ℝ) : EReal))
      → (∀ i, ∃ r : ℝ, V3 m ρ c main_v7 i = ((r : ℝ) : EReal))
      → (dat1 (F := Ideal) (V3 m ρ) c).arrAt 3 cfg1.N
          = Attn.attn32 (V3 m ρ c main_v5) (V3 m ρ c main_v6) (V3 m ρ c main_v7))
    (asm : (fun i : Attn.SX.Idx => ∑ d : Fin 1024,
        Attn.attn32 (q32 0 x w) (q32 1 x w) (q32 2 x w) (ix3 (pairOf (i 0) (Attn.headOf d)) (i 1) (Attn.featOf d))
          * wo (ix2 (i 2) d)) = Attn.layer x w wo)
    (real : (∀ i, ∃ r : ℝ, x i = ((r : ℝ) : EReal)) ∧ (∀ i, ∃ r : ℝ, w i = ((r : ℝ) : EReal))
      ∧ (∀ i, ∃ r : ℝ, wo i = ((r : ℝ) : EReal))) :
    W6 (F := Ideal) m ρ c (Proc.devRef .tc main_v10) = Attn.layer x w wo := by
  -- region 0's three arrays are the specification's parts
  have a0 : W2 m ρ c (Proc.devRef .tc main_v4_0) = Attn.qkv 0 x w :=
    ((W2_arr m ρ c 2).trans (Val0.arr2_eq (V1 m ρ) c)).trans (qkv_eq m ρ c 0 x w g0 g1)
  have a1 : W2 m ρ c (Proc.devRef .tc main_v4_1) = Attn.qkv 1 x w :=
    ((W2_arr m ρ c 3).trans (Val0.arr3_eq (V1 m ρ) c)).trans (qkv_eq m ρ c 1 x w g0 g1)
  have a2 : W2 m ρ c (Proc.devRef .tc main_v4_2) = Attn.qkv 2 x w :=
    ((W2_arr m ρ c 4).trans (Val0.arr4_eq (V1 m ρ) c)).trans (qkv_eq m ρ c 2 x w g0 g1)
  -- so region 1 reads them over the merged axis
  have c5 : V3 m ρ c main_v5 = q32 0 x w := funext fun i => by rw [g5 i, a0]; rfl
  have c6 : V3 m ρ c main_v6 = q32 1 x w := funext fun i => by rw [g6 i, a1]; rfl
  have c7 : V3 m ρ c main_v7 = q32 2 x w := funext fun i => by rw [g7 i, a2]; rfl
  -- and leaves their attention
  have a8 : W4 m ρ c (Proc.devRef .tc main_v8) = Attn.attn32 (q32 0 x w) (q32 1 x w) (q32 2 x w) := by
    refine (W4_arr m ρ c 3).trans ?_
    rw [r1 (fun i => by rw [c5]; exact q32_real 0 x w real.1 real.2.1 i)
      (fun i => by rw [c6]; exact q32_real 1 x w real.1 real.2.1 i)
      (fun i => by rw [c7]; exact q32_real 2 x w real.1 real.2.1 i), c5, c6, c7]
  -- region 2 projects it
  refine ((W6_arr m ρ c 2).trans (Val2.arr_eq (V5 m ρ) c)).trans ?_
  refine Eq.trans ?_ asm
  funext i
  unfold Val2.proj
  refine Finset.sum_congr rfl fun d _ => ?_
  rw [g9, g3, a8]

end Cert.KernelIdeal.Final

end
-- ==== Proof.Assemble.lean ====
/-
  The attention over arrays whose leading axis merges batch and head, p = b * 16 + h, against the attention over
  separate batch and head axes: splitting p back into (p / 16, p % 16) identifies the two index by index, so the
  output projection over the merged-axis attention is the whole layer.  Also: a finite sum of products of real
  numbers, read in the extended reals, is a real number, so the projections of real arrays are real.
-/
import proofs.«122748_j71631464563424_2_alg».proof.Proof.Spec32
import proofs.«122748_j71631464563424_2_alg».proof.Proof.Spec

noncomputable section

open scoped BigOperators

namespace Attn

open Idealize.ShloMosaic Idealize.ShloMosaic.ValueIdx

/-! ## Merging batch and head -/

/-- The merged index of batch element b and head h. -/
def merge (b : Fin 2) (h : Fin 16) : Fin 32 := ⟨b.val * 16 + h.val, by omega⟩

/-- The queries (s = 0), keys (1) or values (2) over the merged axis: pair p is batch element p / 16, head p % 16. -/
def q32 (s : Fin 3) (x : SX.Idx → EReal) (w : SW.Idx → EReal) : S32.Idx → EReal :=
  fun i => qkv s x w (ix4 (⟨(i 0).val / 16, by have h : (i 0).val < 32 := (i 0).isLt; omega⟩ : Fin 2)
    (⟨(i 0).val % 16, by omega⟩ : Fin 16) (i 1) (i 2))

theorem merge_div (b : Fin 2) (h : Fin 16) : (merge b h).val / 16 = b.val := by
  have hh := h.isLt
  show (b.val * 16 + h.val) / 16 = b.val
  omega

theorem merge_mod (b : Fin 2) (h : Fin 16) : (merge b h).val % 16 = h.val := by
  have hh := h.isLt
  show (b.val * 16 + h.val) % 16 = h.val
  omega

/-- Pair (b, h) of the merged arrays is batch element b, head h of the separate ones. -/
theorem q32_merge (s : Fin 3) (x : SX.Idx → EReal) (w : SW.Idx → EReal) (b : Fin 2) (h : Fin 16) (t : Fin 2048)
    (j : Fin 64) : q32 s x w (ix3 (merge b h) t j) = qkv s x w (ix4 b h t j) := by
  have e1 : ∀ hp, (⟨(merge b h).val / 16, hp⟩ : Fin 2) = b := fun _ => Fin.ext (merge_div b h)
  have e2 : ∀ hp, (⟨(merge b h).val % 16, hp⟩ : Fin 16) = h := fun _ => Fin.ext (merge_mod b h)
  show qkv s x w (ix4 (⟨(merge b h).val / 16, _⟩ : Fin 2) (⟨(merge b h).val % 16, _⟩ : Fin 16) t j) = _
  rw [e1, e2]

/-- The masked scores agree. -/
theorem mscore32_merge (x : SX.Idx → EReal) (w : SW.Idx → EReal) (b : Fin 2) (h : Fin 16) (t s : Fin 2048) :
    mscore32 (q32 0 x w) (q32 1 x w) (merge b h) t s = mscore (qkv 0 x w) (qkv 1 x w) b h t s := by
  unfold mscore32 mscore score
  simp only [q32_merge]

/-- The attention outputs agree. -/
theorem attn32_merge (x : SX.Idx → EReal) (w : SW.Idx → EReal) (b : Fin 2) (h : Fin 16) (t : Fin 2048) (j : Fin 64) :
    attn32 (q32 0 x w) (q32 1 x w) (q32 2 x w) (ix3 (merge b h) t j)
      = attn (qkv 0 x w) (qkv 1 x w) (qkv 2 x w) (ix4 b h t j) := by
  show Flash.twoPass (fun s : Fin 2048 => mscore32 (q32 0 x w) (q32 1 x w) (merge b h) t s)
      (fun s : Fin 2048 => q32 2 x w (ix3 (merge b h) s j))
    = Flash.twoPass (fun s : Fin 2048 => mscore (qkv 0 x w) (qkv 1 x w) b h t s)
      (fun s : Fin 2048 => qkv 2 x w (ix4 b h s j))
  simp only [mscore32_merge, q32_merge]

/-- The output projection over the merged-axis attention is the whole layer. -/
theorem layer_eq (x : SX.Idx → EReal) (w : SW.Idx → EReal) (wo : SWo.Idx → EReal) :
    (fun i : SX.Idx => ∑ d : Fin 1024,
        attn32 (q32 0 x w) (q32 1 x w) (q32 2 x w) (ix3 (merge (i 0) (headOf d)) (i 1) (featOf d)) * wo (ix2 (i 2) d))
      = layer x w wo := by
  funext i
  show _ = ∑ d : Fin 1024, attn (qkv 0 x w) (qkv 1 x w) (qkv 2 x w) (ix4 (i 0) (headOf d) (i 1) (featOf d))
    * wo (ix2 (i 2) d)
  refine Finset.sum_congr rfl fun d _ => ?_
  exact congrArg (· * wo (ix2 (i 2) d)) (attn32_merge x w (i 0) (headOf d) (i 1) (featOf d))

/-! ## Real values -/

/-- An extended real that is a real number. -/
def IsR (x : EReal) : Prop := ∃ r : ℝ, x = ((r : ℝ) : EReal)

theorem IsR.coe (r : ℝ) : IsR ((r : ℝ) : EReal) := ⟨r, rfl⟩

theorem IsR.zero : IsR (0 : EReal) := ⟨0, rfl⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.add {x y : EReal} (hx : IsR x) (hy : IsR y) : IsR (x + y) := by
  obtain ⟨a, rfl⟩ := hx
  obtain ⟨b, rfl⟩ := hy
  exact ⟨a + b, (EReal.coe_add a b).symm⟩

/-- A finite sum of real numbers is a real number. -/
theorem IsR.sum {α : Type} (s : Finset α) (f : α → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The same over a whole finite index type. -/
theorem IsR.sum_univ {α : Type} [Fintype α] (f : α → EReal) (h : ∀ i, IsR (f i)) : IsR (∑ i, f i) :=
  IsR.sum Finset.univ f fun i _ => h i

/-- The score scale is the real number 1/8. -/
theorem scale_eq_eighth : scale = ((1 / 8 : ℝ) : EReal) := by
  unfold scale
  simp [Ideal.ofBits, Ideal.ieee, -EReal.coe_mul]; norm_num

theorem isR_scale : IsR scale := ⟨1 / 8, scale_eq_eighth⟩

/-- The projections of real arrays are real. -/
theorem proj_real (x : SX.Idx → EReal) (w : SW.Idx → EReal) (hx : ∀ i, IsR (x i)) (hw : ∀ i, IsR (w i))
    (b : Fin 2) (t : Fin 2048) (e : Fin 3072) : IsR (proj x w b t e) := by
  unfold proj
  exact IsR.sum_univ _ fun d => (hx _).mul (hw _)

theorem qkv_real (s : Fin 3) (x : SX.Idx → EReal) (w : SW.Idx → EReal) (hx : ∀ i, IsR (x i)) (hw : ∀ i, IsR (w i)) :
    ∀ i, IsR (qkv s x w i) :=
  fun i => proj_real x w hx hw _ _ _

theorem q32_real (s : Fin 3) (x : SX.Idx → EReal) (w : SW.Idx → EReal) (hx : ∀ i, IsR (x i)) (hw : ∀ i, IsR (w i)) :
    ∀ i, IsR (q32 s x w i) :=
  fun i => qkv_real s x w hx hw _

end Attn

end
-- ==== Proof.Finite.lean ====
/-
  The finiteness precondition, read back. The precondition says, of each of the three float
  arguments, that the conjunction over all its entries of |x| < +∞ is true, and that the three conjunctions hold
  together. On the extended reals |x| is max x (-x), which is +∞ at both infinities; so an entry whose absolute
  value is strictly below +∞ is (the embedding of) a real number. Hence: every entry of every argument is a real.
-/
import proofs.«122748_j71631464563424_2_alg».proof.Defs
import Idealize.ShloMosaic.Lib.ReduceAll
import Idealize.ShloMosaic.Lib.ValueIdx

noncomputable section

namespace Cert.Proof.Finite

open Idealize.ShloMosaic

/-- The rank-0 shape has a single index. -/
instance subsingleton_scalar_idx : Subsingleton Cert.Pre_finite_inputs.S_.Idx :=
  ⟨fun a b => funext fun d => d.elim0⟩

/-- An extended real whose absolute value max x (-x) lies strictly below +∞ is a real:
    at -∞ the negation is +∞, at +∞ the number itself is. -/
theorem real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

/-- The bit pattern 0x7F800000 of the 32-bit format denotes +∞. -/
theorem inf_pattern : Ideal.ofBits .f32 0x7F800000#32 = (⊤ : EReal) := by
  simp [Ideal.ofBits, Ideal.ieee]

/-- The element fact: a true comparison |x| < (pattern of +∞) makes x a real. -/
theorem real_of_cmp (x : EReal)
    (h : Ideal.cmp .olt (max x (-x)) (Ideal.ofBits .f32 0x7F800000#32) = 1#1) : ∃ r : ℝ, x = ((r : ℝ) : EReal) := by
  rw [inf_pattern] at h
  refine real_of_abs_lt_top x ?_
  by_contra hn
  simp [Ideal.cmp, hn] at h

/-- One conjunction over all entries, read back: if the and-reduction over every axis of the mask
    |a| < +∞ (the bound a splat of the +∞ pattern) is true, every entry of a is a real. -/
theorem all_real {s c t u : Shape} {axes : List (Fin s.rank)} [Subsingleton t.Idx]
    (a : FVec Ideal s .f32) (dims : Fin c.rank → Fin s.rank) (hb : c.BroadcastsInDim s dims)
    (init : IVec u 1) (hr : s.ReducesTo axes t) (hu : 0 < u.numel) (j : t.Idx)
    (e : Host.reduce IntOp.andi
          (cmpf .olt (Host.absf a) (broadcastInDim s dims hb (constant (F := Ideal) c .f32 0x7F800000#32))) init hr hu j = 1#1)
    (i : s.Idx) : ∃ r : ℝ, a i = ((r : ℝ) : EReal) :=
  real_of_cmp (a i) (Host.reduce_andi_all _ init hr hu j e i)

open Cert.Pre_finite_inputs in
/-- The precondition decoded: every entry of each of the three arguments is a real. -/
theorem real_of_pre [Cert.Pre_finite_inputs.Facts]
    (a0 : FVec Ideal Cert.Pre_finite_inputs.S2x2048x1024 .f32)
    (a1 : FVec Ideal Cert.Pre_finite_inputs.S3072x1024 .f32)
    (a2 : FVec Ideal Cert.Pre_finite_inputs.S1024x1024 .f32)
    (h : Cert.Pre_finite_inputs.fn (F := Ideal) a0 a1 a2 = fun _ => 1#1) :
    (∀ i, ∃ r : ℝ, a0 i = ((r : ℝ) : EReal)) ∧ (∀ i, ∃ r : ℝ, a1 i = ((r : ℝ) : EReal))
      ∧ (∀ i, ∃ r : ℝ, a2 i = ((r : ℝ) : EReal)) := by
  have e := congrFun h ValueIdx.ix0
  dsimp only [Cert.Pre_finite_inputs.fn, andi] at e
  obtain ⟨e01, e2⟩ := IntOp.andi_eq_one.1 e
  obtain ⟨e0, e1⟩ := IntOp.andi_eq_one.1 e01
  exact ⟨fun i => all_real a0 _ _ _ _ _ _ e0 i, fun i => all_real a1 _ _ _ _ _ _ e1 i,
    fun i => all_real a2 _ _ _ _ _ _ e2 i⟩

open Idealize.SL.Sem in
/-- The kernel's precondition decoded on a device: every entry of each argument array is a real. -/
theorem real_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
      ∧ (∀ i, ∃ r : ℝ, m ((c.tc : Thread Cert.KernelIdeal.nD Cert.KernelIdeal.τ).loc Cert.KernelIdeal.main_arg1) i = ((r : ℝ) : EReal))
      ∧ (∀ i, ∃ r : ℝ, m ((c.tc : Thread Cert.KernelIdeal.nD Cert.KernelIdeal.τ).loc Cert.KernelIdeal.main_arg2) i = ((r : ℝ) : EReal)) :=
  real_of_pre _ _ _ (h c)

end Cert.Proof.Finite

end
-- ==== Proof.RefSpec.lean ====
/-
  The reference program read index by index: its result is the causal multi-head attention layer of Spec.lean,
  at every extended-real input.

  The reference computes the stacked projection, slices it into queries, keys and values, splits the 1024 features
  into 16 heads of 64, scales the query-key products by 1 / sqrt 64, reads a score beyond the query position as
  -inf, takes the softmax of each row by subtracting the row's maximum, and merges the heads for the output
  projection.  Each stage is read at an index given by explicit coordinates (b, h, t, s, j) and identified with the
  corresponding definition of namespace Attn.
-/
import proofs.«122748_j71631464563424_2_alg».proof.Proof.Gen.ReferenceIdeal.Read
import proofs.«122748_j71631464563424_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The three argument arrays at the ideal values: functions from an index to an extended real. -/
abbrev TX : Type := (⟨S2x2048x1024, .f32⟩ : BufTy).Contents (Elt Ideal)
abbrev TW : Type := (⟨S3072x1024, .f32⟩ : BufTy).Contents (Elt Ideal)
abbrev TWo : Type := (⟨S1024x1024, .f32⟩ : BufTy).Contents (Elt Ideal)

/-! ## The constants -/

/-- The word 0xFF800000 is -inf. -/
theorem ofBits_negInf : Ideal.ofBits .f32 0xFF800000#32 = (⊥ : EReal) := by
  simp [Ideal.ofBits, Ideal.ieee]

/-- The word 0x42800000 is 64. -/
theorem ofBits_64 : Ideal.ofBits .f32 0x42800000#32 = ((64 : ℝ) : EReal) := by
  simp [Ideal.ofBits, Ideal.ieee, -EReal.coe_mul]; norm_num

/-- The word 0x3F800000 is 1. -/
theorem ofBits_one : Ideal.ofBits .f32 0x3F800000#32 = ((1 : ℝ) : EReal) := by
  simp [Ideal.ofBits, Ideal.ieee, -EReal.coe_mul]; norm_num

/-- The word 0x3E000000 is 1/8. -/
theorem ofBits_eighth : Ideal.ofBits .f32 0x3E000000#32 = ((1 / 8 : ℝ) : EReal) := by
  simp [Ideal.ofBits, Ideal.ieee, -EReal.coe_mul]; norm_num

/-- The reference's scale 1 / sqrt 64 is the f32 word of 0.125: both are the real 1/8. -/
theorem scale_eq (i : S_.Idx) : val_main_v11 (F := Ideal) i = Attn.scale := by
  rw [val_main_v11_apply, val_main_cst_0_apply, val_main_v10_apply, val_main_cst_apply]
  simp only [Ideal.hostDivf_def, Ideal.hostUnary_sqrt_def, Ideal.ofBits_def]
  rw [ofBits_64, ofBits_one, Ideal.sqrt_coe, if_neg (by norm_num)]
  have h8 : Real.sqrt 64 = 8 := by
    rw [show (64 : ℝ) = 8 ^ 2 by norm_num]; exact Real.sqrt_sq (by norm_num)
  rw [h8, Ideal.div_coe (by norm_num), ← EReal.coe_mul, one_mul]
  unfold Attn.scale
  rw [ofBits_eighth]

/-! ## The projections -/

/-- The queries: the reference's transposed, reshaped first slice of the stacked projection. -/
theorem q_entry (x0 : TX) (x1 : TW) (b : Fin 2) (h : Fin 16) (t : Fin 2048) (j : Fin 64) :
    val_main_v5 (F := Ideal) x0 x1 (ix4 b h t j) = Attn.qkv 0 x0 x1 (ix4 b h t j) := by
  rw [val_main_v5_apply, val_main_v4_apply, val_main_v1_apply, val_main_v0_apply]
  show _ = ∑ d : Fin 1024, x0 (ix3 b t d) * x1 (ix2 (Attn.feat 0 h j) d)
  refine Finset.sum_congr rfl fun k _ => ?_
  have hb := b.isLt; have hh := h.isLt; have ht := t.isLt; have hj := j.isLt
  congr 2
  · funext a
    match a with
    | ⟨0, _⟩ => exact Fin.ext (by show ((((b.val * 2048 + t.val) * 16 + h.val) * 64 + j.val) / 2097152) = b.val; omega)
    | ⟨1, _⟩ => exact Fin.ext (by show ((((b.val * 2048 + t.val) * 16 + h.val) * 64 + j.val) / 1024 % 2048) = t.val; omega)
    | ⟨2, _⟩ => rfl
  · funext a
    match a with
    | ⟨0, _⟩ => exact Fin.ext (by show ((((b.val * 2048 + t.val) * 16 + h.val) * 64 + j.val) % 1024) = 0 * 1024 + h.val * 64 + j.val; omega)
    | ⟨1, _⟩ => rfl

/-- The keys: the same reading of the second slice. -/
theorem k_entry (x0 : TX) (x1 : TW) (b : Fin 2) (h : Fin 16) (t : Fin 2048) (j : Fin 64) :
    val_main_v7 (F := Ideal) x0 x1 (ix4 b h t j) = Attn.qkv 1 x0 x1 (ix4 b h t j) := by
  rw [val_main_v7_apply, val_main_v6_apply, val_main_v2_apply, val_main_v0_apply]
  show _ = ∑ d : Fin 1024, x0 (ix3 b t d) * x1 (ix2 (Attn.feat 1 h j) d)
  refine Finset.sum_congr rfl fun k _ => ?_
  have hb := b.isLt; have hh := h.isLt; have ht := t.isLt; have hj := j.isLt
  congr 2
  · funext a
    match a with
    | ⟨0, _⟩ => exact Fin.ext (by show ((((b.val * 2048 + t.val) * 16 + h.val) * 64 + j.val) / 2097152) = b.val; omega)
    | ⟨1, _⟩ => exact Fin.ext (by show ((((b.val * 2048 + t.val) * 16 + h.val) * 64 + j.val) / 1024 % 2048) = t.val; omega)
    | ⟨2, _⟩ => rfl
  · funext a
    match a with
    | ⟨0, _⟩ => exact Fin.ext (by show 1024 + ((((b.val * 2048 + t.val) * 16 + h.val) * 64 + j.val) % 1024) = 1 * 1024 + h.val * 64 + j.val; omega)
    | ⟨1, _⟩ => rfl

/-- The values: the same reading of the third slice. -/
theorem v_entry (x0 : TX) (x1 : TW) (b : Fin 2) (h : Fin 16) (t : Fin 2048) (j : Fin 64) :
    val_main_v9 (F := Ideal) x0 x1 (ix4 b h t j) = Attn.qkv 2 x0 x1 (ix4 b h t j) := by
  rw [val_main_v9_apply, val_main_v8_apply, val_main_v3_apply, val_main_v0_apply]
  show _ = ∑ d : Fin 1024, x0 (ix3 b t d) * x1 (ix2 (Attn.feat 2 h j) d)
  refine Finset.sum_congr rfl fun k _ => ?_
  have hb := b.isLt; have hh := h.isLt; have ht := t.isLt; have hj := j.isLt
  congr 2
  · funext a
    match a with
    | ⟨0, _⟩ => exact Fin.ext (by show ((((b.val * 2048 + t.val) * 16 + h.val) * 64 + j.val) / 2097152) = b.val; omega)
    | ⟨1, _⟩ => exact Fin.ext (by show ((((b.val * 2048 + t.val) * 16 + h.val) * 64 + j.val) / 1024 % 2048) = t.val; omega)
    | ⟨2, _⟩ => rfl
  · funext a
    match a with
    | ⟨0, _⟩ => exact Fin.ext (by show 2048 + ((((b.val * 2048 + t.val) * 16 + h.val) * 64 + j.val) % 1024) = 2 * 1024 + h.val * 64 + j.val; omega)
    | ⟨1, _⟩ => rfl

/-! ## The scores -/

/-- The scaled query-key product. -/
theorem score_entry (x0 : TX) (x1 : TW) (b : Fin 2) (h : Fin 16) (t s : Fin 2048) :
    val_main_v14 (F := Ideal) x0 x1 (ix4 b h t s)
      = Attn.score (Attn.qkv 0 x0 x1) (Attn.qkv 1 x0 x1) b h t s := by
  rw [val_main_v14_apply, val_main_v12_apply, val_main_v13_apply, scale_eq, Ideal.mulf_def]
  unfold Attn.score
  congr 1
  refine Finset.sum_congr rfl fun k _ => ?_
  have el : lidx_main_v12 (ix4 b h t s) k = ix4 b h t k := by
    funext a; match a with | ⟨0, _⟩ => rfl | ⟨1, _⟩ => rfl | ⟨2, _⟩ => rfl | ⟨3, _⟩ => rfl
  have er : ridx_main_v12 (ix4 b h t s) k = ix4 b h s k := by
    funext a; match a with | ⟨0, _⟩ => rfl | ⟨1, _⟩ => rfl | ⟨2, _⟩ => rfl | ⟨3, _⟩ => rfl
  rw [el, er, q_entry, k_entry]

/-! ## The causal mask -/

/-- A word of a number below 2^31 reads that number signed. -/
theorem toInt_ofNat_small (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The mask bit at (query position t, key position s): set exactly when s ≤ t. -/
theorem mask_entry (t s : Fin 2048) :
    val_main_v16 (F := Ideal) (ix2 t s) = if s.val ≤ t.val then 1#1 else 0#1 := by
  rw [val_main_v16_apply, val_main_call0_v4_apply, val_main_call0_v2_apply, val_main_call0_v0_apply,
    val_main_call0_v1_apply, val_main_call0_c_apply, val_main_call0_v3_apply, val_main_v15_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  have hadd : IntOp.addi (BitVec.ofNat 32 t.val) 0#32 = BitVec.ofNat 32 t.val := BitVec.add_zero _
  rw [hadd]
  by_cases hst : s.val ≤ t.val
  · rw [if_pos hst]
    have hc : IntOp.cmpi .sge (BitVec.ofNat 32 t.val) (BitVec.ofNat 32 s.val) = 1#1 := by
      rw [IntOp.cmpi_sge, toInt_ofNat_small _ t.isLt, toInt_ofNat_small _ s.isLt]; exact_mod_cast hst
    rw [hc, select_one]
  · rw [if_neg hst]
    have hc : IntOp.cmpi .sge (BitVec.ofNat 32 t.val) (BitVec.ofNat 32 s.val) = 0#1 := by
      apply eq_zero_of_ne_one
      rw [IntOp.cmpi_sge, toInt_ofNat_small _ t.isLt, toInt_ofNat_small _ s.isLt]
      intro hle; exact hst (by exact_mod_cast hle)
    rw [hc, select_zero]

/-- The masked score: the score at a key position up to the query position, -inf beyond it. -/
theorem mscore_entry (x0 : TX) (x1 : TW) (b : Fin 2) (h : Fin 16) (t s : Fin 2048) :
    val_main_v17 (F := Ideal) x0 x1 (ix4 b h t s)
      = Attn.mscore (Attn.qkv 0 x0 x1) (Attn.qkv 1 x0 x1) b h t s := by
  rw [val_main_v17_apply, val_main_call1_v1_apply, val_main_call1_v2_apply, val_main_call1_v0_apply,
    val_main_cst_1_apply, score_entry]
  have ei : idx_main_call1_v1 (ix4 b h t s) = ix2 t s := by
    funext a; match a with | ⟨0, _⟩ => rfl | ⟨1, _⟩ => rfl
  rw [ei, mask_entry]
  unfold Attn.mscore
  by_cases hst : s.val ≤ t.val
  · rw [if_pos hst, if_pos hst, select_one]
  · rw [if_neg hst, if_neg hst, select_zero, Ideal.ofBits_def, ofBits_negInf]

/-! ## The row maximum -/

/-- The shapes of the reduction over the key axis. -/
theorem reduces_d3 : S2x16x2048x2048.Reduces [3] S2x16x2048 := by decide

/-- The reduced index (b, h, t) with key position k put back is (b, h, t, k). -/
theorem lift_d3 (b : Fin 2) (h : Fin 16) (t : Fin 2048) (k : Fin (S2x16x2048x2048.size 3)) :
    reduces_d3.lift (ix3 b h t) k = ix4 b h t (⟨k.val, k.isLt⟩ : Fin 2048) := by
  funext c; apply Fin.ext
  fin_cases c <;> rfl

/-- The reference's maximum over the key axis is the maximum of the masked row, folded from -inf. -/
theorem rowmax_entry (x0 : TX) (x1 : TW) (b : Fin 2) (h : Fin 16) (t : Fin 2048) :
    val_main_v18 (F := Ideal) x0 x1 (ix3 b h t)
      = Flash.foldMax (fun s : Fin 2048 => Attn.mscore (Attn.qkv 0 x0 x1) (Attn.qkv 1 x0 x1) b h t s) := by
  unfold val_main_v18
  refine (Host.reduce_eq_fold_single (FloatOps.maximumf (F := Ideal) (φ := .f32)) (val_main_v17 (F := Ideal) x0 x1)
    (val_main_cst_2 (F := Ideal)) reducesTo_S2x16x2048x2048_S2x16x2048_d3 reduces_d3 h_S_ (ix3 b h t)).trans ?_
  have hf : (val_main_v17 (F := Ideal) x0 x1 ∘ reduces_d3.lift (ix3 b h t))
      = fun s : Fin 2048 => Attn.mscore (Attn.qkv 0 x0 x1) (Attn.qkv 1 x0 x1) b h t s := by
    funext k
    show val_main_v17 (F := Ideal) x0 x1 (reduces_d3.lift (ix3 b h t) k) = _
    rw [lift_d3, mscore_entry]
    rfl
  have hi : val_main_cst_2 (F := Ideal) (Shape.Idx.first h_S_) = (⊥ : EReal) := by
    rw [val_main_cst_2_apply, Ideal.ofBits_def, ofBits_negInf]
  rw [hi]
  unfold Flash.foldMax
  exact congrArg (fun f => Finset.fold max (⊥ : EReal) f (Finset.univ : Finset (Fin 2048))) hf

/-- The maximum with -inf changes nothing. -/
theorem rowmax'_entry (x0 : TX) (x1 : TW) (b : Fin 2) (h : Fin 16) (t : Fin 2048) :
    val_main_v20 (F := Ideal) x0 x1 (ix3 b h t)
      = Flash.foldMax (fun s : Fin 2048 => Attn.mscore (Attn.qkv 0 x0 x1) (Attn.qkv 1 x0 x1) b h t s) := by
  rw [val_main_v20_apply, val_main_v19_apply, val_main_cst_3_apply, Ideal.maximumf_def, Ideal.ofBits_def,
    ofBits_negInf, max_eq_right bot_le, rowmax_entry]

/-- The row maximum broadcast back along the key axis. -/
theorem rowmaxB_entry (x0 : TX) (x1 : TW) (b : Fin 2) (h : Fin 16) (t s : Fin 2048) :
    val_main_v22 (F := Ideal) x0 x1 (ix4 b h t s)
      = Flash.foldMax (fun s : Fin 2048 => Attn.mscore (Attn.qkv 0 x0 x1) (Attn.qkv 1 x0 x1) b h t s) := by
  rw [val_main_v22_apply, val_main_v21_apply]
  have ei : idx_main_v21 (idx_main_v22 (ix4 b h t s)) = ix3 b h t := by
    funext a; match a with | ⟨0, _⟩ => rfl | ⟨1, _⟩ => rfl | ⟨2, _⟩ => rfl
  rw [ei, rowmax'_entry]

/-! ## The softmax weights -/

/-- The exponential of a masked score relative to the row maximum. -/
theorem exp_entry (x0 : TX) (x1 : TW) (b : Fin 2) (h : Fin 16) (t s : Fin 2048) :
    val_main_v24 (F := Ideal) x0 x1 (ix4 b h t s)
      = Ideal.exp (Attn.mscore (Attn.qkv 0 x0 x1) (Attn.qkv 1 x0 x1) b h t s
          - Flash.foldMax (fun s : Fin 2048 => Attn.mscore (Attn.qkv 0 x0 x1) (Attn.qkv 1 x0 x1) b h t s)) := by
  rw [val_main_v24_apply, val_main_v23_apply, Ideal.hostUnary_exp_def, Ideal.subf_def, mscore_entry, rowmaxB_entry]

/-- The row's normaliser: zero plus the sum of the exponentials over the key positions. -/
theorem norm_entry (x0 : TX) (x1 : TW) (b : Fin 2) (h : Fin 16) (t : Fin 2048) :
    val_main_v25 (F := Ideal) x0 x1 (ix3 b h t)
      = ∑ s' : Fin 2048, Ideal.exp (Attn.mscore (Attn.qkv 0 x0 x1) (Attn.qkv 1 x0 x1) b h t s'
          - Flash.foldMax (fun s : Fin 2048 => Attn.mscore (Attn.qkv 0 x0 x1) (Attn.qkv 1 x0 x1) b h t s)) := by
  rw [val_main_v25_apply, val_main_cst_4_apply, Ideal.ofBits_def, Ideal.ofBits_zero_f32, zero_add]
  refine Finset.sum_congr rfl fun k _ => ?_
  have ei : idx_main_v25 (ix3 b h t) k = ix4 b h t k := by
    funext a; match a with | ⟨0, _⟩ => rfl | ⟨1, _⟩ => rfl | ⟨2, _⟩ => rfl | ⟨3, _⟩ => rfl
  rw [ei, exp_entry]

/-- The normaliser broadcast back along the key axis. -/
theorem normB_entry (x0 : TX) (x1 : TW) (b : Fin 2) (h : Fin 16) (t s : Fin 2048) :
    val_main_v27 (F := Ideal) x0 x1 (ix4 b h t s)
      = ∑ s' : Fin 2048, Ideal.exp (Attn.mscore (Attn.qkv 0 x0 x1) (Attn.qkv 1 x0 x1) b h t s'
          - Flash.foldMax (fun s : Fin 2048 => Attn.mscore (Attn.qkv 0 x0 x1) (Attn.qkv 1 x0 x1) b h t s)) := by
  rw [val_main_v27_apply, val_main_v26_apply]
  have ei : idx_main_v26 (idx_main_v27 (ix4 b h t s)) = ix3 b h t := by
    funext a; match a with | ⟨0, _⟩ => rfl | ⟨1, _⟩ => rfl | ⟨2, _⟩ => rfl
  rw [ei, norm_entry]

/-- The softmax weight: the exponential divided by the normaliser. -/
theorem weight_entry (x0 : TX) (x1 : TW) (b : Fin 2) (h : Fin 16) (t s : Fin 2048) :
    val_main_v28 (F := Ideal) x0 x1 (ix4 b h t s)
      = Ideal.div
          (Ideal.exp (Attn.mscore (Attn.qkv 0 x0 x1) (Attn.qkv 1 x0 x1) b h t s
            - Flash.foldMax (fun s : Fin 2048 => Attn.mscore (Attn.qkv 0 x0 x1) (Attn.qkv 1 x0 x1) b h t s)))
          (∑ s' : Fin 2048, Ideal.exp (Attn.mscore (Attn.qkv 0 x0 x1) (Attn.qkv 1 x0 x1) b h t s'
            - Flash.foldMax (fun s : Fin 2048 => Attn.mscore (Attn.qkv 0 x0 x1) (Attn.qkv 1 x0 x1) b h t s))) := by
  rw [val_main_v28_apply, Ideal.hostDivf_def, exp_entry, normB_entry]

/-! ## The attention output and the output projection -/

/-- The weighted sum of the values over the key positions is the two-pass softmax form. -/
theorem attn_entry (x0 : TX) (x1 : TW) (b : Fin 2) (h : Fin 16) (t : Fin 2048) (j : Fin 64) :
    val_main_v29 (F := Ideal) x0 x1 (ix4 b h t j)
      = Attn.attn (Attn.qkv 0 x0 x1) (Attn.qkv 1 x0 x1) (Attn.qkv 2 x0 x1) (ix4 b h t j) := by
  rw [val_main_v29_apply]
  show _ = Flash.twoPass (fun s : Fin 2048 => Attn.mscore (Attn.qkv 0 x0 x1) (Attn.qkv 1 x0 x1) b h t s)
    (fun s : Fin 2048 => Attn.qkv 2 x0 x1 (ix4 b h s j))
  unfold Flash.twoPass
  refine Finset.sum_congr rfl fun k _ => ?_
  have el : lidx_main_v29 (ix4 b h t j) k = ix4 b h t k := by
    funext a; match a with | ⟨0, _⟩ => rfl | ⟨1, _⟩ => rfl | ⟨2, _⟩ => rfl | ⟨3, _⟩ => rfl
  have er : ridx_main_v29 (ix4 b h t j) k = ix4 b h k j := by
    funext a; match a with | ⟨0, _⟩ => rfl | ⟨1, _⟩ => rfl | ⟨2, _⟩ => rfl | ⟨3, _⟩ => rfl
  rw [el, er, weight_entry, v_entry]

/-- The heads merged back: feature d of the merged axis is feature d % 64 of head d / 64. -/
theorem merged_entry (x0 : TX) (x1 : TW) (b : Fin 2) (t : Fin 2048) (d : Fin 1024) :
    val_main_v31 (F := Ideal) x0 x1 (ix3 b t d)
      = Attn.attn (Attn.qkv 0 x0 x1) (Attn.qkv 1 x0 x1) (Attn.qkv 2 x0 x1)
          (ix4 b (Attn.headOf d) t (Attn.featOf d)) := by
  rw [val_main_v31_apply, val_main_v30_apply]
  have hb := b.isLt; have ht := t.isLt; have hd := d.isLt
  have ei : idx_main_v30 (idx_main_v31 (ix3 b t d)) = ix4 b (Attn.headOf d) t (Attn.featOf d) := by
    funext a
    match a with
    | ⟨0, _⟩ => exact Fin.ext (by show ((b.val * 2048 + t.val) * 1024 + d.val) / 2097152 = b.val; omega)
    | ⟨1, _⟩ => exact Fin.ext (by show ((b.val * 2048 + t.val) * 1024 + d.val) / 64 % 16 = d.val / 64; omega)
    | ⟨2, _⟩ => exact Fin.ext (by show ((b.val * 2048 + t.val) * 1024 + d.val) / 1024 % 2048 = t.val; omega)
    | ⟨3, _⟩ => exact Fin.ext (by show ((b.val * 2048 + t.val) * 1024 + d.val) % 64 = d.val % 64; omega)
  rw [ei, attn_entry]

/-- The output projection. -/
theorem out_entry (x0 : TX) (x1 : TW) (x2 : TWo) (b : Fin 2) (t : Fin 2048) (e : Fin 1024) :
    val_main_v32 (F := Ideal) x0 x1 x2 (ix3 b t e) = Attn.layer x0 x1 x2 (ix3 b t e) := by
  rw [val_main_v32_apply]
  show _ = ∑ d : Fin 1024, Attn.attn (Attn.qkv 0 x0 x1) (Attn.qkv 1 x0 x1) (Attn.qkv 2 x0 x1)
      (ix4 b (Attn.headOf d) t (Attn.featOf d)) * x2 (ix2 e d)
  refine Finset.sum_congr rfl fun k _ => ?_
  have el : lidx_main_v32 (ix3 b t e) k = ix3 b t k := by
    funext a; match a with | ⟨0, _⟩ => rfl | ⟨1, _⟩ => rfl | ⟨2, _⟩ => rfl
  have er : ridx_main_v32 (ix3 b t e) k = ix2 e k := by
    funext a; match a with | ⟨0, _⟩ => rfl | ⟨1, _⟩ => rfl
  rw [el, er, merged_entry]

/-! ## The reference is the layer -/

/-- At every extended-real input the reference program's result is the attention layer of Spec.lean. -/
theorem ref_eq_layer (x0 : TX) (x1 : TW) (x2 : TWo) :
    Cert.ReferenceIdeal.Read.val_main_v32 (F := Ideal) x0 x1 x2 = Attn.layer x0 x1 x2 := by
  funext i
  rw [eq_ix3 i]
  exact out_entry x0 x1 x2 (i 0) (i 1) (i 2)

end Cert.ReferenceIdeal.RefValue

end
-- ==== Proof.lean ====
/-
  Causal multi-head self-attention: a three-stage tiled kernel (fused QKV projection with head split, streaming
  causal attention over 1024-wide key tiles with a running maximum, running normaliser and running weighted sum,
  output projection with the head merge) against the plain formulation (one projection, a masked softmax over the
  whole key axis, a weighted sum, one output projection).

  On the extended reals the two agree because, for every query row, the streaming recurrence ends at the row's
  largest unmasked score M, at L = sum of exp (score - M) over the unmasked keys and at A = sum of
  exp (score - M) * value over the unmasked keys, and A * (1 / L) is the softmax-weighted sum of the values
  (a finite sum of reals divided termwise by the positive real L).  The kernel's mask fill is the extended real
  -inf, whose exponential relative to a real maximum is 0, exactly as in the plain formulation.  Both sides are
  the one function `Attn.layer` of the three argument arrays: the plain formulation for all extended-real inputs,
  the kernel for real ones (finiteness of the inputs is what makes the projections, hence the scores and values, real).
-/
import proofs.«122748_j71631464563424_2_alg».proof.Defs
import proofs.«122748_j71631464563424_2_alg».proof.Proof.Gen.Kernel
import proofs.«122748_j71631464563424_2_alg».proof.Proof.Gen.KernelIdeal
import proofs.«122748_j71631464563424_2_alg».proof.Proof.Gen.ReferenceIdeal
import proofs.«122748_j71631464563424_2_alg».proof.Proof.Gen.ReferenceIdeal.Run
import proofs.«122748_j71631464563424_2_alg».proof.Proof.Gen.ReferenceIdeal.Read
import proofs.«122748_j71631464563424_2_alg».proof.Proof.Gen.Pre_finite_inputs
import proofs.«122748_j71631464563424_2_alg».proof.Proof.KRun
import proofs.«122748_j71631464563424_2_alg».proof.Proof.KIRun
import proofs.«122748_j71631464563424_2_alg».proof.Proof.KIGlue
import proofs.«122748_j71631464563424_2_alg».proof.Proof.KIValue1B
import proofs.«122748_j71631464563424_2_alg».proof.Proof.KIFinal
import proofs.«122748_j71631464563424_2_alg».proof.Proof.Assemble
import proofs.«122748_j71631464563424_2_alg».proof.Proof.Finite
import proofs.«122748_j71631464563424_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as written runs to its end and leaves its arguments as they were: the three regions' runs composed. -/
theorem frame_k [Cert.Kernel.Facts] [Cert.Pre_finite_inputs.Facts] : Cert.frame_Kernel := fun m ρ _ =>
  Cert.Kernel.Gen.Att.frame_all (F := Bits) m ρ

/-- The same for the kernel as read on the extended reals. -/
theorem frame_ki [Cert.KernelIdeal.Facts] [Cert.Pre_finite_inputs.Facts] : Cert.frame_KernelIdeal := fun m ρ _ =>
  Cert.KernelIdeal.Gen.Att.frame_all (F := Ideal) m ρ

/-- The plain formulation runs to its end and leaves its arguments as they were: its run read back, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The mask fill, a large negative number in the kernel's text, is read as -inf: the one renaming between the
    kernel as written and the kernel as read on the extended reals. -/
theorem preserves : Cert.preserves_Kernel_KernelIdeal :=
  IdealRules.named_const.statement Cert.KernelIdeal.κ "neg_big" .f32 0xFF333332#32 ⊥ rfl

section Value

open Cert.KernelIdeal Cert.KernelIdeal.Gen Cert.KernelIdeal.Gen.Att

/-- On finite inputs the kernel's result array ends holding the layer of the three argument arrays: the projection
    region's arrays are the queries, keys and values; the attention region's array is their attention (their entries
    being real); the output region's array is its projection; the host operations between the regions only re-lay
    the arrays out. -/
theorem kernel_value [Cert.KernelIdeal.Facts] [Cert.Pre_finite_inputs.Facts]
    (m : (ℓ : Loc nD τ sig) → Buf (Elt Ideal) ℓ) (ρ : Dev nD → PrngReg) (hpre : Cert.Pre_KernelIdeal m) (c : Dev nD) :
    W6 (F := Ideal) m ρ c (Proc.devRef .tc main_v10)
      = Attn.layer (m ((c : Thread nD τ).loc main_arg0)) (m ((c : Thread nD τ).loc main_arg1)) (m ((c : Thread nD τ).loc main_arg2)) :=
  Cert.KernelIdeal.Final.out_eq m ρ c _ _ _ (Cert.KernelIdeal.Glue.g0 m ρ c) (Cert.KernelIdeal.Glue.g1 m ρ c)
    (Cert.KernelIdeal.Glue.g3 m ρ c) (Cert.KernelIdeal.Glue.g5_0 m ρ c) (Cert.KernelIdeal.Glue.g5_1 m ρ c)
    (Cert.KernelIdeal.Glue.g5_2 m ρ c) (Cert.KernelIdeal.Glue.g9 m ρ c)
    (fun hQ hK hV => Cert.KernelIdeal.Val1.arr_eq (V3 (F := Ideal) m ρ) c hQ hK hV)
    (Attn.layer_eq _ _ _) (Cert.Proof.Finite.real_of_Pre_KernelIdeal m hpre c)

end Value

/-- On finite inputs the kernel's result and the plain formulation's are the same array: the layer of the arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Attn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Gen.Att.run_all (F := Ideal) m ρ)
    exact ⟨(h c _ (Cert.KernelIdeal.Gen.Att.mem_uc Cert.KernelIdeal.main_v10 (by decide))).trans (kernel_value m ρ hpre c),
      (h c _ (Cert.KernelIdeal.Gen.Att.mem_uc Cert.KernelIdeal.main_arg0 (by decide))).trans (Cert.KernelIdeal.Gen.Att.W6_main_arg0 m ρ c),
      (h c _ (Cert.KernelIdeal.Gen.Att.mem_uc Cert.KernelIdeal.main_arg1 (by decide))).trans (Cert.KernelIdeal.Gen.Att.W6_main_arg1 m ρ c),
      (h c _ (Cert.KernelIdeal.Gen.Att.mem_uc Cert.KernelIdeal.main_arg2 (by decide))).trans (Cert.KernelIdeal.Gen.Att.W6_main_arg2 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, Cert.ReferenceIdeal.RefValue.ref_eq_layer,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
